-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x500000x3 : Shape := ⟨3, ![16, 500000, 3]⟩
abbrev S16x3x3 : Shape := ⟨3, ![16, 3, 3]⟩
abbrev S16x3 : Shape := ⟨2, ![16, 3]⟩
abbrev S_ : Shape := ⟨0, ![]⟩

class Facts : Prop where
  bcast_S_S16x500000x3 : S_.BroadcastsInDim S16x500000x3 (![] : Fin 0 → Fin S16x500000x3.rank)
  reducesTo_S16x500000x3_S_d0_1_2 : S16x500000x3.ReducesTo [0, 1, 2] S_
  h_S_ : 0 < S_.numel
  bcast_S_S16x3x3 : S_.BroadcastsInDim S16x3x3 (![] : Fin 0 → Fin S16x3x3.rank)
  reducesTo_S16x3x3_S_d0_1_2 : S16x3x3.ReducesTo [0, 1, 2] S_
  bcast_S_S16x3 : S_.BroadcastsInDim S16x3 (![] : Fin 0 → Fin S16x3.rank)
  reducesTo_S16x3_S_d0_1 : S16x3.ReducesTo [0, 1] S_

variable [Facts]

def fn_part1 {F : FTy → Type} [FloatOps F] (main_v13 : IVec S_ 1) (main_v16 : IVec S16x3x3 1) : IVec S_ 1 :=
  let main_c_5 : IVec S_ 1 := constantI S_ 1 1#1
  let main_v17 : IVec S_ 1 := (fun x v => Host.reduce IntOp.andi x v reducesTo_S16x3x3_S_d0_1_2 h_S_) main_v16 main_c_5
  let main_v18 : IVec S_ 1 := andi main_v13 main_v17
  main_v18

def fn {F : FTy → Type} [FloatOps F] (main_arg0 : FVec F S16x500000x3 .f32) (main_arg1 : FVec F S16x3x3 .f32) (main_arg2 : FVec F S16x3 .f32) (main_arg3 : FVec F S16x3x3 .f32) : IVec S_ 1 :=
  let main_v0 : FVec F S16x500000x3 .f32 := Host.absf main_arg0
  let main_cst : FVec F S_ .f32 := constant S_ .f32 0x7F800000#32
  let main_v1 : FVec F S16x500000x3 .f32 := broadcastInDim S16x500000x3 ![] bcast_S_S16x500000x3 main_cst
  let main_v2 : IVec S16x500000x3 1 := cmpf .olt main_v0 main_v1
  let main_c : IVec S_ 1 := constantI S_ 1 1#1
  let main_v3 : IVec S_ 1 := (fun x v => Host.reduce IntOp.andi x v reducesTo_S16x500000x3_S_d0_1_2 h_S_) main_v2 main_c
  let main_v4 : FVec F S16x3x3 .f32 := Host.absf main_arg1
  let main_cst_0 : FVec F S_ .f32 := constant S_ .f32 0x7F800000#32
  let main_v5 : FVec F S16x3x3 .f32 := broadcastInDim S16x3x3 ![] bcast_S_S16x3x3 main_cst_0
  let main_v6 : IVec S16x3x3 1 := cmpf .olt main_v4 main_v5
  let main_c_1 : IVec S_ 1 := constantI S_ 1 1#1
  let main_v7 : IVec S_ 1 := (fun x v => Host.reduce IntOp.andi x v reducesTo_S16x3x3_S_d0_1_2 h_S_) main_v6 main_c_1
  let main_v8 : IVec S_ 1 := andi main_v3 main_v7
  let main_v9 : FVec F S16x3 .f32 := Host.absf main_arg2
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  let main_v14 : FVec F S16x3x3 .f32 := Host.absf main_arg3
  let main_cst_4 : FVec F S_ .f32 := constant S_ .f32 0x7F800000#32
  let main_v15 : FVec F S16x3x3 .f32 := broadcastInDim S16x3x3 ![] bcast_S_S16x3x3 main_cst_4
  let main_v16 : IVec S16x3x3 1 := cmpf .olt main_v14 main_v15
  fn_part1 (F := F) main_v13 main_v16
-- ==== Kernel.lean ====
abbrev S16x500000x3 : Shape := ⟨3, ![16, 500000, 3]⟩
abbrev S16x3x3 : Shape := ⟨3, ![16, 3, 3]⟩
abbrev S16x3 : Shape := ⟨2, ![16, 3]⟩
abbrev S16x3x500000 : Shape := ⟨3, ![16, 3, 500000]⟩
abbrev S_ : Shape := ⟨0, ![]⟩
abbrev S16x3x524288 : Shape := ⟨3, ![16, 3, 524288]⟩
abbrev S16x1x3 : Shape := ⟨3, ![16, 1, 3]⟩
abbrev S16x1x524288 : Shape := ⟨3, ![16, 1, 524288]⟩
abbrev S1x3x32768 : Shape := ⟨3, ![1, 3, 32768]⟩
abbrev S1x3x3 : Shape := ⟨3, ![1, 3, 3]⟩
abbrev S1x1x3 : Shape := ⟨3, ![1, 1, 3]⟩
abbrev S1x1x32768 : Shape := ⟨3, ![1, 1, 32768]⟩
abbrev S3x32768 : Shape := ⟨2, ![3, 32768]⟩
abbrev S1x32768 : Shape := ⟨2, ![1, 32768]⟩
abbrev S32768 : Shape := ⟨1, ![32768]⟩
abbrev S3x3 : Shape := ⟨2, ![3, 3]⟩
abbrev S3 : Shape := ⟨1, ![3]⟩
abbrev S1x1 : Shape := ⟨2, ![1, 1]⟩
abbrev S1 : Shape := ⟨1, ![1]⟩
abbrev S8388608 : Shape := ⟨1, ![8388608]⟩
abbrev S802817 : Shape := ⟨1, ![802817]⟩
abbrev S8388608x1 : Shape := ⟨2, ![8388608, 1]⟩
abbrev S802816 : Shape := ⟨1, ![802816]⟩
abbrev S802816x1 : Shape := ⟨2, ![802816, 1]⟩
abbrev S16x1x224x224 : Shape := ⟨4, ![16, 1, 224, 224]⟩

abbrev nBuf : Space → Nat
  | .hbm => 39
  | .vmem => 12
  | .smem => 0
  | _ => 0

abbrev bufTy : (tb : Table) → Fin (tcTables nBuf tb) → BufTy
  | .hbm, ⟨0, _⟩ => ⟨S16x500000x3, .f32⟩
  | .hbm, ⟨1, _⟩ => ⟨S16x3x3, .f32⟩
  | .hbm, ⟨2, _⟩ => ⟨S16x3, .f32⟩
  | .hbm, ⟨3, _⟩ => ⟨S16x3x3, .f32⟩
  | .hbm, ⟨4, _⟩ => ⟨S16x3x500000, .f32⟩
  | .hbm, ⟨5, _⟩ => ⟨S_, .i32⟩
  | .hbm, ⟨6, _⟩ => ⟨S_, .f32⟩
  | .hbm, ⟨7, _⟩ => ⟨S16x3x524288, .f32⟩
  | .hbm, ⟨8, _⟩ => ⟨S16x1x3, .f32⟩
  | .hbm, ⟨9, _⟩ => ⟨S16x1x524288, .i32⟩
  | .hbm, ⟨10, _⟩ => ⟨S16x1x524288, .f32⟩
  | .hbm, ⟨11, _⟩ => ⟨S8388608, .i32⟩
  | .hbm, ⟨12, _⟩ => ⟨S8388608, .f32⟩
  | .hbm, ⟨13, _⟩ => ⟨S8388608, .i32⟩
  | .hbm, ⟨14, _⟩ => ⟨S_, .i32⟩
  | .hbm, ⟨15, _⟩ => ⟨S802817, .i32⟩
  | .hbm, ⟨16, _⟩ => ⟨S8388608x1, .i32⟩
  | .hbm, ⟨17, _⟩ => ⟨S802817, .i32⟩
  | .hbm, ⟨18, _⟩ => ⟨S802816, .i32⟩
  | .hbm, ⟨19, _⟩ => ⟨S_, .i32⟩
  | .hbm, ⟨20, _⟩ => ⟨S802816, .i32⟩
  | .hbm, ⟨21, _⟩ => ⟨S802816, .i1⟩
  | .hbm, ⟨22, _⟩ => ⟨S_, .i32⟩
  | .hbm, ⟨23, _⟩ => ⟨S_, .i32⟩
  | .hbm, ⟨24, _⟩ => ⟨S802816, .i32⟩
  | .hbm, ⟨25, _⟩ => ⟨S802816, .i32⟩
  | .hbm, ⟨26, _⟩ => ⟨S_, .i32⟩
  | .hbm, ⟨27, _⟩ => ⟨S802816, .i32⟩
  | .hbm, ⟨28, _⟩ => ⟨S802816, .i1⟩
  | .hbm, ⟨29, _⟩ => ⟨S_, .i32⟩
  | .hbm, ⟨30, _⟩ => ⟨S802816, .i32⟩
  | .hbm, ⟨31, _⟩ => ⟨S802816, .i32⟩
  | .hbm, ⟨32, _⟩ => ⟨S802816, .i32⟩
  | .hbm, ⟨33, _⟩ => ⟨S802816x1, .i32⟩
  | .hbm, ⟨34, _⟩ => ⟨S802816, .f32⟩
  | .hbm, ⟨35, _⟩ => ⟨S_, .f32⟩
  | .hbm, ⟨36, _⟩ => ⟨S802816, .f32⟩
  | .hbm, ⟨37, _⟩ => ⟨S802816, .f32⟩
  | .hbm, ⟨38, _⟩ => ⟨S16x1x224x224, .f32⟩
  | .local _ .vmem, ⟨0, _⟩ => ⟨S1x3x32768, .f32⟩
  | .local _ .vmem, ⟨1, _⟩ => ⟨S1x3x32768, .f32⟩
  | .local _ .vmem, ⟨2, _⟩ => ⟨S1x3x3, .f32⟩
  | .local _ .vmem, ⟨3, _⟩ => ⟨S1x3x3, .f32⟩
  | .local _ .vmem, ⟨4, _⟩ => ⟨S1x1x3, .f32⟩
  | .local _ .vmem, ⟨5, _⟩ => ⟨S1x1x3, .f32⟩
  | .local _ .vmem, ⟨6, _⟩ => ⟨S1x3x3, .f32⟩
  | .local _ .vmem, ⟨7, _⟩ => ⟨S1x3x3, .f32⟩
  | .local _ .vmem, ⟨8, _⟩ => ⟨S1x1x32768, .i32⟩
  | .local _ .vmem, ⟨9, _⟩ => ⟨S1x1x32768, .i32⟩
  | .local _ .vmem, ⟨10, _⟩ => ⟨S1x1x32768, .f32⟩
  | .local _ .vmem, ⟨11, _⟩ => ⟨S1x1x32768, .f32⟩
  | _, _ => ⟨S16x500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x32768 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S16x500000x3_S16x3x500000_0_2_1 : S16x500000x3.Transposes [0, 2, 1] S16x3x500000
  pads_S16x3x500000_S16x3x524288_000_000_0242880 : S16x3x500000.Pads (![0, 0, 0] : Fin 3 → Nat) ![0, 0, 24288] ![0, 0, 0] S16x3x524288
  h_S_ : 0 < S_.numel
  shapeCasts_S16x3_S16x1x3 : S16x3.ShapeCasts S16x1x3
  inb_S1x3x32768_S1x3x32768_0_0_0 : ∀ a, (![0, 0, 0] : Fin 3 → Nat) a + S1x3x32768.size a ≤ S1x3x32768.size a
  h_S1x3x32768 : 0 < S1x3x32768.numel
  shapeCasts_S1x3x32768_S3x32768 : S1x3x32768.ShapeCasts S3x32768
  slices_S3x32768_o0_0_S1x32768 : S3x32768.Slices ![0, 0] S1x32768
  shapeCasts_S1x32768_S32768 : S1x32768.ShapeCasts S32768
  slices_S3x32768_o1_0_S1x32768 : S3x32768.Slices ![1, 0] S1x32768
  slices_S3x32768_o2_0_S1x32768 : S3x32768.Slices ![2, 0] S1x32768
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  inb_S1x1x3_S1x1x3_0_0_0 : ∀ a, (![0, 0, 0] : Fin 3 → Nat) a + S1x1x3.size a ≤ S1x1x3.size a
  h_S1x1x3 : 0 < S1x1x3.numel
  shapeCasts_S1x1x3_S3 : S1x1x3.ShapeCasts S3
  slices_S3x3_o0_0_S1x1 : S3x3.Slices ![0, 0] S1x1
  inpos_S1x1_p0_0 : ∀ a, (![0, 0] : Fin 2 → Nat) a < S1x1.size a
  slices_S3x3_o1_1_S1x1 : S3x3.Slices ![1, 1] S1x1
  slices_S3x3_o0_2_S1x1 : S3x3.Slices ![0, 2] S1x1
  slices_S3x3_o1_2_S1x1 : S3x3.Slices ![1, 2] S1x1
  slices_S3x3_o0_1_S1x1 : S3x3.Slices ![0, 1] S1x1
  slices_S3_o0_S1 : S3.Slices ![0] S1
  inpos_S1_p0 : ∀ a, (![0] : Fin 1 → Nat) a < S1.size a
  slices_S3x3_o1_0_S1x1 : S3x3.Slices ![1, 0] S1x1
  slices_S3_o1_S1 : S3.Slices ![1] S1
  slices_S3x3_o2_0_S1x1 : S3x3.Slices ![2, 0] S1x1
  slices_S3x3_o2_1_S1x1 : S3x3.Slices ![2, 1] S1x1
  slices_S3x3_o2_2_S1x1 : S3x3.Slices ![2, 2] S1x1
  slices_S3_o2_S1 : S3.Slices ![2] S1
  iota_S1x32768_d1_w32 : S1x32768.Iotas .tc 32 [1]
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S32768 : S1x1x32768.ShapeCasts S32768
  shapeCasts_S32768_S1x1x32768 : S32768.ShapeCasts S1x1x32768
  shapeCasts_S16x1x524288_S8388608 : S16x1x524288.ShapeCasts S8388608
  bcast_S_S802817 : S_.BroadcastsInDim S802817 (![] : Fin 0 → Fin S802817.rank)
  bcast_S8388608_S8388608x1_0 : S8388608.BroadcastsInDim S8388608x1 (![0] : Fin 1 → Fin S8388608x1.rank)
  slices_S802817_S802816_0 : S802817.Slices ![0] S802816
  bcast_S_S802816 : S_.BroadcastsInDim S802816 (![] : Fin 0 → Fin S802816.rank)
  bcast_S802816_S802816x1_0 : S802816.BroadcastsInDim S802816x1 (![0] : Fin 1 → Fin S802816x1.rank)
  shapeCasts_S802816_S16x1x224x224 : S802816.ShapeCasts S16x1x224x224
  scatter_S802817_S8388608x1_S8388608_n_0_0_1_wf : ScatterDims.WF S802817 S8388608x1 S8388608 [] [0] [0] 1
  gather_S8388608_S802816x1_S802816_n_0_n_n_0_1_1_wf : GatherDims.WF S8388608 S802816x1 S802816 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x32768.size a ≤ S16x3x524288.size a
  hwx0_0 : ∀ i : grid0.Coords, EltTy.bits .f32 = 32 ∨ (Rect.block (s := S16x3x524288) S1x3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x3.size a ≤ S16x3x3.size a
  hwx0_1 : ∀ i : grid0.Coords, EltTy.bits .f32 = 32 ∨ (Rect.block (s := S16x3x3) S1x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3.size a ≤ S16x1x3.size a
  hwx0_2 : ∀ i : grid0.Coords, EltTy.bits .f32 = 32 ∨ (Rect.block (s := S16x1x3) S1x1x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x3.size a ≤ S16x3x3.size a
  hwx0_3 : ∀ i : grid0.Coords, EltTy.bits .f32 = 32 ∨ (Rect.block (s := S16x3x3) S1x3x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32768.size a ≤ S16x1x524288.size a
  hwx0_4 : ∀ i : grid0.Coords, EltTy.bits .i32 = 32 ∨ (Rect.block (s := S16x1x524288) S1x1x32768.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32768.size a ≤ S16x1x524288.size a
  hwx0_5 : ∀ i : grid0.Coords, EltTy.bits .f32 = 32 ∨ (Rect.block (s := S16x1x524288) S1x1x32768.size (cc0_transform_5 i) (hinb0_5 i)).WholeWords (EltTy.packing .f32)

variable [Facts₀]

def scatter_S802817_S8388608x1_S8388608_n_0_0_1 : ScatterDims S802817 S8388608x1 S8388608 where
  updateWindowDims := []
  insertedWindowDims := [0]
  scatterDimsToOperandDims := [0]
  indexVectorDim := 1
  wf := scatter_S802817_S8388608x1_S8388608_n_0_0_1_wf
def gather_S8388608_S802816x1_S802816_n_0_n_n_0_1_1 : GatherDims S8388608 S802816x1 S802816 where
  offsetDims := []
  collapsedSliceDims := [0]
  operandBatchingDims := []
  startIndicesBatchingDims := []
  startIndexMap := [0]
  indexVectorDim := 1
  sliceSizes := ![1]
  wf := gather_S8388608_S802816x1_S802816_n_0_n_n_0_1_1_wf

abbrev win0_0 : Pipeline.Window sig grid0 :=
  Pipeline.Window.ofSpec (Memref.whole main_v1) S1x3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x3x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1x32768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x500000x3 : Shape := ⟨3, ![16, 500000, 3]⟩
abbrev S16x3x3 : Shape := ⟨3, ![16, 3, 3]⟩
abbrev S16x3 : Shape := ⟨2, ![16, 3]⟩
abbrev S16x1x3 : Shape := ⟨3, ![16, 1, 3]⟩
abbrev S16x1x1 : Shape := ⟨3, ![16, 1, 1]⟩
abbrev S16 : Shape := ⟨1, ![16]⟩
abbrev S16x1 : Shape := ⟨2, ![16, 1]⟩
abbrev S16x500000x1 : Shape := ⟨3, ![16, 500000, 1]⟩
abbrev S16x500000 : Shape := ⟨2, ![16, 500000]⟩
abbrev S_ : Shape := ⟨0, ![]⟩
abbrev S8000000 : Shape := ⟨1, ![8000000]⟩
abbrev S802817 : Shape := ⟨1, ![802817]⟩
abbrev S8000000x1 : Shape := ⟨2, ![8000000, 1]⟩
abbrev S802816 : Shape := ⟨1, ![802816]⟩
abbrev S802816x1 : Shape := ⟨2, ![802816, 1]⟩
abbrev S16x1x224x224 : Shape := ⟨4, ![16, 1, 224, 224]⟩

abbrev nBuf : Space → Nat
  | .hbm => 113
  | .vmem => 0
  | .smem => 0
  | _ => 0

abbrev bufTy : (tb : Table) → Fin (tcTables nBuf tb) → BufTy
  | .hbm, ⟨0, _⟩ => ⟨S16x500000x3, .f32⟩
  | .hbm, ⟨1, _⟩ => ⟨S16x3x3, .f32⟩
  | .hbm, ⟨2, _⟩ => ⟨S16x3, .f32⟩
  | .hbm, ⟨3, _⟩ => ⟨S16x3x3, .f32⟩
  | .hbm, ⟨4, _⟩ => ⟨S16x500000x3, .f32⟩
  | .hbm, ⟨5, _⟩ => ⟨S16x1x3, .f32⟩
  | .hbm, ⟨6, _⟩ => ⟨S16x500000x3, .f32⟩
  | .hbm, ⟨7, _⟩ => ⟨S16x500000x3, .f32⟩
  | .hbm, ⟨8, _⟩ => ⟨S16x1x1, .f32⟩
  | .hbm, ⟨9, _⟩ => ⟨S16, .f32⟩
  | .hbm, ⟨10, _⟩ => ⟨S16x1, .f32⟩
  | .hbm, ⟨11, _⟩ => ⟨S16x1x1, .f32⟩
  | .hbm, ⟨12, _⟩ => ⟨S16, .f32⟩
  | .hbm, ⟨13, _⟩ => ⟨S16x1, .f32⟩
  | .hbm, ⟨14, _⟩ => ⟨S16x1x1, .f32⟩
  | .hbm, ⟨15, _⟩ => ⟨S16, .f32⟩
  | .hbm, ⟨16, _⟩ => ⟨S16x1, .f32⟩
  | .hbm, ⟨17, _⟩ => ⟨S16x1x1, .f32⟩
  | .hbm, ⟨18, _⟩ => ⟨S16, .f32⟩
  | .hbm, ⟨19, _⟩ => ⟨S16x1, .f32⟩
  | .hbm, ⟨20, _⟩ => ⟨S16x500000x1, .f32⟩
  | .hbm, ⟨21, _⟩ => ⟨S16x500000, .f32⟩
  | .hbm, ⟨22, _⟩ => ⟨S_, .f32⟩
  | .hbm, ⟨23, _⟩ => ⟨S16x500000, .f32⟩
  | .hbm, ⟨24, _⟩ => ⟨S16x500000, .f32⟩
  | .hbm, ⟨25, _⟩ => ⟨S16x500000x1, .f32⟩
  | .hbm, ⟨26, _⟩ => ⟨S16x500000, .f32⟩
  | .hbm, ⟨27, _⟩ => ⟨S16x500000, .f32⟩
  | .hbm, ⟨28, _⟩ => ⟨S16x500000, .f32⟩
  | .hbm, ⟨29, _⟩ => ⟨S16x500000, .f32⟩
  | .hbm, ⟨30, _⟩ => ⟨S16x500000, .f32⟩
  | .hbm, ⟨31, _⟩ => ⟨S16x500000, .f32⟩
  | .hbm, ⟨32, _⟩ => ⟨S16x500000x1, .f32⟩
  | .hbm, ⟨33, _⟩ => ⟨S16x500000, .f32⟩
  | .hbm, ⟨34, _⟩ => ⟨S16x500000, .f32⟩
  | .hbm, ⟨35, _⟩ => ⟨S16x500000, .f32⟩
  | .hbm, ⟨36, _⟩ => ⟨S16x500000, .f32⟩
  | .hbm, ⟨37, _⟩ => ⟨S16x500000, .f32⟩
  | .hbm, ⟨38, _⟩ => ⟨S16x500000, .f32⟩
  | .hbm, ⟨39, _⟩ => ⟨S_, .f32⟩
  | .hbm, ⟨40, _⟩ => ⟨S16x500000, .f32⟩
  | .hbm, ⟨41, _⟩ => ⟨S16x500000, .i1⟩
  | .hbm, ⟨42, _⟩ => ⟨S16x500000, .f32⟩
  | .hbm, ⟨43, _⟩ => ⟨S16x500000, .f32⟩
  | .hbm, ⟨44, _⟩ => ⟨S16x500000, .f32⟩
  | .hbm, ⟨45, _⟩ => ⟨S16x500000, .i32⟩
  | .hbm, ⟨46, _⟩ => ⟨S_, .f32⟩
  | .hbm, ⟨47, _⟩ => ⟨S16x500000, .f32⟩
  | .hbm, ⟨48, _⟩ => ⟨S16x500000, .i1⟩
  | .hbm, ⟨49, _⟩ => ⟨S16x500000, .f32⟩
  | .hbm, ⟨50, _⟩ => ⟨S16x500000, .f32⟩
  | .hbm, ⟨51, _⟩ => ⟨S16x500000, .f32⟩
  | .hbm, ⟨52, _⟩ => ⟨S16x500000, .i32⟩
  | .hbm, ⟨53, _⟩ => ⟨S16x500000x1, .f32⟩
  | .hbm, ⟨54, _⟩ => ⟨S16x500000, .f32⟩
  | .hbm, ⟨55, _⟩ => ⟨S_, .i32⟩
  | .hbm, ⟨56, _⟩ => ⟨S16x500000, .i32⟩
  | .hbm, ⟨57, _⟩ => ⟨S16x500000, .i1⟩
  | .hbm, ⟨58, _⟩ => ⟨S_, .i32⟩
  | .hbm, ⟨59, _⟩ => ⟨S16x500000, .i32⟩
  | .hbm, ⟨60, _⟩ => ⟨S16x500000, .i1⟩
  | .hbm, ⟨61, _⟩ => ⟨S16x500000, .i1⟩
  | .hbm, ⟨62, _⟩ => ⟨S_, .i32⟩
  | .hbm, ⟨63, _⟩ => ⟨S16x500000, .i32⟩
  | .hbm, ⟨64, _⟩ => ⟨S16x500000, .i1⟩
  | .hbm, ⟨65, _⟩ => ⟨S16x500000, .i1⟩
  | .hbm, ⟨66, _⟩ => ⟨S_, .i32⟩
  | .hbm, ⟨67, _⟩ => ⟨S16x500000, .i32⟩
  | .hbm, ⟨68, _⟩ => ⟨S16x500000, .i1⟩
  | .hbm, ⟨69, _⟩ => ⟨S16x500000, .i1⟩
  | .hbm, ⟨70, _⟩ => ⟨S16, .i32⟩
  | .hbm, ⟨71, _⟩ => ⟨S16x1, .i32⟩
  | .hbm, ⟨72, _⟩ => ⟨S_, .i32⟩
  | .hbm, ⟨73, _⟩ => ⟨S16x1, .i32⟩
  | .hbm, ⟨74, _⟩ => ⟨S16x1, .i32⟩
  | .hbm, ⟨75, _⟩ => ⟨S_, .i32⟩
  | .hbm, ⟨76, _⟩ => ⟨S16x500000, .i32⟩
  | .hbm, ⟨77, _⟩ => ⟨S16x500000, .i32⟩
  | .hbm, ⟨78, _⟩ => ⟨S16x500000, .i32⟩
  | .hbm, ⟨79, _⟩ => ⟨S16x500000, .i32⟩
  | .hbm, ⟨80, _⟩ => ⟨S16x500000, .i32⟩
  | .hbm, ⟨81, _⟩ => ⟨S_, .i32⟩
  | .hbm, ⟨82, _⟩ => ⟨S_, .i32⟩
  | .hbm, ⟨83, _⟩ => ⟨S16x500000, .i32⟩
  | .hbm, ⟨84, _⟩ => ⟨S16x500000, .i32⟩
  | .hbm, ⟨85, _⟩ => ⟨S8000000, .i32⟩
  | .hbm, ⟨86, _⟩ => ⟨S8000000, .i32⟩
  | .hbm, ⟨87, _⟩ => ⟨S_, .i32⟩
  | .hbm, ⟨88, _⟩ => ⟨S802817, .i32⟩
  | .hbm, ⟨89, _⟩ => ⟨S8000000x1, .i32⟩
  | .hbm, ⟨90, _⟩ => ⟨S802817, .i32⟩
  | .hbm, ⟨91, _⟩ => ⟨S802816, .i32⟩
  | .hbm, ⟨92, _⟩ => ⟨S_, .i32⟩
  | .hbm, ⟨93, _⟩ => ⟨S802816, .i32⟩
  | .hbm, ⟨94, _⟩ => ⟨S802816, .i1⟩
  | .hbm, ⟨95, _⟩ => ⟨S8000000, .f32⟩
  | .hbm, ⟨96, _⟩ => ⟨S_, .i32⟩
  | .hbm, ⟨97, _⟩ => ⟨S_, .i32⟩
  | .hbm, ⟨98, _⟩ => ⟨S802816, .i32⟩
  | .hbm, ⟨99, _⟩ => ⟨S802816, .i32⟩
  | .hbm, ⟨100, _⟩ => ⟨S_, .i32⟩
  | .hbm, ⟨101, _⟩ => ⟨S802816, .i32⟩
  | .hbm, ⟨102, _⟩ => ⟨S802816, .i1⟩
  | .hbm, ⟨103, _⟩ => ⟨S_, .i32⟩
  | .hbm, ⟨104, _⟩ => ⟨S802816, .i32⟩
  | .hbm, ⟨105, _⟩ => ⟨S802816, .i32⟩
  | .hbm, ⟨106, _⟩ => ⟨S802816, .i32⟩
  | .hbm, ⟨107, _⟩ => ⟨S802816x1, .i32⟩
  | .hbm, ⟨108, _⟩ => ⟨S802816, .f32⟩
  | .hbm, ⟨109, _⟩ => ⟨S_, .f32⟩
  | .hbm, ⟨110, _⟩ => ⟨S802816, .f32⟩
  | .hbm, ⟨111, _⟩ => ⟨S802816, .f32⟩
  | .hbm, ⟨112, _⟩ => ⟨S16x1x224x224, .f32⟩
  | _, _ => ⟨S16x500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_v34 : Ref sig .tc := ⟨.hbm, 44, rfl⟩
abbrev main_v35 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_v41 : Ref sig .tc := ⟨.hbm, 57, rfl⟩
abbrev main_c_0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_1 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_3 : Ref sig .tc := ⟨.hbm, 72, rfl⟩
abbrev main_v53 : Ref sig .tc := ⟨.hbm, 73, rfl⟩
abbrev main_v54 : Ref sig .tc := ⟨.hbm, 74, rfl⟩
abbrev main_c_4 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_5 : Ref sig .tc := ⟨.hbm, 81, rfl⟩
abbrev main_call2_v0 : Ref sig .tc := ⟨.hbm, 82, rfl⟩
abbrev main_call2_v1 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_8 : Ref sig .tc := ⟨.hbm, 96, rfl⟩
abbrev main_call3_v0 : Ref sig .tc := ⟨.hbm, 97, rfl⟩
abbrev main_call3_v1 : Ref sig .tc := ⟨.hbm, 98, rfl⟩
abbrev main_v70 : Ref sig .tc := ⟨.hbm, 99, rfl⟩
abbrev main_c_9 : Ref sig .tc := ⟨.hbm, 100, rfl⟩
abbrev main_v71 : Ref sig .tc := ⟨.hbm, 101, rfl⟩
abbrev main_v72 : Ref sig .tc := ⟨.hbm, 102, rfl⟩
abbrev main_c_10 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_call4_v0 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  bcast_S16x3_S16x1x3_0_2 : S16x3.BroadcastsInDim S16x1x3 (![0, 2] : Fin 2 → Fin S16x1x3.rank)
  bcast_S16x1x3_S16x500000x3_0_1_2 : S16x1x3.BroadcastsInDim S16x500000x3 (![0, 1, 2] : Fin 3 → Fin S16x500000x3.rank)
  slices_S16x3x3_S16x1x1_0_0_0 : S16x3x3.Slices ![0, 0, 0] S16x1x1
  shapeCasts_S16x1x1_S16 : S16x1x1.ShapeCasts S16
  bcast_S16_S16x1_0 : S16.BroadcastsInDim S16x1 (![0] : Fin 1 → Fin S16x1.rank)
  slices_S16x3x3_S16x1x1_0_1_1 : S16x3x3.Slices ![0, 1, 1] S16x1x1
  slices_S16x3x3_S16x1x1_0_0_2 : S16x3x3.Slices ![0, 0, 2] S16x1x1
  slices_S16x3x3_S16x1x1_0_1_2 : S16x3x3.Slices ![0, 1, 2] S16x1x1
  slices_S16x500000x3_S16x500000x1_0_0_2 : S16x500000x3.Slices ![0, 0, 2] S16x500000x1
  shapeCasts_S16x500000x1_S16x500000 : S16x500000x1.ShapeCasts S16x500000
  bcast_S_S16x500000 : S_.BroadcastsInDim S16x500000 (![] : Fin 0 → Fin S16x500000.rank)
  slices_S16x500000x3_S16x500000x1_0_0_0 : S16x500000x3.Slices ![0, 0, 0] S16x500000x1
  bcast_S16x1_S16x500000_0_1 : S16x1.BroadcastsInDim S16x500000 (![0, 1] : Fin 2 → Fin S16x500000.rank)
  slices_S16x500000x3_S16x500000x1_0_0_1 : S16x500000x3.Slices ![0, 0, 1] S16x500000x1
  bcast_S_S16x1 : S_.BroadcastsInDim S16x1 (![] : Fin 0 → Fin S16x1.rank)
  shapeCasts_S16x500000_S8000000 : S16x500000.ShapeCasts S8000000
  bcast_S_S802817 : S_.BroadcastsInDim S802817 (![] : Fin 0 → Fin S802817.rank)
  bcast_S8000000_S8000000x1_0 : S8000000.BroadcastsInDim S8000000x1 (![0] : Fin 1 → Fin S8000000x1.rank)
  slices_S802817_S802816_0 : S802817.Slices ![0] S802816
  bcast_S_S802816 : S_.BroadcastsInDim S802816 (![] : Fin 0 → Fin S802816.rank)
  bcast_S802816_S802816x1_0 : S802816.BroadcastsInDim S802816x1 (![0] : Fin 1 → Fin S802816x1.rank)
  shapeCasts_S802816_S16x1x224x224 : S802816.ShapeCasts S16x1x224x224
  dot_S16x500000x3_S16x3x3_S16x500000x3_2_2_1_1_0_0_wf : DotDims.WF S16x500000x3 S16x3x3 S16x500000x3 [2] [2] [1] [1] [0] [0]
  scatter_S802817_S8000000x1_S8000000_n_0_0_1_wf : ScatterDims.WF S802817 S8000000x1 S8000000 [] [0] [0] 1
  gather_S8000000_S802816x1_S802816_n_0_n_n_0_1_1_wf : GatherDims.WF S8000000 S802816x1 S802816 [] [0] [] [0] [] 1 ![1]

variable [Facts₀]

def dot_S16x500000x3_S16x3x3_S16x500000x3_2_2_1_1_0_0 : DotDims S16x500000x3 S16x3x3 S16x500000x3 where
  lhsContracting := [2]
  rhsContracting := [2]
  lhsNonContracting := [1]
  rhsNonContracting := [1]
  lhsBatch := [0]
  rhsBatch := [0]
  wf := dot_S16x500000x3_S16x3x3_S16x500000x3_2_2_1_1_0_0_wf
def scatter_S802817_S8000000x1_S8000000_n_0_0_1 : ScatterDims S802817 S8000000x1 S8000000 where
  updateWindowDims := []
  insertedWindowDims := [0]
  scatterDimsToOperandDims := [0]
  indexVectorDim := 1
  wf := scatter_S802817_S8000000x1_S8000000_n_0_0_1_wf
def gather_S8000000_S802816x1_S802816_n_0_n_n_0_1_1 : GatherDims S8000000 S802816x1 S802816 where
  offsetDims := []
  collapsedSliceDims := [0]
  operandBatchingDims := []
  startIndicesBatchingDims := []
  startIndexMap := [0]
  indexVectorDim := 1
  sliceSizes := ![1]
  wf := gather_S8000000_S802816x1_S802816_n_0_n_n_0_1_1_wf

class Facts : Prop extends Facts₀ where

variable [Facts]
-- ==== Proof.KLoads.lean ====
/-
  The kernel body's loads, read at an index. One grid point sees a block `x0 : [1, 3, 32768]` of the transposed, padded
  vertices (channel on the middle axis, 32768 consecutive points on the last), the batch's rotation `x1 : [1, 3, 3]`,
  translation `x2 : [1, 1, 3]` and intrinsics `x3 : [1, 3, 3]`. The body drops the leading unit axis, cuts the vertex
  block into its three channel rows and picks single entries of the small matrices; here each of those values is named by
  the coordinates of the block it comes from: row `r` of the vertices at lane `q` is `x0 (0, r, q)`, entry `(r, c)` of a
  matrix is `x (0, r, c)`, entry `k` of the translation is `x2 (0, 0, k)`, and the lane counter at lane `q` is `q`.
-/
import proofs.«125162_j89988154786228_1_alg».proof.Proof.Gen.KernelIdeal.Skeleton
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Idealize.ShloMosaic Idealize.ShloMosaic.ValueIdx Idealize.ShloMosaic.Pipeline

variable {F : FTy → Type} [FloatOps F]

/-- Row `r` of the vertex block, as the body cuts it out, at lane `q`. -/
theorem row_apply (x0 : Vec F S1x3x32768 .f32) (r : Fin 3) (q : Fin 32768)
    (hs : S3x32768.Slices ![r.val, 0] S1x32768) :
    shapeCast S32768 (extractStridedSlice S1x32768 ![r.val, 0] (k0_pay3 x0) hs) shapeCasts_S1x32768_S32768 (ix1 q)
      = x0 (ix3 (0 : Fin 1) r q) := by
  rw [shapeCast_1a_a_apply]
  rw [extractStridedSlice_apply ![r.val, 0] (k0_pay3 x0) hs (ix2 (0 : Fin 1) q) (ix2 r q)
    (fun a => match a with | ⟨0, _⟩ => by show r.val = r.val + 0; omega | ⟨1, _⟩ => by show q.val = 0 + q.val; omega)]
  unfold k0_pay3
  exact shapeCast_1ab_ab_apply x0 _ r q

theorem pay4_apply (x0 : Vec F S1x3x32768 .f32) (q : Fin 32768) : k0_pay4 x0 (ix1 q) = x0 (ix3 (0 : Fin 1) (0 : Fin 3) q) :=
  row_apply x0 0 q slices_S3x32768_o0_0_S1x32768
theorem pay5_apply (x0 : Vec F S1x3x32768 .f32) (q : Fin 32768) : k0_pay5 x0 (ix1 q) = x0 (ix3 (0 : Fin 1) (1 : Fin 3) q) :=
  row_apply x0 1 q slices_S3x32768_o1_0_S1x32768
theorem pay6_apply (x0 : Vec F S1x3x32768 .f32) (q : Fin 32768) : k0_pay6 x0 (ix1 q) = x0 (ix3 (0 : Fin 1) (2 : Fin 3) q) :=
  row_apply x0 2 q slices_S3x32768_o2_0_S1x32768

/-- Entry `(r, c)` of a 3×3 matrix held as a `[1, 3, 3]` block, as the body picks it. -/
theorem entry_apply (x : Vec F S1x3x3 .f32) (ro co : Nat) (r c : Fin 3) (hr : r.val = ro) (hc : c.val = co)
    (hs : S3x3.Slices ![ro, co] S1x1) :
    extractAt ![0, 0] (extractStridedSlice S1x1 ![ro, co] (shapeCast S3x3 x shapeCasts_S1x3x3_S3x3) hs) inpos_S1x1_p0_0
      = x (ix3 (0 : Fin 1) r c) := by
  unfold extractAt
  rw [extractStridedSlice_apply ![ro, co] _ hs _ (ix2 r c)
    (fun a => match a with | ⟨0, _⟩ => by show r.val = ro + 0; omega | ⟨1, _⟩ => by show c.val = co + 0; omega)]
  exact shapeCast_1ab_ab_apply x _ r c

/-- Entry `k` of the translation held as a `[1, 1, 3]` block, as the body picks it. -/
theorem trans_apply (x : Vec F S1x1x3 .f32) (ko : Nat) (k : Fin 3) (hk : k.val = ko) (hs : S3.Slices ![ko] S1) :
    extractAt ![0] (extractStridedSlice S1 ![ko] (shapeCast S3 x shapeCasts_S1x1x3_S3) hs) inpos_S1_p0
      = x (ix3 (0 : Fin 1) (0 : Fin 1) k) := by
  unfold extractAt
  rw [extractStridedSlice_apply ![ko] _ hs _ (ix1 k)
    (fun a => match a with | ⟨0, _⟩ => by show k.val = ko + 0; omega)]
  exact shapeCast_apply x _ _ _ (by
    rw [Shape.rowMajor_val_three, Shape.rowMajor_val_one]
    show (0 * 1 + 0) * 3 + k.val = k.val
    omega)

/-- The lane counter at lane `q` is `q`. -/
theorem pay21_apply (q : Fin 32768) : k0_pay21 (ix1 q) = BitVec.ofNat 32 q.val := by
  unfold k0_pay21
  rw [shapeCast_1a_a_apply, iota_single_apply]

end Cert.KernelIdeal.KValue

end
-- ==== Proof.Spec.lean ====
/-
  One point of the point cloud, projected: the function both programs compute for point `n` of batch `b`, written once
  on the extended reals and on 32-bit words, with no program in sight.

  A vertex `x = (x0, x1, x2)` goes to camera space by a row of the rotation and a translation,
  `vc_k = ((x0·R[k,0] + x1·R[k,1]) + x2·R[k,2]) + t_k`; it is projected through the intrinsics,
  `u = fx · (vc_0 / (vc_2 + ε)) + cx`, `v = fy · (vc_1 / (vc_2 + ε)) + cy`, with `ε` the f32 nearest `1e-8` (one
  word, the same on both sides, never evaluated); `u` and `v` are truncated toward zero (the ceiling of a negative
  number, the floor of any other) and converted to signed 32-bit integers; the point lands in pixel
  `b · 224² + v · 224 + u` of the stacked images when `0 ≤ u, v < 224`, and otherwise in the dump segment `16 · 224²`.
  Its depth is `vc_2`. Sums of extended reals are taken in the order written; nothing here needs a finite input.
-/
import Idealize.ShloMosaic.PureOps.Ideal
import Idealize.ShloMosaic.Lib.ValueIdx

noncomputable section

namespace Cert.Spec

open Idealize.ShloMosaic Idealize.ShloMosaic.ValueIdx

/-- An extended real: a float at the ideal instance. -/
abbrev E : Type := Ideal .f32

/-- One camera-space coordinate: a vertex against one row of the rotation, plus that row's translation. -/
def camCoord (x0 x1 x2 r0 r1 r2 t : E) : E :=
  FloatOps.addf (FloatOps.addf (FloatOps.addf (FloatOps.mulf x0 r0) (FloatOps.mulf x1 r1)) (FloatOps.mulf x2 r2)) t

/-- The guard added to the depth before dividing: the f32 nearest `1e-8`. -/
def eps : E := FloatOps.ofBits .f32 0x322BCC77#32

/-- One image coordinate: focal length times (coordinate over guarded depth), plus the principal point. -/
def project (f c num z : E) : E :=
  FloatOps.addf (FloatOps.mulf f (FloatOps.divf num (FloatOps.addf z eps))) c

/-- Truncation toward zero, then the conversion to a signed 32-bit integer. -/
def truncToInt (x : E) : BitVec 32 :=
  FloatOps.fptosi 32
    (Scalar.select (FloatOps.cmpf .olt x (FloatOps.ofBits .f32 0x00000000#32)) (FloatOps.ceil x) (FloatOps.floor x))

/-- Both image coordinates lie in `[0, 224)`, as signed integers: the conjunction in the order both programs take it. -/
def inImage (ui vi : BitVec 32) : BitVec 1 :=
  IntOp.andi (IntOp.andi (IntOp.andi (IntOp.cmpi .sge ui 0#32) (IntOp.cmpi .slt ui 224#32)) (IntOp.cmpi .sge vi 0#32))
    (IntOp.cmpi .slt vi 224#32)

/-- The pixel of batch `b` a point with integer image coordinates `(ui, vi)` would land in. -/
def pixelOf (b ui vi : BitVec 32) : BitVec 32 :=
  IntOp.addi (IntOp.addi (IntOp.muli b 50176#32) (IntOp.muli vi 224#32)) ui

/-- The segment a point is scattered to: its pixel when it is in the image, the dump segment otherwise. -/
def segmentOf (b ui vi : BitVec 32) : BitVec 32 :=
  Scalar.select (inImage ui vi) (pixelOf b ui vi) 802816#32

variable (a0 : (⟨3, ![16, 500000, 3]⟩ : Shape).Idx → E) (a1 : (⟨3, ![16, 3, 3]⟩ : Shape).Idx → E)
  (a2 : (⟨2, ![16, 3]⟩ : Shape).Idx → E) (a3 : (⟨3, ![16, 3, 3]⟩ : Shape).Idx → E)

/-- Camera-space coordinate `k` of point `n` of batch `b`. -/
def cam (b : Fin 16) (n : Fin 500000) (k : Fin 3) : E :=
  camCoord (a0 (ix3 b n 0)) (a0 (ix3 b n 1)) (a0 (ix3 b n 2)) (a1 (ix3 b k 0)) (a1 (ix3 b k 1)) (a1 (ix3 b k 2)) (a2 (ix2 b k))

/-- The horizontal image coordinate of the point, before truncation. -/
def imgU (b : Fin 16) (n : Fin 500000) : E :=
  project (a3 (ix3 b 0 0)) (a3 (ix3 b 0 2)) (cam a0 a1 a2 b n 0) (cam a0 a1 a2 b n 2)

/-- The vertical image coordinate of the point, before truncation. -/
def imgV (b : Fin 16) (n : Fin 500000) : E :=
  project (a3 (ix3 b 1 1)) (a3 (ix3 b 1 2)) (cam a0 a1 a2 b n 1) (cam a0 a1 a2 b n 2)

/-- The segment point `n` of batch `b` is scattered to. -/
def pointSegment (b : Fin 16) (n : Fin 500000) : BitVec 32 :=
  segmentOf (BitVec.ofNat 32 b.val) (truncToInt (imgU a0 a1 a2 a3 b n)) (truncToInt (imgV a0 a1 a2 a3 b n))

/-- The depth point `n` of batch `b` would write. -/
def pointDepth (b : Fin 16) (n : Fin 500000) : E := cam a0 a1 a2 b n 2

end Cert.Spec

end
-- ==== Proof.KPayload.lean ====
/-
  The kernel body's arithmetic at one lane, at the ideal instance. For the point held at lane `q` of a vertex block the
  body computes the three camera-space coordinates `((x0·R[k,0] + x1·R[k,1]) + x2·R[k,2]) + t_k`, the guarded depth
  `vc_2 + ε`, and the two image coordinates `f · (vc_k / (vc_2 + ε)) + c` truncated toward zero to signed integers.
  Each is the specification's function (`Cert.Spec`) of the block entries named by coordinates: every step is a
  pointwise operation, so the index passes through unchanged until it meets one of the loads.
-/
import proofs.«125162_j89988154786228_1_alg».proof.Proof.KLoads
import proofs.«125162_j89988154786228_1_alg».proof.Proof.Spec

set_option maxRecDepth 16384

noncomputable section

namespace Cert.KernelIdeal.KValue

open Cert.KernelIdeal Cert.KernelIdeal.Gen Idealize.ShloMosaic Idealize.ShloMosaic.ValueIdx Idealize.ShloMosaic.Pipeline

variable (x0 : Vec Ideal S1x3x32768 .f32) (x1 : Vec Ideal S1x3x3 .f32) (x2 : Vec Ideal S1x1x3 .f32)
  (x3 : Vec Ideal S1x3x3 .f32)

/-- Camera-space coordinate `k` of the point at lane `q` of the block. -/
def blkCam (q : Fin 32768) (k : Fin 3) : Cert.Spec.E :=
  Cert.Spec.camCoord (x0 (ix3 (0 : Fin 1) (0 : Fin 3) q)) (x0 (ix3 (0 : Fin 1) (1 : Fin 3) q)) (x0 (ix3 (0 : Fin 1) (2 : Fin 3) q))
    (x1 (ix3 (0 : Fin 1) k (0 : Fin 3))) (x1 (ix3 (0 : Fin 1) k (1 : Fin 3))) (x1 (ix3 (0 : Fin 1) k (2 : Fin 3)))
    (x2 (ix3 (0 : Fin 1) (0 : Fin 1) k))

/-- The horizontal image coordinate of that point, truncated to an integer. -/
def blkU (q : Fin 32768) : BitVec 32 :=
  Cert.Spec.truncToInt (Cert.Spec.project (x3 (ix3 (0 : Fin 1) (0 : Fin 3) (0 : Fin 3))) (x3 (ix3 (0 : Fin 1) (0 : Fin 3) (2 : Fin 3)))
    (blkCam x0 x1 x2 q 0) (blkCam x0 x1 x2 q 2))

/-- The vertical image coordinate of that point, truncated to an integer. -/
def blkV (q : Fin 32768) : BitVec 32 :=
  Cert.Spec.truncToInt (Cert.Spec.project (x3 (ix3 (0 : Fin 1) (1 : Fin 3) (1 : Fin 3))) (x3 (ix3 (0 : Fin 1) (1 : Fin 3) (2 : Fin 3)))
    (blkCam x0 x1 x2 q 1) (blkCam x0 x1 x2 q 2))

theorem pay14_apply (q : Fin 32768) : k0_pay14 (F := Ideal) x0 x1 x2 (ix1 q) = blkCam x0 x1 x2 q 0 := by
  unfold k0_pay14 blkCam Cert.Spec.camCoord k0_pay7 k0_pay8
  show FloatOps.addf (FloatOps.addf (FloatOps.addf (FloatOps.mulf (k0_pay4 x0 (ix1 q)) _) (FloatOps.mulf (k0_pay5 x0 (ix1 q)) _))
    (FloatOps.mulf (k0_pay6 x0 (ix1 q)) _)) _ = _
  rw [pay4_apply, pay5_apply, pay6_apply, entry_apply x1 0 0 0 0 rfl rfl, entry_apply x1 0 1 0 1 rfl rfl,
    entry_apply x1 0 2 0 2 rfl rfl, trans_apply x2 0 0 rfl]
  rfl

theorem pay15_apply (q : Fin 32768) :
    k0_pay15 (F := Ideal) x0 x1 (ix1 q) = FloatOps.mulf (x0 (ix3 (0 : Fin 1) (0 : Fin 3) q)) (x1 (ix3 (0 : Fin 1) (1 : Fin 3) (0 : Fin 3))) := by
  unfold k0_pay15 k0_pay7
  show FloatOps.mulf (k0_pay4 x0 (ix1 q)) _ = _
  rw [pay4_apply, entry_apply x1 1 0 1 0 rfl rfl]
  rfl

theorem pay17_apply (q : Fin 32768) :
    k0_pay17 (F := Ideal) (k0_pay4 x0) (k0_pay5 x0) (k0_pay6 x0) (k0_pay7 x1) (k0_pay8 x2) (ix1 q) = blkCam x0 x1 x2 q 2 := by
  unfold k0_pay17 blkCam Cert.Spec.camCoord k0_pay7 k0_pay8
  show FloatOps.addf (FloatOps.addf (FloatOps.addf (FloatOps.mulf (k0_pay4 x0 (ix1 q)) _) (FloatOps.mulf (k0_pay5 x0 (ix1 q)) _))
    (FloatOps.mulf (k0_pay6 x0 (ix1 q)) _)) _ = _
  rw [pay4_apply, pay5_apply, pay6_apply, entry_apply x1 2 0 2 0 rfl rfl, entry_apply x1 2 1 2 1 rfl rfl,
    entry_apply x1 2 2 2 2 rfl rfl, trans_apply x2 2 2 rfl]
  rfl

theorem pay18_apply (q : Fin 32768) :
    k0_pay18 (F := Ideal) (k0_pay4 x0) (k0_pay5 x0) (k0_pay6 x0) (k0_pay7 x1) (k0_pay8 x2) (ix1 q)
      = FloatOps.addf (blkCam x0 x1 x2 q 2) Cert.Spec.eps := by
  unfold k0_pay18
  show FloatOps.addf (k0_pay17 (F := Ideal) (k0_pay4 x0) (k0_pay5 x0) (k0_pay6 x0) (k0_pay7 x1) (k0_pay8 x2) (ix1 q)) _ = _
  rw [pay17_apply]
  rfl

theorem pay19_apply (q : Fin 32768) :
    k0_pay19 (F := Ideal) (k0_pay4 x0) (k0_pay5 x0) (k0_pay6 x0) (k0_pay7 x1) (k0_pay8 x2) (k0_pay10 x3) (k0_pay12 x3)
      (k0_pay14 x0 x1 x2) (ix1 q) = blkU x0 x1 x2 x3 q := by
  have e10 : k0_pay10 (F := Ideal) x3 = x3 (ix3 (0 : Fin 1) (0 : Fin 3) (0 : Fin 3)) := by
    unfold k0_pay10 k0_pay9; exact entry_apply x3 0 0 0 0 rfl rfl _
  have e12 : k0_pay12 (F := Ideal) x3 = x3 (ix3 (0 : Fin 1) (0 : Fin 3) (2 : Fin 3)) := by
    unfold k0_pay12 k0_pay9; exact entry_apply x3 0 2 0 2 rfl rfl _
  rw [e10, e12]
  unfold k0_pay19 blkU Cert.Spec.truncToInt Cert.Spec.project
  show FloatOps.fptosi 32 (Scalar.select (FloatOps.cmpf .olt (FloatOps.addf (FloatOps.mulf _ (FloatOps.divf (k0_pay14 (F := Ideal) x0 x1 x2 (ix1 q))
      (k0_pay18 (F := Ideal) (k0_pay4 x0) (k0_pay5 x0) (k0_pay6 x0) (k0_pay7 x1) (k0_pay8 x2) (ix1 q)))) _) _)
    (FloatOps.ceil (FloatOps.addf (FloatOps.mulf _ (FloatOps.divf (k0_pay14 (F := Ideal) x0 x1 x2 (ix1 q))
      (k0_pay18 (F := Ideal) (k0_pay4 x0) (k0_pay5 x0) (k0_pay6 x0) (k0_pay7 x1) (k0_pay8 x2) (ix1 q)))) _))
    (FloatOps.floor (FloatOps.addf (FloatOps.mulf _ (FloatOps.divf (k0_pay14 (F := Ideal) x0 x1 x2 (ix1 q))
      (k0_pay18 (F := Ideal) (k0_pay4 x0) (k0_pay5 x0) (k0_pay6 x0) (k0_pay7 x1) (k0_pay8 x2) (ix1 q)))) _))) = _
  rw [pay14_apply, pay18_apply]
  rfl

theorem pay20_apply (q : Fin 32768) :
    k0_pay20 (F := Ideal) (k0_pay4 x0) (k0_pay5 x0) (k0_pay6 x0) (k0_pay7 x1) (k0_pay8 x2) (k0_pay11 x3) (k0_pay13 x3)
      (k0_pay15 x0 x1) (k0_pay16 x1) (ix1 q) = blkV x0 x1 x2 x3 q := by
  have e11 : k0_pay11 (F := Ideal) x3 = x3 (ix3 (0 : Fin 1) (1 : Fin 3) (1 : Fin 3)) := by
    unfold k0_pay11 k0_pay9; exact entry_apply x3 1 1 1 1 rfl rfl _
  have e13 : k0_pay13 (F := Ideal) x3 = x3 (ix3 (0 : Fin 1) (1 : Fin 3) (2 : Fin 3)) := by
    unfold k0_pay13 k0_pay9; exact entry_apply x3 1 2 1 2 rfl rfl _
  have e16 : k0_pay16 (F := Ideal) x1 = x1 (ix3 (0 : Fin 1) (1 : Fin 3) (1 : Fin 3)) := by
    unfold k0_pay16 k0_pay7; exact entry_apply x1 1 1 1 1 rfl rfl _
  -- the second camera coordinate, as the body accumulates it
  have hcam : FloatOps.addf (FloatOps.addf (FloatOps.addf (k0_pay15 (F := Ideal) x0 x1 (ix1 q))
        (FloatOps.mulf (k0_pay5 (F := Ideal) x0 (ix1 q)) (k0_pay16 (F := Ideal) x1)))
        (FloatOps.mulf (k0_pay6 (F := Ideal) x0 (ix1 q))
          (extractAt ![0, 0] (extractStridedSlice S1x1 ![1, 2] (k0_pay7 (F := Ideal) x1) slices_S3x3_o1_2_S1x1) inpos_S1x1_p0_0)))
        (extractAt ![0] (extractStridedSlice S1 ![1] (k0_pay8 (F := Ideal) x2) slices_S3_o1_S1) inpos_S1_p0)
      = blkCam x0 x1 x2 q 1 := by
    rw [pay15_apply, pay5_apply, pay6_apply, e16]
    unfold k0_pay7 k0_pay8
    rw [entry_apply x1 1 2 1 2 rfl rfl, trans_apply x2 1 1 rfl]
    rfl
  rw [e11, e13]
  unfold k0_pay20 blkV Cert.Spec.truncToInt Cert.Spec.project
  show FloatOps.fptosi 32 (Scalar.select (FloatOps.cmpf .olt (FloatOps.addf (FloatOps.mulf _ (FloatOps.divf _
      (k0_pay18 (F := Ideal) (k0_pay4 x0) (k0_pay5 x0) (k0_pay6 x0) (k0_pay7 x1) (k0_pay8 x2) (ix1 q)))) _) _)
    (FloatOps.ceil (FloatOps.addf (FloatOps.mulf _ (FloatOps.divf _
      (k0_pay18 (F := Ideal) (k0_pay4 x0) (k0_pay5 x0) (k0_pay6 x0) (k0_pay7 x1) (k0_pay8 x2) (ix1 q)))) _))
    (FloatOps.floor (FloatOps.addf (FloatOps.mulf _ (FloatOps.divf _
      (k0_pay18 (F := Ideal) (k0_pay4 x0) (k0_pay5 x0) (k0_pay6 x0) (k0_pay7 x1) (k0_pay8 x2) (ix1 q)))) _))) = _
  rw [pay18_apply, ← hcam]
  rfl

/-- A vector `[n]` stored as a `[1, 1, n]` block reads, at `(u, u', q)`, its entry `q`. -/
theorem shapeCast_a_11a_apply {α : Type} {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']; simp)

/-- The point's position along its batch row is inside the unpadded row: the grid's chunk times the chunk length plus
    the lane, compared as signed integers with the row length. -/
def inRange (c : BitVec 32) (q : Fin 32768) : BitVec 1 :=
  IntOp.cmpi .slt (IntOp.addi (IntOp.muli c 32768#32) (BitVec.ofNat 32 q.val)) 500000#32

/-- The segment word the body stores at lane `q`: the point's pixel when it is in the image AND inside the unpadded
    row, the dump segment otherwise. -/
theorem pay1_apply (b c : BitVec 32) (ui vi : IVec S32768 32) (u u' : Fin 1) (q : Fin 32768) :
    k0_pay1 b c ui vi k0_pay21 32768#32 (ix3 u u' q)
      = Scalar.select (IntOp.andi (Cert.Spec.inImage (ui (ix1 q)) (vi (ix1 q))) (inRange c q))
          (Cert.Spec.pixelOf b (ui (ix1 q)) (vi (ix1 q))) 802816#32 := by
  unfold k0_pay1
  rw [shapeCast_a_11a_apply]
  unfold inRange
  rw [← pay21_apply q]
  rfl

end Cert.KernelIdeal.KValue

end
-- ==== Proof.KBlocks.lean ====
/-
  What one grid point leaves in its two output blocks, and where the blocks sit in the arrays.
  At grid point `(b, c)` the body sees points `c · 32768 … c · 32768 + 32767` of batch `b`. At lane `q` it stores the
  point's depth in the depth block and, in the segment block, the point's pixel when its truncated image coordinates are
  inside the image and its position `c · 32768 + q` is inside the unpadded row, the dump segment otherwise. The vertex
  window and both output windows move with `(b, 0, c)`; the rotation, translation and intrinsics windows with `(b, 0, 0)`.
-/
import proofs.«125162_j89988154786228_1_alg».proof.Proof.KernelIdealFrame
import proofs.«125162_j89988154786228_1_alg».proof.Proof.KPayload

set_option maxRecDepth 16384

noncomputable section

namespace Cert.KernelIdeal.KValue

open Cert.KernelIdeal Cert.KernelIdeal.Gen Cert.KernelIdeal.GenP Idealize.ShloMosaic Idealize.ShloMosaic.ValueIdx
  Idealize.ShloMosaic.Pipeline

theorem hz3 : (![0, 0, 0] : Fin 3 → Nat) = fun _ => 0 := funext fun a => by fin_cases a <;> rfl

variable (x0 : Vec Ideal S1x3x32768 .f32) (x1 : Vec Ideal S1x3x3 .f32) (x2 : Vec Ideal S1x1x3 .f32)
  (x3 : Vec Ideal S1x3x3 .f32)

/-- The depth block after the body, at lane `q`: the point's third camera coordinate. -/
theorem out5_apply (u u' : Fin 1) (q : Fin 32768) :
    out0_5 (F := Ideal) x0 x1 x2 x3 (ix3 u u' q) = blkCam x0 x1 x2 q 2 := by
  unfold out0_5
  rw [View.canon_unit_zero hz3]
  simp only [View.ld_unit_zero (S := S1x3x32768) hz3, View.ld_unit_zero (S := S1x3x3) hz3, View.ld_unit_zero (S := S1x1x3) hz3]
  unfold k0_pay2
  rw [shapeCast_a_11a_apply]
  exact pay17_apply x0 x1 x2 q

/-- The segment block after the body, at lane `q`. -/
theorem out4_apply (i : grid0.Coords) (u u' : Fin 1) (q : Fin 32768) :
    out0_4 (F := Ideal) i x0 x1 x2 x3 (ix3 u u' q)
      = Scalar.select (IntOp.andi (Cert.Spec.inImage (blkU x0 x1 x2 x3 q) (blkV x0 x1 x2 x3 q)) (inRange (BitVec.ofNat 32 (i 1).val) q))
          (Cert.Spec.pixelOf (BitVec.ofNat 32 (i 0).val) (blkU x0 x1 x2 x3 q) (blkV x0 x1 x2 x3 q)) 802816#32 := by
  unfold out0_4
  rw [View.canon_unit_zero hz3]
  simp only [View.ld_unit_zero (S := S1x3x32768) hz3, View.ld_unit_zero (S := S1x3x3) hz3, View.ld_unit_zero (S := S1x1x3) hz3]
  rw [pay1_apply, pay19_apply, pay20_apply]

/-- The printed index maps, decided over the grid's 256 points: point `t` is `(t / 16, t % 16)`; the vertex window and
    the two output windows sit at block `(t / 16, 0, t % 16)`, the three small windows at `(t / 16, 0, 0)`. -/
theorem idx_facts : ∀ t : Fin cfg0.N,
    (grid0.coords t 0).val = t.val / 16 ∧ (grid0.coords t 1).val = t.val % 16
    ∧ win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = t.val % 16
    ∧ win0_5.index t (0 : Fin 3) = t.val / 16 ∧ win0_5.index t (1 : Fin 3) = 0 ∧ win0_5.index t (2 : Fin 3) = t.val % 16 :=
  (by decide +kernel : ∀ t : Fin grid0.N, _)

/-! ## The two output arrays as functions of the arrays the region finds -/

section Arrays

variable (A0 : S16x3x524288.Idx → Cert.Spec.E) (A1 : S16x3x3.Idx → Cert.Spec.E) (A2 : S16x1x3.Idx → Cert.Spec.E)
  (A3 : S16x3x3.Idx → Cert.Spec.E)

/-- Camera-space coordinate `k` of point `n` of the padded row of batch `b`. -/
def camP (b : Fin 16) (n : Fin 524288) (k : Fin 3) : Cert.Spec.E :=
  Cert.Spec.camCoord (A0 (ix3 b (0 : Fin 3) n)) (A0 (ix3 b (1 : Fin 3) n)) (A0 (ix3 b (2 : Fin 3) n))
    (A1 (ix3 b k (0 : Fin 3))) (A1 (ix3 b k (1 : Fin 3))) (A1 (ix3 b k (2 : Fin 3))) (A2 (ix3 b (0 : Fin 1) k))

/-- Its truncated horizontal image coordinate. -/
def uP (b : Fin 16) (n : Fin 524288) : BitVec 32 :=
  Cert.Spec.truncToInt (Cert.Spec.project (A3 (ix3 b (0 : Fin 3) (0 : Fin 3))) (A3 (ix3 b (0 : Fin 3) (2 : Fin 3)))
    (camP A0 A1 A2 b n 0) (camP A0 A1 A2 b n 2))

/-- Its truncated vertical image coordinate. -/
def vP (b : Fin 16) (n : Fin 524288) : BitVec 32 :=
  Cert.Spec.truncToInt (Cert.Spec.project (A3 (ix3 b (1 : Fin 3) (1 : Fin 3))) (A3 (ix3 b (1 : Fin 3) (2 : Fin 3)))
    (camP A0 A1 A2 b n 1) (camP A0 A1 A2 b n 2))

/-- The segment the kernel sends it to: position `n` is lane `n % 32768` of chunk `n / 32768`. -/
def segP (b : Fin 16) (n : Fin 524288) : BitVec 32 :=
  Scalar.select (IntOp.andi (Cert.Spec.inImage (uP A0 A1 A2 A3 b n) (vP A0 A1 A2 A3 b n))
      (inRange (BitVec.ofNat 32 (n.val / 32768)) ⟨n.val % 32768, Nat.mod_lt _ (by decide)⟩))
    (Cert.Spec.pixelOf (BitVec.ofNat 32 b.val) (uP A0 A1 A2 A3 b n) (vP A0 A1 A2 A3 b n)) 802816#32

/-- The depth array after the region, whole. -/
def Gdep : S16x1x524288.Idx → Cert.Spec.E := fun i => camP A0 A1 A2 ⟨(i 0).val, (i 0).isLt⟩ ⟨(i 2).val, (i 2).isLt⟩ 2

/-- The segment array after the region, whole. -/
def Gseg : S16x1x524288.Idx → BitVec 32 := fun i => segP A0 A1 A2 A3 ⟨(i 0).val, (i 0).isLt⟩ ⟨(i 2).val, (i 2).isLt⟩

end Arrays

variable (m : (ℓ : Loc nD τ sig) → Buf (Elt Ideal) ℓ)

/-- Row `r`, lane `q` of the vertex block at point `t` is the padded vertex array at `(t / 16, r, (t % 16) · 32768 + q)`. -/
theorem iblk0_apply (c : Dev nD) (t : Fin cfg0.N) (r : Fin 3) (q : Fin 32768) (b : Fin 16) (n : Fin 524288)
    (hb : b.val = t.val / 16) (hn : n.val = (t.val % 16) * 32768 + q.val) :
    iblk m c 0 t (ix3 (0 : Fin 1) r q) = V m c main_v1 (ix3 b r n) := by
  obtain ⟨-, -, e0, e1, e2, -⟩ := idx_facts t
  show V m c main_v1 (((cfg0.win 0).blk t).view.emb (ix3 (0 : Fin 1) r q)) = V m c main_v1 (ix3 b r n)
  refine congrArg _ (funext fun a => Fin.ext ?_)
  match a with
  | ⟨0, _⟩ => show win0_0.index t (0 : Fin 3) * 1 + 1 * 0 = b.val; omega
  | ⟨1, _⟩ => show win0_0.index t (1 : Fin 3) * 3 + 1 * r.val = r.val; omega
  | ⟨2, _⟩ => show win0_0.index t (2 : Fin 3) * 32768 + 1 * q.val = n.val; omega

/-- Entry `(r, k)` of the rotation block at point `t` is the rotation array at `(t / 16, r, k)`. -/
theorem iblk1_apply (c : Dev nD) (t : Fin cfg0.N) (r k : Fin 3) (b : Fin 16) (hb : b.val = t.val / 16) :
    iblk m c 1 t (ix3 (0 : Fin 1) r k) = V m c main_arg1 (ix3 b r k) := by
  obtain ⟨-, -, -, -, -, e0, e1, e2, -⟩ := idx_facts t
  show V m c main_arg1 (((cfg0.win 1).blk t).view.emb (ix3 (0 : Fin 1) r k)) = V m c main_arg1 (ix3 b r k)
  refine congrArg _ (funext fun a => Fin.ext ?_)
  match a with
  | ⟨0, _⟩ => show win0_1.index t (0 : Fin 3) * 1 + 1 * 0 = b.val; omega
  | ⟨1, _⟩ => show win0_1.index t (1 : Fin 3) * 3 + 1 * r.val = r.val; omega
  | ⟨2, _⟩ => show win0_1.index t (2 : Fin 3) * 3 + 1 * k.val = k.val; omega

/-- Entry `k` of the translation block at point `t` is the reshaped translation array at `(t / 16, 0, k)`. -/
theorem iblk2_apply (c : Dev nD) (t : Fin cfg0.N) (k : Fin 3) (b : Fin 16) (hb : b.val = t.val / 16) :
    iblk m c 2 t (ix3 (0 : Fin 1) (0 : Fin 1) k) = V m c main_v2 (ix3 b (0 : Fin 1) k) := by
  obtain ⟨-, -, -, -, -, -, -, -, e0, e1, e2, -⟩ := idx_facts t
  show V m c main_v2 (((cfg0.win 2).blk t).view.emb (ix3 (0 : Fin 1) (0 : Fin 1) k)) = V m c main_v2 (ix3 b (0 : Fin 1) k)
  refine congrArg _ (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 3 + 1 * k.val = k.val; omega

/-- Entry `(r, k)` of the intrinsics block at point `t` is the intrinsics array at `(t / 16, r, k)`. -/
theorem iblk3_apply (c : Dev nD) (t : Fin cfg0.N) (r k : Fin 3) (b : Fin 16) (hb : b.val = t.val / 16) :
    iblk m c 3 t (ix3 (0 : Fin 1) r k) = V m c main_arg3 (ix3 b r k) := by
  obtain ⟨-, -, -, -, -, -, -, -, -, -, -, e0, e1, e2, -⟩ := idx_facts t
  show V m c main_arg3 (((cfg0.win 3).blk t).view.emb (ix3 (0 : Fin 1) r k)) = V m c main_arg3 (ix3 b r k)
  refine congrArg _ (funext fun a => Fin.ext ?_)
  match a with
  | ⟨0, _⟩ => show win0_3.index t (0 : Fin 3) * 1 + 1 * 0 = b.val; omega
  | ⟨1, _⟩ => show win0_3.index t (1 : Fin 3) * 3 + 1 * r.val = r.val; omega
  | ⟨2, _⟩ => show win0_3.index t (2 : Fin 3) * 3 + 1 * k.val = k.val; omega

/-- The camera coordinates of the block's lane `q` are those of the array's point. -/
theorem blkCam_iblk (c : Dev nD) (t : Fin cfg0.N) (q : Fin 32768) (k : Fin 3) (b : Fin 16) (n : Fin 524288)
    (hb : b.val = t.val / 16) (hn : n.val = (t.val % 16) * 32768 + q.val) :
    blkCam (iblk m c 0 t) (iblk m c 1 t) (iblk m c 2 t) q k
      = camP (V m c main_v1) (V m c main_arg1) (V m c main_v2) b n k := by
  unfold blkCam camP
  rw [iblk0_apply m c t 0 q b n hb hn, iblk0_apply m c t 1 q b n hb hn, iblk0_apply m c t 2 q b n hb hn,
    iblk1_apply m c t k 0 b hb, iblk1_apply m c t k 1 b hb, iblk1_apply m c t k 2 b hb, iblk2_apply m c t k b hb]

theorem blkU_iblk (c : Dev nD) (t : Fin cfg0.N) (q : Fin 32768) (b : Fin 16) (n : Fin 524288)
    (hb : b.val = t.val / 16) (hn : n.val = (t.val % 16) * 32768 + q.val) :
    blkU (iblk m c 0 t) (iblk m c 1 t) (iblk m c 2 t) (iblk m c 3 t) q
      = uP (V m c main_v1) (V m c main_arg1) (V m c main_v2) (V m c main_arg3) b n := by
  unfold blkU uP
  rw [blkCam_iblk m c t q 0 b n hb hn, blkCam_iblk m c t q 2 b n hb hn, iblk3_apply m c t 0 0 b hb, iblk3_apply m c t 0 2 b hb]

theorem blkV_iblk (c : Dev nD) (t : Fin cfg0.N) (q : Fin 32768) (b : Fin 16) (n : Fin 524288)
    (hb : b.val = t.val / 16) (hn : n.val = (t.val % 16) * 32768 + q.val) :
    blkV (iblk m c 0 t) (iblk m c 1 t) (iblk m c 2 t) (iblk m c 3 t) q
      = vP (V m c main_v1) (V m c main_arg1) (V m c main_v2) (V m c main_arg3) b n := by
  unfold blkV vP
  rw [blkCam_iblk m c t q 1 b n hb hn, blkCam_iblk m c t q 2 b n hb hn, iblk3_apply m c t 1 1 b hb, iblk3_apply m c t 1 2 b hb]

/-- The segment word of lane `q` at point `t` is the array's segment function at the point's position. -/
theorem seg_iblk (c : Dev nD) (t : Fin cfg0.N) (q : Fin 32768) (b : Fin 16) (n : Fin 524288)
    (hb : b.val = t.val / 16) (hn : n.val = (t.val % 16) * 32768 + q.val) :
    Scalar.select (IntOp.andi (Cert.Spec.inImage (blkU (iblk m c 0 t) (iblk m c 1 t) (iblk m c 2 t) (iblk m c 3 t) q)
          (blkV (iblk m c 0 t) (iblk m c 1 t) (iblk m c 2 t) (iblk m c 3 t) q)) (inRange (BitVec.ofNat 32 (grid0.coords t 1).val) q))
        (Cert.Spec.pixelOf (BitVec.ofNat 32 (grid0.coords t 0).val) (blkU (iblk m c 0 t) (iblk m c 1 t) (iblk m c 2 t) (iblk m c 3 t) q)
          (blkV (iblk m c 0 t) (iblk m c 1 t) (iblk m c 2 t) (iblk m c 3 t) q)) 802816#32
      = segP (V m c main_v1) (V m c main_arg1) (V m c main_v2) (V m c main_arg3) b n := by
  obtain ⟨g0, g1, -⟩ := idx_facts t
  have hq : q.val < 32768 := q.isLt
  have h1 : n.val / 32768 = t.val % 16 := by omega
  have h2 : (⟨n.val % 32768, Nat.mod_lt _ (by decide)⟩ : Fin 32768) = q := Fin.ext (by show n.val % 32768 = q.val; omega)
  unfold segP
  rw [blkU_iblk m c t q b n hb hn, blkV_iblk m c t q b n hb hn, g0, g1, h1, h2, hb]

/-- WHAT POINT `t` WRITES BACK to the depth array is block `t` of `Gdep` of the arrays the region finds. -/
theorem flushed5_eq (c : Dev nD) (t : Fin cfg0.N) :
    (dats m 0 c).flushed 5 t
      = ((cfg0.win 5).blk t).view.read (Elt Ideal) (Gdep (V m c main_v1) (V m c main_arg1) (V m c main_v2)) := by
  show (cfg0.win 5).cut (grid0.coords t) ((dats m 0 c).after 5 t) = _
  rw [after0_5]
  funext j
  obtain ⟨u, u', q, rfl⟩ : ∃ (u u' : Fin 1) (q : Fin 32768), j = ix3 u u' q := ⟨j 0, j 1, j 2, eq_ix3 j⟩
  obtain ⟨-, -, -, -, -, -, -, -, -, -, -, -, -, -, -, -, -, e0, e1, e2⟩ := idx_facts t
  have hu : u.val = 0 := by omega
  show out0_5 (F := Ideal) (iblk m c 0 t) (iblk m c 1 t) (iblk m c 2 t) (iblk m c 3 t) (ix3 u u' q)
    = Gdep (V m c main_v1) (V m c main_arg1) (V m c main_v2) (((cfg0.win 5).blk t).view.emb (ix3 u u' q))
  rw [out5_apply]
  unfold Gdep
  exact blkCam_iblk m c t q 2 _ _ (by show win0_5.index t (0 : Fin 3) * 1 + 1 * u.val = t.val / 16; omega)
    (by show win0_5.index t (2 : Fin 3) * 32768 + 1 * q.val = t.val % 16 * 32768 + q.val; omega)

/-- WHAT POINT `t` WRITES BACK to the segment array is block `t` of `Gseg` of the arrays the region finds. -/
theorem flushed4_eq (c : Dev nD) (t : Fin cfg0.N) :
    (dats m 0 c).flushed 4 t
      = ((cfg0.win 4).blk t).view.read (Elt Ideal) (Gseg (V m c main_v1) (V m c main_arg1) (V m c main_v2) (V m c main_arg3)) := by
  show (cfg0.win 4).cut (grid0.coords t) ((dats m 0 c).after 4 t) = _
  rw [after0_4]
  funext j
  obtain ⟨u, u', q, rfl⟩ : ∃ (u u' : Fin 1) (q : Fin 32768), j = ix3 u u' q := ⟨j 0, j 1, j 2, eq_ix3 j⟩
  obtain ⟨-, -, -, -, -, -, -, -, -, -, -, -, -, -, e0, e1, e2, -⟩ := idx_facts t
  have hu : u.val = 0 := by omega
  show out0_4 (F := Ideal) (grid0.coords t) (iblk m c 0 t) (iblk m c 1 t) (iblk m c 2 t) (iblk m c 3 t) (ix3 u u' q)
    = Gseg (V m c main_v1) (V m c main_arg1) (V m c main_v2) (V m c main_arg3) (((cfg0.win 4).blk t).view.emb (ix3 u u' q))
  rw [out4_apply]
  unfold Gseg
  exact seg_iblk m c t q _ _ (by show win0_4.index t (0 : Fin 3) * 1 + 1 * u.val = t.val / 16; omega)
    (by show win0_4.index t (2 : Fin 3) * 32768 + 1 * q.val = t.val % 16 * 32768 + q.val; omega)

/-! ## The blocks tile the arrays -/

theorem mem_blk5 (t : Fin cfg0.N) (i : S16x1x524288.Idx) :
    i ∈ ((cfg0.win 5).blk t).view.set ↔ ∀ a : Fin 3, win0_5.index t a * S1x1x32768.size a ≤ (i a).val
      ∧ (i a).val < win0_5.index t a * S1x1x32768.size a + S1x1x32768.size a := by
  show i ∈ ((View.whole main_v3_1).slice (win0_5.rect t)).set ↔ _
  rw [View.set_slice_whole, Rect.mem_set_unit]
  exact Iff.rfl

theorem mem_blk4 (t : Fin cfg0.N) (i : S16x1x524288.Idx) :
    i ∈ ((cfg0.win 4).blk t).view.set ↔ ∀ a : Fin 3, win0_4.index t a * S1x1x32768.size a ≤ (i a).val
      ∧ (i a).val < win0_4.index t a * S1x1x32768.size a + S1x1x32768.size a := by
  show i ∈ ((View.whole main_v3_0).slice (win0_4.rect t)).set ↔ _
  rw [View.set_slice_whole, Rect.mem_set_unit]
  exact Iff.rfl

/-- The point whose block holds position `n` of batch `b` is `(b, n / 32768)`. -/
theorem point_lt (i : S16x1x524288.Idx) : (i 0).val * 16 + (i 2).val / 32768 < cfg0.N := by
  have hi0 : (i 0).val < 16 := (i 0).isLt
  have hi2 : (i 2).val < 524288 := (i 2).isLt
  show _ < grid0.N
  rw [N_0]; omega

theorem cover5 (i : S16x1x524288.Idx) :
    ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 524288 := (i 2).isLt
  refine ⟨⟨(i 0).val * 16 + (i 2).val / 32768, point_lt i⟩, flush0_5 _, ?_⟩
  rw [mem_blk5]
  obtain ⟨-, -, -, -, -, -, -, -, -, -, -, -, -, -, -, -, -, e0, e1, e2⟩ := idx_facts ⟨(i 0).val * 16 + (i 2).val / 32768, point_lt i⟩
  have e0' : win0_5.index ⟨(i 0).val * 16 + (i 2).val / 32768, point_lt i⟩ (0 : Fin 3) = ((i 0).val * 16 + (i 2).val / 32768) / 16 := e0
  have e2' : win0_5.index ⟨(i 0).val * 16 + (i 2).val / 32768, point_lt i⟩ (2 : Fin 3) = ((i 0).val * 16 + (i 2).val / 32768) % 16 := e2
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1 ≤ (i 1).val ∧ (i 1).val < win0_5.index _ (1 : Fin 3) * 1 + 1; omega
  | ⟨2, _⟩ => show win0_5.index _ (2 : Fin 3) * 32768 ≤ (i 2).val ∧ (i 2).val < win0_5.index _ (2 : Fin 3) * 32768 + 32768; omega

theorem cover4 (i : S16x1x524288.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 524288 := (i 2).isLt
  refine ⟨⟨(i 0).val * 16 + (i 2).val / 32768, point_lt i⟩, flush0_4 _, ?_⟩
  rw [mem_blk4]
  obtain ⟨-, -, -, -, -, -, -, -, -, -, -, -, -, -, e0, e1, e2, -⟩ := idx_facts ⟨(i 0).val * 16 + (i 2).val / 32768, point_lt i⟩
  have e0' : win0_4.index ⟨(i 0).val * 16 + (i 2).val / 32768, point_lt i⟩ (0 : Fin 3) = ((i 0).val * 16 + (i 2).val / 32768) / 16 := e0
  have e2' : win0_4.index ⟨(i 0).val * 16 + (i 2).val / 32768, point_lt i⟩ (2 : Fin 3) = ((i 0).val * 16 + (i 2).val / 32768) % 16 := e2
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 32768 ≤ (i 2).val ∧ (i 2).val < win0_4.index _ (2 : Fin 3) * 32768 + 32768; omega

/-- THE DEPTH ARRAY after the region. -/
theorem final5 (c : Dev nD) :
    (dats m 0 c).arrAt 5 cfg0.N = Gdep (V m c main_v1) (V m c main_arg1) (V m c main_v2) :=
  (dats m 0 c).arrAt_eq_of_cover 5 _ (fun t _ => flushed5_eq m c t) cover5

/-- THE SEGMENT ARRAY after the region. -/
theorem final4 (c : Dev nD) :
    (dats m 0 c).arrAt 4 cfg0.N = Gseg (V m c main_v1) (V m c main_arg1) (V m c main_v2) (V m c main_arg3) :=
  (dats m 0 c).arrAt_eq_of_cover 4 _ (fun t _ => flushed4_eq m c t) cover4

end Cert.KernelIdeal.KValue

end
-- ==== Proof.KTailDef.lean ====
/-
  The host's z-buffer after the kernel, in stages. From the flat segment ids: the winners — for each segment the largest
  flat position scattered to it, by a scatter of the position counter with a signed maximum from the least 32-bit integer,
  cut to the 802816 pixels; "covered" — the winner is non-negative; the winner clamped below at zero; the gather index —
  a negative index moved up by the array length (never taken after the clamp), as a column. From these and the flat
  depths: the depth gathered at the index where the pixel is covered, zero elsewhere.
-/
import proofs.«125162_j89988154786228_1_alg».proof.Proof.Gen.KernelIdeal
import Idealize.ShloMosaic.PureOps.Ideal

noncomputable section

namespace Cert.KernelIdeal.KValue

open Cert.KernelIdeal Cert.KernelIdeal.Gen Idealize.ShloMosaic

/-- The winners: per pixel the largest flat position scattered to it, the least integer where there is none. -/
def winK (pix : IVec S8388608 32) : IVec S802816 32 :=
  extractStridedSlice S802816 ![0]
    (Host.scatter scatter_S802817_S8388608x1_S8388608_n_0_0_1 IntOp.maxsi
      (broadcastInDim S802817 ![] bcast_S_S802817 (constantI S_ 32 2147483648#32))
      (broadcastInDim S8388608x1 ![0] bcast_S8388608_S8388608x1_0 pix) (iotaInDim S8388608 32 0))
    slices_S802817_S802816_0

/-- A pixel is covered when its winner is non-negative. -/
def hasK (win : IVec S802816 32) : IVec S802816 1 :=
  cmpi .sge win (broadcastInDim S802816 ![] bcast_S_S802816 (constantI S_ 32 0#32))

/-- The winner clamped below at zero. -/
def clipK (win : IVec S802816 32) : IVec S802816 32 :=
  maxsi (broadcastInDim S802816 ![] bcast_S_S802816 (id (constantI S_ 32 0#32))) win

/-- The gather index, as a column: a negative index moved up by the array length. -/
def idxK (clip : IVec S802816 32) : IVec S802816x1 32 :=
  broadcastInDim S802816x1 ![0] bcast_S802816_S802816x1_0
    (select (cmpi .slt clip (broadcastInDim S802816 ![] bcast_S_S802816 (constantI S_ 32 0#32)))
      (addi clip (broadcastInDim S802816 ![] bcast_S_S802816 (constantI S_ 32 8388608#32))) clip)

/-- The image, flat: the depth at the winner where the pixel is covered, zero elsewhere. -/
def tailK (pix : IVec S8388608 32) (dep : FVec Ideal S8388608 .f32) : FVec Ideal S802816 .f32 :=
  select (hasK (winK pix))
    (Host.gather gather_S8388608_S802816x1_S802816_n_0_n_n_0_1_1 dep (idxK (clipK (winK pix))))
    (broadcastInDim S802816 ![] bcast_S_S802816 (constant (F := Ideal) S_ .f32 0x00000000#32))

end Cert.KernelIdeal.KValue

end
-- ==== Proof.KTail.lean ====
/-
  The host operations after the region, read back. The lines that follow the kernel are cut into six short stretches —
  the two flattenings; the winners; "covered"; the clamp; the gather; the select and the final view — and each stretch is
  read over ARBITRARY contents of the buffers it starts from: what the few buffers the next stretch needs hold afterwards.
  The stretches are then composed, one after the other, from the contents the region leaves: the winners feed "covered" and
  the clamp, the clamp feeds the gather index, and the select joins the gathered depths with "covered".
-/
import proofs.«125162_j89988154786228_1_alg».proof.Proof.KernelIdealFrame
import proofs.«125162_j89988154786228_1_alg».proof.Proof.KTailDef
import Idealize.ShloMosaic.Lib.StableHlo.Run
import Idealize.ShloMosaic.PureOps.Ideal

set_option maxRecDepth 16384

noncomputable section

namespace Cert.KernelIdeal.KValue

open Cert.KernelIdeal Cert.KernelIdeal.Gen Cert.KernelIdeal.GenP Idealize.ShloMosaic Idealize.ShloMosaic.TcCoe
  Idealize.ShloMosaic.Pipeline Idealize.ShloMosaic.StableHlo Idealize.SL.Sem

/-- The two flattenings. -/
abbrev opsA : List (HloOp τ sig (Elt Ideal)) :=
  [ StableHlo.reshape main_v3_0 main_v4 rfl shapeCasts_S16x1x524288_S8388608,
    StableHlo.reshape main_v3_1 main_v5 rfl shapeCasts_S16x1x524288_S8388608 ]
/-- The position counter, the scatter with a signed maximum, the cut to the pixels. -/
abbrev opsB : List (HloOp τ sig (Elt Ideal)) :=
  [ StableHlo.nullary main_v6 (iotaInDim S8388608 32 0),
    StableHlo.nullary main_c_0 (constantI S_ 32 2147483648#32),
    StableHlo.unary main_c_0 main_v7 (broadcastInDim S802817 ![] bcast_S_S802817 : (⟨S_, .i32⟩ : BufTy).Contents (Elt Ideal) → (⟨S802817, .i32⟩ : BufTy).Contents (Elt Ideal)),
    StableHlo.unary main_v4 main_v8 (broadcastInDim S8388608x1 ![0] bcast_S8388608_S8388608x1_0 : (⟨S8388608, .i32⟩ : BufTy).Contents (Elt Ideal) → (⟨S8388608x1, .i32⟩ : BufTy).Contents (Elt Ideal)),
    StableHlo.ternary main_v7 main_v8 main_v6 main_v9 ((fun x i u => Host.scatter scatter_S802817_S8388608x1_S8388608_n_0_0_1 IntOp.maxsi x i u) : (⟨S802817, .i32⟩ : BufTy).Contents (Elt Ideal) → (⟨S8388608x1, .i32⟩ : BufTy).Contents (Elt Ideal) → (⟨S8388608, .i32⟩ : BufTy).Contents (Elt Ideal) → (⟨S802817, .i32⟩ : BufTy).Contents (Elt Ideal)),
    StableHlo.unary main_v9 main_v10 ((extractStridedSlice S802816 ![0] · slices_S802817_S802816_0) : (⟨S802817, .i32⟩ : BufTy).Contents (Elt Ideal) → (⟨S802816, .i32⟩ : BufTy).Contents (Elt Ideal)) ]
/-- "The winner is non-negative". -/
abbrev opsC : List (HloOp τ sig (Elt Ideal)) :=
  [ StableHlo.nullary main_c_1 (constantI S_ 32 0#32),
    StableHlo.unary main_c_1 main_v11 (broadcastInDim S802816 ![] bcast_S_S802816 : (⟨S_, .i32⟩ : BufTy).Contents (Elt Ideal) → (⟨S802816, .i32⟩ : BufTy).Contents (Elt Ideal)),
    StableHlo.binary main_v10 main_v11 main_v12 (cmpi .sge : (⟨S802816, .i32⟩ : BufTy).Contents (Elt Ideal) → (⟨S802816, .i32⟩ : BufTy).Contents (Elt Ideal) → (⟨S802816, .i1⟩ : BufTy).Contents (Elt Ideal)) ]
/-- The clamp below at zero. -/
abbrev opsD : List (HloOp τ sig (Elt Ideal)) :=
  [ StableHlo.nullary main_c_2 (constantI S_ 32 0#32),
    StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S802816, .i32⟩) (broadcastInDim S802816 ![] bcast_S_S802816),
    StableHlo.TRef.binary (.of main_call1_v1 : StableHlo.TRef sig ⟨S802816, .i32⟩) (.of main_v10 : StableHlo.TRef sig ⟨S802816, .i32⟩) (.of main_v13 : StableHlo.TRef sig ⟨S802816, .i32⟩) maxsi ]
/-- The wrap of a negative index, the index column, the gather. -/
abbrev opsE : List (HloOp τ sig (Elt Ideal)) :=
  [ StableHlo.nullary main_c_3 (constantI S_ 32 0#32),
    StableHlo.unary main_c_3 main_v14 (broadcastInDim S802816 ![] bcast_S_S802816 : (⟨S_, .i32⟩ : BufTy).Contents (Elt Ideal) → (⟨S802816, .i32⟩ : BufTy).Contents (Elt Ideal)),
    StableHlo.binary main_v13 main_v14 main_v15 (cmpi .slt : (⟨S802816, .i32⟩ : BufTy).Contents (Elt Ideal) → (⟨S802816, .i32⟩ : BufTy).Contents (Elt Ideal) → (⟨S802816, .i1⟩ : BufTy).Contents (Elt Ideal)),
    StableHlo.nullary main_c_4 (constantI S_ 32 8388608#32),
    StableHlo.unary main_c_4 main_v16 (broadcastInDim S802816 ![] bcast_S_S802816 : (⟨S_, .i32⟩ : BufTy).Contents (Elt Ideal) → (⟨S802816, .i32⟩ : BufTy).Contents (Elt Ideal)),
    StableHlo.binary main_v13 main_v16 main_v17 (addi : (⟨S802816, .i32⟩ : BufTy).Contents (Elt Ideal) → (⟨S802816, .i32⟩ : BufTy).Contents (Elt Ideal) → (⟨S802816, .i32⟩ : BufTy).Contents (Elt Ideal)),
    StableHlo.ternary main_v15 main_v17 main_v13 main_v18 (select : (⟨S802816, .i1⟩ : BufTy).Contents (Elt Ideal) → (⟨S802816, .i32⟩ : BufTy).Contents (Elt Ideal) → (⟨S802816, .i32⟩ : BufTy).Contents (Elt Ideal) → (⟨S802816, .i32⟩ : BufTy).Contents (Elt Ideal)),
    StableHlo.unary main_v18 main_v19 (broadcastInDim S802816x1 ![0] bcast_S802816_S802816x1_0 : (⟨S802816, .i32⟩ : BufTy).Contents (Elt Ideal) → (⟨S802816x1, .i32⟩ : BufTy).Contents (Elt Ideal)),
    StableHlo.binary main_v5 main_v19 main_v20 ((fun x i => Host.gather gather_S8388608_S802816x1_S802816_n_0_n_n_0_1_1 x i) : (⟨S8388608, .f32⟩ : BufTy).Contents (Elt Ideal) → (⟨S802816x1, .i32⟩ : BufTy).Contents (Elt Ideal) → (⟨S802816, .f32⟩ : BufTy).Contents (Elt Ideal)) ]
/-- The zero, the select, the final view. -/
abbrev opsF : List (HloOp τ sig (Elt Ideal)) :=
  [ StableHlo.nullary main_cst (constant (F := Ideal) S_ .f32 0x00000000#32),
    StableHlo.TRef.unary (.of main_cst : StableHlo.TRef sig ⟨S_, .f32⟩) (.of main_call2_v0 : StableHlo.TRef sig ⟨S802816, .f32⟩) (broadcastInDim S802816 ![] bcast_S_S802816),
    StableHlo.TRef.ternary (.of main_v12 : StableHlo.TRef sig ⟨S802816, .i1⟩) (.of main_v20 : StableHlo.TRef sig ⟨S802816, .f32⟩) (.of main_call2_v0 : StableHlo.TRef sig ⟨S802816, .f32⟩) (.of main_v21 : StableHlo.TRef sig ⟨S802816, .f32⟩) select,
    StableHlo.reshape main_v21 main_v22 rfl shapeCasts_S802816_S16x1x224x224 ]

/-- The lines after the region are the six stretches in order. -/
theorem tail_ops_eq :
    List.flatten [(hostOps1 : List (HloOp τ sig (Elt Ideal))), hostOps1_1, hostOps1_2, hostOps1_3, hostOps1_4]
      = opsA ++ (opsB ++ (opsC ++ (opsD ++ (opsE ++ opsF)))) := rfl

variable (W : Valuation τ sig (Elt Ideal))

theorem A_v4 : after opsA W (Proc.devRef .tc main_v4)
    = shapeCast S8388608 (W (Proc.devRef .tc main_v3_0)) shapeCasts_S16x1x524288_S8388608 := by
  after_results; rfl
theorem A_v5 : after opsA W (Proc.devRef .tc main_v5)
    = shapeCast S8388608 (W (Proc.devRef .tc main_v3_1)) shapeCasts_S16x1x524288_S8388608 := by
  after_results; rfl

theorem B_v10 : after opsB W (Proc.devRef .tc main_v10) = winK (W (Proc.devRef .tc main_v4)) := by
  after_results; rfl
theorem B_v5 : after opsB W (Proc.devRef .tc main_v5) = W (Proc.devRef .tc main_v5) := by
  after_results

theorem C_v12 : after opsC W (Proc.devRef .tc main_v12) = hasK (W (Proc.devRef .tc main_v10)) := by
  after_results; rfl
theorem C_v10 : after opsC W (Proc.devRef .tc main_v10) = W (Proc.devRef .tc main_v10) := by
  after_results
theorem C_v5 : after opsC W (Proc.devRef .tc main_v5) = W (Proc.devRef .tc main_v5) := by
  after_results

theorem D_v13 : after opsD W (Proc.devRef .tc main_v13) = clipK (W (Proc.devRef .tc main_v10)) := by
  after_results; rfl
theorem D_v12 : after opsD W (Proc.devRef .tc main_v12) = W (Proc.devRef .tc main_v12) := by
  after_results
theorem D_v5 : after opsD W (Proc.devRef .tc main_v5) = W (Proc.devRef .tc main_v5) := by
  after_results

theorem E_v20 : after opsE W (Proc.devRef .tc main_v20)
    = Host.gather gather_S8388608_S802816x1_S802816_n_0_n_n_0_1_1 (W (Proc.devRef .tc main_v5)) (idxK (W (Proc.devRef .tc main_v13))) := by
  after_results; rfl
theorem E_v12 : after opsE W (Proc.devRef .tc main_v12) = W (Proc.devRef .tc main_v12) := by
  after_results

theorem F_v22 : after opsF W (Proc.devRef .tc main_v22)
    = shapeCast S16x1x224x224
        (select (W (Proc.devRef .tc main_v12)) (W (Proc.devRef .tc main_v20))
          (broadcastInDim S802816 ![] bcast_S_S802816 (constant (F := Ideal) S_ .f32 0x00000000#32)))
        shapeCasts_S802816_S16x1x224x224 := by
  after_results; rfl

/-- The six stretches composed, from any contents: the result buffer is the z-buffer of the two flattened arrays. -/
theorem tail_after : after (opsA ++ (opsB ++ (opsC ++ (opsD ++ (opsE ++ opsF))))) W (Proc.devRef .tc main_v22)
    = shapeCast S16x1x224x224
        (tailK (shapeCast S8388608 (W (Proc.devRef .tc main_v3_0)) shapeCasts_S16x1x524288_S8388608)
          (shapeCast S8388608 (W (Proc.devRef .tc main_v3_1)) shapeCasts_S16x1x524288_S8388608))
        shapeCasts_S802816_S16x1x224x224 := by
  rw [StableHlo.after_append, StableHlo.after_append, StableHlo.after_append, StableHlo.after_append, StableHlo.after_append]
  rw [F_v22, E_v20, E_v12, D_v13, D_v12, D_v5, C_v12, C_v10, C_v5, B_v10, B_v5, A_v4, A_v5]
  rfl

variable (m : (ℓ : Loc nD τ sig) → Buf (Elt Ideal) ℓ)

/-- The result buffer after the lines that follow the region. -/
theorem tail_result (c : Dev nD) :
    Pipeline.afterTail₀ cfgs (dats m) 0 (V0 m) [hostOps1, hostOps1_1, hostOps1_2, hostOps1_3, hostOps1_4] c main_v22
      = shapeCast S16x1x224x224
          (tailK (shapeCast S8388608 ((dats m 0 c).arrAt 4 cfg0.N : S16x1x524288.Idx → BitVec 32) shapeCasts_S16x1x524288_S8388608)
            (shapeCast S8388608 ((dats m 0 c).arrAt 5 cfg0.N : S16x1x524288.Idx → Ideal .f32) shapeCasts_S16x1x524288_S8388608))
          shapeCasts_S802816_S16x1x224x224 := by
  have e4 : Pipeline.withArrays spec0 c (V0 m c) (fun w => (dats m 0 c).arrAt w cfg0.N) (Proc.devRef .tc main_v3_0)
      = (dats m 0 c).arrAt 4 cfg0.N := Pipeline.withArrays_arr spec0 launch0.win.arr_inj c _ _ 4
  have e5 : Pipeline.withArrays spec0 c (V0 m c) (fun w => (dats m 0 c).arrAt w cfg0.N) (Proc.devRef .tc main_v3_1)
      = (dats m 0 c).arrAt 5 cfg0.N := Pipeline.withArrays_arr spec0 launch0.win.arr_inj c _ _ 5
  unfold Pipeline.afterTail₀
  rw [tail_ops_eq, tail_after, e4, e5]

end Cert.KernelIdeal.KValue

end
-- ==== Proof.KRun.lean ====
/-
  The idealized kernel's run, read: every weakly fair execution terminates with the result buffer holding the z-buffer
  function of the two arrays the region leaves — the segment array `Gseg` and the depth array `Gdep` of the arrays the
  region finds, each flattened — and with the four argument arrays as they were.
-/
import proofs.«125162_j89988154786228_1_alg».proof.Proof.KBlocks
import proofs.«125162_j89988154786228_1_alg».proof.Proof.KTail

set_option maxRecDepth 16384

noncomputable section

namespace Cert.KernelIdeal.KValue

open Cert.KernelIdeal Cert.KernelIdeal.Gen Cert.KernelIdeal.GenP Idealize.ShloMosaic Idealize.ShloMosaic.TcCoe
  Idealize.ShloMosaic.Pipeline Idealize.ShloMosaic.StableHlo Idealize.SL.Sem

variable (m : (ℓ : Loc nD τ sig) → Buf (Elt Ideal) ℓ) (ρ : Dev nD → PrngReg)

/-- What the kernel program's result buffer holds after the run, on core `c`. -/
def resK (c : Dev nD) : FVec Ideal S16x1x224x224 .f32 :=
  shapeCast S16x1x224x224
    (tailK (shapeCast S8388608 (Gseg (V m c main_v1) (V m c main_arg1) (V m c main_v2) (V m c main_arg3)) shapeCasts_S16x1x524288_S8388608)
      (shapeCast S8388608 (Gdep (V m c main_v1) (V m c main_arg1) (V m c main_v2)) shapeCasts_S16x1x524288_S8388608))
    shapeCasts_S802816_S16x1x224x224

theorem result_eq (c : Dev nD) :
    Pipeline.afterTail₀ cfgs (dats m) 0 (V0 m) [hostOps1, hostOps1_1, hostOps1_2, hostOps1_3, hostOps1_4] c main_v22 = resK m c := by
  rw [tail_result, final4, final5]
  rfl

/-- The frame run re-posted: the result at `resK`, the arguments unchanged. -/
theorem run : θ_run defs (onTc (τ := τ) (main (F := Ideal))) ⟨m, fun _ => 0, ρ⟩ fun r => ∀ c : Dev nD,
      r.2.mem ((c.tc : Thread nD τ).loc main_v22) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KValue

end
-- ==== Proof.RefOps.lean ====
/-
  The reference program's host function as a straight line. Its printed text runs ninety-five statements, five of
  them calls of outlined functions (the truncation toward zero, which itself calls a select; a select against a
  scalar; the clip below at zero; a select against a scalar zero); with each call replaced by the callee's own
  operations over that call's buffers it is one list of 109 operations, each writing one buffer. This module states
  that list, that the function is exactly that list run in order, and the resulting run: every weakly fair execution
  terminates with every buffer at the fold of the operations' results over the launch contents.
-/
import proofs.«125162_j89988154786228_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The host function's 109 operations, in order, the calls unfolded: the truncation is six operations (the scalar
    zero, its broadcast, the comparison, the ceiling, the floor, the select) into the buffers of its call, twice;
    the select against the dump segment three (the scalar converted to its own type, its broadcast, the select); the
    clip three (the same conversion and broadcast, the maximum); the select against the scalar zero two (its
    broadcast, the select); around them the function's own ninety. -/
abbrev ops : List (HloOp τ sig (Elt F)) :=
  [ binary main_arg0 main_arg1 main_v0 ((fun l r => Host.dotGeneral dot_S16x500000x3_S16x3x3_S16x500000x3_2_2_1_1_0_0 none l r) : (⟨S16x500000x3, .f32⟩ : BufTy).Contents (Elt F) → (⟨S16x3x3, .f32⟩ : BufTy).Contents (Elt F) → (⟨S16x500000x3, .f32⟩ : BufTy).Contents (Elt F)),
    unary main_arg2 main_v1 (broadcastInDim S16x1x3 ![0, 2] bcast_S16x3_S16x1x3_0_2 : (⟨S16x3, .f32⟩ : BufTy).Contents (Elt F) → (⟨S16x1x3, .f32⟩ : BufTy).Contents (Elt F)),
    unary main_v1 main_v2 (broadcastInDim S16x500000x3 ![0, 1, 2] bcast_S16x1x3_S16x500000x3_0_1_2 : (⟨S16x1x3, .f32⟩ : BufTy).Contents (Elt F) → (⟨S16x500000x3, .f32⟩ : BufTy).Contents (Elt F)),
    binary main_v0 main_v2 main_v3 (addf : (⟨S16x500000x3, .f32⟩ : BufTy).Contents (Elt F) → (⟨S16x500000x3, .f32⟩ : BufTy).Contents (Elt F) → (⟨S16x500000x3, .f32⟩ : BufTy).Contents (Elt F)),
    unary main_arg3 main_v4 ((extractStridedSlice S16x1x1 ![0, 0, 0] · slices_S16x3x3_S16x1x1_0_0_0) : (⟨S16x3x3, .f32⟩ : BufTy).Contents (Elt F) → (⟨S16x1x1, .f32⟩ : BufTy).Contents (Elt F)),
    reshape main_v4 main_v5 rfl shapeCasts_S16x1x1_S16,
    unary main_v5 main_v6 (broadcastInDim S16x1 ![0] bcast_S16_S16x1_0 : (⟨S16, .f32⟩ : BufTy).Contents (Elt F) → (⟨S16x1, .f32⟩ : BufTy).Contents (Elt F)),
    unary main_arg3 main_v7 ((extractStridedSlice S16x1x1 ![0, 1, 1] · slices_S16x3x3_S16x1x1_0_1_1) : (⟨S16x3x3, .f32⟩ : BufTy).Contents (Elt F) → (⟨S16x1x1, .f32⟩ : BufTy).Contents (Elt F)),
    reshape main_v7 main_v8 rfl shapeCasts_S16x1x1_S16,
    unary main_v8 main_v9 (broadcastInDim S16x1 ![0] bcast_S16_S16x1_0 : (⟨S16, .f32⟩ : BufTy).Contents (Elt F) → (⟨S16x1, .f32⟩ : BufTy).Contents (Elt F)),
    unary main_arg3 main_v10 ((extractStridedSlice S16x1x1 ![0, 0, 2] · slices_S16x3x3_S16x1x1_0_0_2) : (⟨S16x3x3, .f32⟩ : BufTy).Contents (Elt F) → (⟨S16x1x1, .f32⟩ : BufTy).Contents (Elt F)),
    reshape main_v10 main_v11 rfl shapeCasts_S16x1x1_S16,
    unary main_v11 main_v12 (broadcastInDim S16x1 ![0] bcast_S16_S16x1_0 : (⟨S16, .f32⟩ : BufTy).Contents (Elt F) → (⟨S16x1, .f32⟩ : BufTy).Contents (Elt F)),
    unary main_arg3 main_v13 ((extractStridedSlice S16x1x1 ![0, 1, 2] · slices_S16x3x3_S16x1x1_0_1_2) : (⟨S16x3x3, .f32⟩ : BufTy).Contents (Elt F) → (⟨S16x1x1, .f32⟩ : BufTy).Contents (Elt F)),
    reshape main_v13 main_v14 rfl shapeCasts_S16x1x1_S16,
    unary main_v14 main_v15 (broadcastInDim S16x1 ![0] bcast_S16_S16x1_0 : (⟨S16, .f32⟩ : BufTy).Contents (Elt F) → (⟨S16x1, .f32⟩ : BufTy).Contents (Elt F)),
    unary main_v3 main_v16 ((extractStridedSlice S16x500000x1 ![0, 0, 2] · slices_S16x500000x3_S16x500000x1_0_0_2) : (⟨S16x500000x3, .f32⟩ : BufTy).Contents (Elt F) → (⟨S16x500000x1, .f32⟩ : BufTy).Contents (Elt F)),
    reshape main_v16 main_v17 rfl shapeCasts_S16x500000x1_S16x500000,
    nullary main_cst (constant S_ .f32 0x322BCC77#32),
    unary main_cst main_v18 (broadcastInDim S16x500000 ![] bcast_S_S16x500000 : (⟨S_, .f32⟩ : BufTy).Contents (Elt F) → (⟨S16x500000, .f32⟩ : BufTy).Contents (Elt F)),
    binary main_v17 main_v18 main_v19 (addf : (⟨S16x500000, .f32⟩ : BufTy).Contents (Elt F) → (⟨S16x500000, .f32⟩ : BufTy).Contents (Elt F) → (⟨S16x500000, .f32⟩ : BufTy).Contents (Elt F)),
    unary main_v3 main_v20 ((extractStridedSlice S16x500000x1 ![0, 0, 0] · slices_S16x500000x3_S16x500000x1_0_0_0) : (⟨S16x500000x3, .f32⟩ : BufTy).Contents (Elt F) → (⟨S16x500000x1, .f32⟩ : BufTy).Contents (Elt F)),
    reshape main_v20 main_v21 rfl shapeCasts_S16x500000x1_S16x500000,
    binary main_v21 main_v19 main_v22 (Host.divf : (⟨S16x500000, .f32⟩ : BufTy).Contents (Elt F) → (⟨S16x500000, .f32⟩ : BufTy).Contents (Elt F) → (⟨S16x500000, .f32⟩ : BufTy).Contents (Elt F)),
    unary main_v6 main_v23 (broadcastInDim S16x500000 ![0, 1] bcast_S16x1_S16x500000_0_1 : (⟨S16x1, .f32⟩ : BufTy).Contents (Elt F) → (⟨S16x500000, .f32⟩ : BufTy).Contents (Elt F)),
    binary main_v23 main_v22 main_v24 (mulf : (⟨S16x500000, .f32⟩ : BufTy).Contents (Elt F) → (⟨S16x500000, .f32⟩ : BufTy).Contents (Elt F) → (⟨S16x500000, .f32⟩ : BufTy).Contents (Elt F)),
    unary main_v12 main_v25 (broadcastInDim S16x500000 ![0, 1] bcast_S16x1_S16x500000_0_1 : (⟨S16x1, .f32⟩ : BufTy).Contents (Elt F) → (⟨S16x500000, .f32⟩ : BufTy).Contents (Elt F)),
    binary main_v24 main_v25 main_v26 (addf : (⟨S16x500000, .f32⟩ : BufTy).Contents (Elt F) → (⟨S16x500000, .f32⟩ : BufTy).Contents (Elt F) → (⟨S16x500000, .f32⟩ : BufTy).Contents (Elt F)),
    unary main_v3 main_v27 ((extractStridedSlice S16x500000x1 ![0, 0, 1] · slices_S16x500000x3_S16x500000x1_0_0_1) : (⟨S16x500000x3, .f32⟩ : BufTy).Contents (Elt F) → (⟨S16x500000x1, .f32⟩ : BufTy).Contents (Elt F)),
    reshape main_v27 main_v28 rfl shapeCasts_S16x500000x1_S16x500000,
    binary main_v28 main_v19 main_v29 (Host.divf : (⟨S16x500000, .f32⟩ : BufTy).Contents (Elt F) → (⟨S16x500000, .f32⟩ : BufTy).Contents (Elt F) → (⟨S16x500000, .f32⟩ : BufTy).Contents (Elt F)),
    unary main_v9 main_v30 (broadcastInDim S16x500000 ![0, 1] bcast_S16x1_S16x500000_0_1 : (⟨S16x1, .f32⟩ : BufTy).Contents (Elt F) → (⟨S16x500000, .f32⟩ : BufTy).Contents (Elt F)),
    binary main_v30 main_v29 main_v31 (mulf : (⟨S16x500000, .f32⟩ : BufTy).Contents (Elt F) → (⟨S16x500000, .f32⟩ : BufTy).Contents (Elt F) → (⟨S16x500000, .f32⟩ : BufTy).Contents (Elt F)),
    unary main_v15 main_v32 (broadcastInDim S16x500000 ![0, 1] bcast_S16x1_S16x500000_0_1 : (⟨S16x1, .f32⟩ : BufTy).Contents (Elt F) → (⟨S16x500000, .f32⟩ : BufTy).Contents (Elt F)),
    binary main_v31 main_v32 main_v33 (addf : (⟨S16x500000, .f32⟩ : BufTy).Contents (Elt F) → (⟨S16x500000, .f32⟩ : BufTy).Contents (Elt F) → (⟨S16x500000, .f32⟩ : BufTy).Contents (Elt F)),
    TRef.nullary main_call0.cst (constant S_ .f32 0x00000000#32),
    TRef.unary main_call0.cst main_call0.v0 (broadcastInDim S16x500000 ![] bcast_S_S16x500000),
    TRef.binary (.of main_v26 : TRef sig ⟨S16x500000, .f32⟩) main_call0.v0 main_call0.v1 (cmpf .olt),
    TRef.unary (.of main_v26 : TRef sig ⟨S16x500000, .f32⟩) main_call0.v2 Host.ceil,
    TRef.unary (.of main_v26 : TRef sig ⟨S16x500000, .f32⟩) main_call0.v3 Host.floor,
    TRef.ternary main_call0.v1 main_call0.v2 main_call0.v3 main_call0.call0.v0 select,
    unary main_v34 main_v35 (fptosi 32 : (⟨S16x500000, .f32⟩ : BufTy).Contents (Elt F) → (⟨S16x500000, .i32⟩ : BufTy).Contents (Elt F)),
    TRef.nullary main_call1.cst (constant S_ .f32 0x00000000#32),
    TRef.unary main_call1.cst main_call1.v0 (broadcastInDim S16x500000 ![] bcast_S_S16x500000),
    TRef.binary (.of main_v33 : TRef sig ⟨S16x500000, .f32⟩) main_call1.v0 main_call1.v1 (cmpf .olt),
    TRef.unary (.of main_v33 : TRef sig ⟨S16x500000, .f32⟩) main_call1.v2 Host.ceil,
    TRef.unary (.of main_v33 : TRef sig ⟨S16x500000, .f32⟩) main_call1.v3 Host.floor,
    TRef.ternary main_call1.v1 main_call1.v2 main_call1.v3 main_call1.call0.v0 select,
    unary main_v36 main_v37 (fptosi 32 : (⟨S16x500000, .f32⟩ : BufTy).Contents (Elt F) → (⟨S16x500000, .i32⟩ : BufTy).Contents (Elt F)),
    unary main_v3 main_v38 ((extractStridedSlice S16x500000x1 ![0, 0, 2] · slices_S16x500000x3_S16x500000x1_0_0_2) : (⟨S16x500000x3, .f32⟩ : BufTy).Contents (Elt F) → (⟨S16x500000x1, .f32⟩ : BufTy).Contents (Elt F)),
    reshape main_v38 main_v39 rfl shapeCasts_S16x500000x1_S16x500000,
    nullary main_c (constantI S_ 32 0#32),
    unary main_c main_v40 (broadcastInDim S16x500000 ![] bcast_S_S16x500000 : (⟨S_, .i32⟩ : BufTy).Contents (Elt F) → (⟨S16x500000, .i32⟩ : BufTy).Contents (Elt F)),
    binary main_v35 main_v40 main_v41 (cmpi .sge : (⟨S16x500000, .i32⟩ : BufTy).Contents (Elt F) → (⟨S16x500000, .i32⟩ : BufTy).Contents (Elt F) → (⟨S16x500000, .i1⟩ : BufTy).Contents (Elt F)),
    nullary main_c_0 (constantI S_ 32 224#32),
    unary main_c_0 main_v42 (broadcastInDim S16x500000 ![] bcast_S_S16x500000 : (⟨S_, .i32⟩ : BufTy).Contents (Elt F) → (⟨S16x500000, .i32⟩ : BufTy).Contents (Elt F)),
    binary main_v35 main_v42 main_v43 (cmpi .slt : (⟨S16x500000, .i32⟩ : BufTy).Contents (Elt F) → (⟨S16x500000, .i32⟩ : BufTy).Contents (Elt F) → (⟨S16x500000, .i1⟩ : BufTy).Contents (Elt F)),
    binary main_v41 main_v43 main_v44 (andi : (⟨S16x500000, .i1⟩ : BufTy).Contents (Elt F) → (⟨S16x500000, .i1⟩ : BufTy).Contents (Elt F) → (⟨S16x500000, .i1⟩ : BufTy).Contents (Elt F)),
    nullary main_c_1 (constantI S_ 32 0#32),
    unary main_c_1 main_v45 (broadcastInDim S16x500000 ![] bcast_S_S16x500000 : (⟨S_, .i32⟩ : BufTy).Contents (Elt F) → (⟨S16x500000, .i32⟩ : BufTy).Contents (Elt F)),
    binary main_v37 main_v45 main_v46 (cmpi .sge : (⟨S16x500000, .i32⟩ : BufTy).Contents (Elt F) → (⟨S16x500000, .i32⟩ : BufTy).Contents (Elt F) → (⟨S16x500000, .i1⟩ : BufTy).Contents (Elt F)),
    binary main_v44 main_v46 main_v47 (andi : (⟨S16x500000, .i1⟩ : BufTy).Contents (Elt F) → (⟨S16x500000, .i1⟩ : BufTy).Contents (Elt F) → (⟨S16x500000, .i1⟩ : BufTy).Contents (Elt F)),
    nullary main_c_2 (constantI S_ 32 224#32),
    unary main_c_2 main_v48 (broadcastInDim S16x500000 ![] bcast_S_S16x500000 : (⟨S_, .i32⟩ : BufTy).Contents (Elt F) → (⟨S16x500000, .i32⟩ : BufTy).Contents (Elt F)),
    binary main_v37 main_v48 main_v49 (cmpi .slt : (⟨S16x500000, .i32⟩ : BufTy).Contents (Elt F) → (⟨S16x500000, .i32⟩ : BufTy).Contents (Elt F) → (⟨S16x500000, .i1⟩ : BufTy).Contents (Elt F)),
    binary main_v47 main_v49 main_v50 (andi : (⟨S16x500000, .i1⟩ : BufTy).Contents (Elt F) → (⟨S16x500000, .i1⟩ : BufTy).Contents (Elt F) → (⟨S16x500000, .i1⟩ : BufTy).Contents (Elt F)),
    nullary main_v51 (iotaInDim S16 32 0),
    unary main_v51 main_v52 (broadcastInDim S16x1 ![0] bcast_S16_S16x1_0 : (⟨S16, .i32⟩ : BufTy).Contents (Elt F) → (⟨S16x1, .i32⟩ : BufTy).Contents (Elt F)),
    nullary main_c_3 (constantI S_ 32 50176#32),
    unary main_c_3 main_v53 (broadcastInDim S16x1 ![] bcast_S_S16x1 : (⟨S_, .i32⟩ : BufTy).Contents (Elt F) → (⟨S16x1, .i32⟩ : BufTy).Contents (Elt F)),
    binary main_v52 main_v53 main_v54 (muli : (⟨S16x1, .i32⟩ : BufTy).Contents (Elt F) → (⟨S16x1, .i32⟩ : BufTy).Contents (Elt F) → (⟨S16x1, .i32⟩ : BufTy).Contents (Elt F)),
    nullary main_c_4 (constantI S_ 32 224#32),
    unary main_c_4 main_v55 (broadcastInDim S16x500000 ![] bcast_S_S16x500000 : (⟨S_, .i32⟩ : BufTy).Contents (Elt F) → (⟨S16x500000, .i32⟩ : BufTy).Contents (Elt F)),
    binary main_v37 main_v55 main_v56 (muli : (⟨S16x500000, .i32⟩ : BufTy).Contents (Elt F) → (⟨S16x500000, .i32⟩ : BufTy).Contents (Elt F) → (⟨S16x500000, .i32⟩ : BufTy).Contents (Elt F)),
    unary main_v54 main_v57 (broadcastInDim S16x500000 ![0, 1] bcast_S16x1_S16x500000_0_1 : (⟨S16x1, .i32⟩ : BufTy).Contents (Elt F) → (⟨S16x500000, .i32⟩ : BufTy).Contents (Elt F)),
    binary main_v57 main_v56 main_v58 (addi : (⟨S16x500000, .i32⟩ : BufTy).Contents (Elt F) → (⟨S16x500000, .i32⟩ : BufTy).Contents (Elt F) → (⟨S16x500000, .i32⟩ : BufTy).Contents (Elt F)),
    binary main_v58 main_v35 main_v59 (addi : (⟨S16x500000, .i32⟩ : BufTy).Contents (Elt F) → (⟨S16x500000, .i32⟩ : BufTy).Contents (Elt F) → (⟨S16x500000, .i32⟩ : BufTy).Contents (Elt F)),
    nullary main_c_5 (constantI S_ 32 802816#32),
    TRef.unary (.of main_c_5 : TRef sig ⟨S_, .i32⟩) main_call2.v0 id,
    TRef.unary main_call2.v0 main_call2.v1 (broadcastInDim S16x500000 ![] bcast_S_S16x500000),
    TRef.ternary (.of main_v50 : TRef sig ⟨S16x500000, .i1⟩) (.of main_v59 : TRef sig ⟨S16x500000, .i32⟩) main_call2.v1 main_call2.v2 select,
    reshape main_v60 main_v61 rfl shapeCasts_S16x500000_S8000000,
    nullary main_v62 (iotaInDim S8000000 32 0),
    nullary main_c_6 (constantI S_ 32 2147483648#32),
    unary main_c_6 main_v63 (broadcastInDim S802817 ![] bcast_S_S802817 : (⟨S_, .i32⟩ : BufTy).Contents (Elt F) → (⟨S802817, .i32⟩ : BufTy).Contents (Elt F)),
    unary main_v61 main_v64 (broadcastInDim S8000000x1 ![0] bcast_S8000000_S8000000x1_0 : (⟨S8000000, .i32⟩ : BufTy).Contents (Elt F) → (⟨S8000000x1, .i32⟩ : BufTy).Contents (Elt F)),
    ternary main_v63 main_v64 main_v62 main_v65 ((fun x i u => Host.scatter scatter_S802817_S8000000x1_S8000000_n_0_0_1 IntOp.maxsi x i u) : (⟨S802817, .i32⟩ : BufTy).Contents (Elt F) → (⟨S8000000x1, .i32⟩ : BufTy).Contents (Elt F) → (⟨S8000000, .i32⟩ : BufTy).Contents (Elt F) → (⟨S802817, .i32⟩ : BufTy).Contents (Elt F)),
    unary main_v65 main_v66 ((extractStridedSlice S802816 ![0] · slices_S802817_S802816_0) : (⟨S802817, .i32⟩ : BufTy).Contents (Elt F) → (⟨S802816, .i32⟩ : BufTy).Contents (Elt F)),
    nullary main_c_7 (constantI S_ 32 0#32),
    unary main_c_7 main_v67 (broadcastInDim S802816 ![] bcast_S_S802816 : (⟨S_, .i32⟩ : BufTy).Contents (Elt F) → (⟨S802816, .i32⟩ : BufTy).Contents (Elt F)),
    binary main_v66 main_v67 main_v68 (cmpi .sge : (⟨S802816, .i32⟩ : BufTy).Contents (Elt F) → (⟨S802816, .i32⟩ : BufTy).Contents (Elt F) → (⟨S802816, .i1⟩ : BufTy).Contents (Elt F)),
    reshape main_v39 main_v69 rfl shapeCasts_S16x500000_S8000000,
    nullary main_c_8 (constantI S_ 32 0#32),
    TRef.unary (.of main_c_8 : TRef sig ⟨S_, .i32⟩) main_call3.v0 id,
    TRef.unary main_call3.v0 main_call3.v1 (broadcastInDim S802816 ![] bcast_S_S802816),
    TRef.binary main_call3.v1 (.of main_v66 : TRef sig ⟨S802816, .i32⟩) main_call3.v2 maxsi,
    nullary main_c_9 (constantI S_ 32 0#32),
    unary main_c_9 main_v71 (broadcastInDim S802816 ![] bcast_S_S802816 : (⟨S_, .i32⟩ : BufTy).Contents (Elt F) → (⟨S802816, .i32⟩ : BufTy).Contents (Elt F)),
    binary main_v70 main_v71 main_v72 (cmpi .slt : (⟨S802816, .i32⟩ : BufTy).Contents (Elt F) → (⟨S802816, .i32⟩ : BufTy).Contents (Elt F) → (⟨S802816, .i1⟩ : BufTy).Contents (Elt F)),
    nullary main_c_10 (constantI S_ 32 8000000#32),
    unary main_c_10 main_v73 (broadcastInDim S802816 ![] bcast_S_S802816 : (⟨S_, .i32⟩ : BufTy).Contents (Elt F) → (⟨S802816, .i32⟩ : BufTy).Contents (Elt F)),
    binary main_v70 main_v73 main_v74 (addi : (⟨S802816, .i32⟩ : BufTy).Contents (Elt F) → (⟨S802816, .i32⟩ : BufTy).Contents (Elt F) → (⟨S802816, .i32⟩ : BufTy).Contents (Elt F)),
    ternary main_v72 main_v74 main_v70 main_v75 (select : (⟨S802816, .i1⟩ : BufTy).Contents (Elt F) → (⟨S802816, .i32⟩ : BufTy).Contents (Elt F) → (⟨S802816, .i32⟩ : BufTy).Contents (Elt F) → (⟨S802816, .i32⟩ : BufTy).Contents (Elt F)),
    unary main_v75 main_v76 (broadcastInDim S802816x1 ![0] bcast_S802816_S802816x1_0 : (⟨S802816, .i32⟩ : BufTy).Contents (Elt F) → (⟨S802816x1, .i32⟩ : BufTy).Contents (Elt F)),
    binary main_v69 main_v76 main_v77 ((fun x i => Host.gather gather_S8000000_S802816x1_S802816_n_0_n_n_0_1_1 x i) : (⟨S8000000, .f32⟩ : BufTy).Contents (Elt F) → (⟨S802816x1, .i32⟩ : BufTy).Contents (Elt F) → (⟨S802816, .f32⟩ : BufTy).Contents (Elt F)),
    nullary main_cst_11 (constant S_ .f32 0x00000000#32),
    TRef.unary (.of main_cst_11 : TRef sig ⟨S_, .f32⟩) main_call4.v0 (broadcastInDim S802816 ![] bcast_S_S802816),
    TRef.ternary (.of main_v68 : TRef sig ⟨S802816, .i1⟩) (.of main_v77 : TRef sig ⟨S802816, .f32⟩) main_call4.v0 main_call4.v1 select,
    reshape main_v78 main_v79 rfl shapeCasts_S802816_S16x1x224x224 ]

set_option maxRecDepth 8192 in
set_option maxHeartbeats 4000000 in
/-- The function is that straight line: with the outlined functions' definitions unfolded at their calls and the
    calls' records at their fields, both sides are the same chain of steps once sequencing is reassociated, and
    sequencing of this program type reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's main memory only. -/
theorem ops_sub : (ops : List (HloOp τ sig (Elt F))).Forall fun op => op.bufs ⊆ tcRefs τ sig :=
  ⟨binary_bufs_sub .., unary_bufs_sub .., unary_bufs_sub .., binary_bufs_sub .., unary_bufs_sub .., reshape_bufs_sub ..,
    unary_bufs_sub .., unary_bufs_sub .., reshape_bufs_sub .., unary_bufs_sub .., unary_bufs_sub .., reshape_bufs_sub ..,
    unary_bufs_sub .., unary_bufs_sub .., reshape_bufs_sub .., unary_bufs_sub .., unary_bufs_sub .., reshape_bufs_sub ..,
    nullary_bufs_sub .., unary_bufs_sub .., binary_bufs_sub .., unary_bufs_sub .., reshape_bufs_sub .., binary_bufs_sub ..,
    unary_bufs_sub .., binary_bufs_sub .., unary_bufs_sub .., binary_bufs_sub .., unary_bufs_sub .., reshape_bufs_sub ..,
    binary_bufs_sub .., unary_bufs_sub .., binary_bufs_sub .., unary_bufs_sub .., binary_bufs_sub .., nullary_bufs_sub ..,
    unary_bufs_sub .., binary_bufs_sub .., unary_bufs_sub .., unary_bufs_sub .., ternary_bufs_sub .., unary_bufs_sub ..,
    nullary_bufs_sub .., unary_bufs_sub .., binary_bufs_sub .., unary_bufs_sub .., unary_bufs_sub .., ternary_bufs_sub ..,
    unary_bufs_sub .., unary_bufs_sub .., reshape_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., binary_bufs_sub .., nullary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., unary_bufs_sub .., binary_bufs_sub .., binary_bufs_sub .., nullary_bufs_sub ..,
    unary_bufs_sub .., unary_bufs_sub .., ternary_bufs_sub .., reshape_bufs_sub .., nullary_bufs_sub .., nullary_bufs_sub ..,
    unary_bufs_sub .., unary_bufs_sub .., ternary_bufs_sub .., unary_bufs_sub .., nullary_bufs_sub .., unary_bufs_sub ..,
    binary_bufs_sub .., reshape_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., ternary_bufs_sub ..,
    reshape_bufs_sub ..⟩

/-- On every device, for any float values, from any memory with zero counters: every weakly fair execution of the
    host function terminates, and every final state has each buffer at the operations' fold over the launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference program as one expression. Each definition below is the value one line of the reference's printed
  host function computes, written over the four argument arrays with the printed operations in the printed order:
  the camera-space coordinates, the two image coordinates, their integer truncations, the flat segment ids, the flat
  depths, the z-buffer that follows them, and the result.
-/
import proofs.«125162_j89988154786228_1_alg».proof.Proof.Gen.ReferenceIdeal
import Idealize.ShloMosaic.PureOps.Ideal

noncomputable section

namespace Cert.ReferenceIdeal.RefValue

open Idealize.ShloMosaic Cert.ReferenceIdeal Cert.ReferenceIdeal.Gen

variable (a0 : FVec Ideal S16x500000x3 .f32) (a1 : FVec Ideal S16x3x3 .f32) (a2 : FVec Ideal S16x3 .f32)
  (a3 : FVec Ideal S16x3x3 .f32)

/-- %3: the camera-space coordinates, the vertices against the rotation plus the translation. -/
def vcR : FVec Ideal S16x500000x3 .f32 :=
  addf (Host.dotGeneral dot_S16x500000x3_S16x3x3_S16x500000x3_2_2_1_1_0_0 none a0 a1)
    (broadcastInDim S16x500000x3 ![0, 1, 2] bcast_S16x1x3_S16x500000x3_0_1_2
      (broadcastInDim S16x1x3 ![0, 2] bcast_S16x3_S16x1x3_0_2 a2))

/-- %6: the focal length `fx` of each batch, as a column. -/
def fxR : FVec Ideal S16x1 .f32 :=
  broadcastInDim S16x1 ![0] bcast_S16_S16x1_0
    (shapeCast S16 (extractStridedSlice S16x1x1 ![0, 0, 0] a3 slices_S16x3x3_S16x1x1_0_0_0) shapeCasts_S16x1x1_S16)

/-- %9: the focal length `fy` of each batch, as a column. -/
def fyR : FVec Ideal S16x1 .f32 :=
  broadcastInDim S16x1 ![0] bcast_S16_S16x1_0
    (shapeCast S16 (extractStridedSlice S16x1x1 ![0, 1, 1] a3 slices_S16x3x3_S16x1x1_0_1_1) shapeCasts_S16x1x1_S16)

/-- %12: the principal point's `cx` of each batch, as a column. -/
def cxR : FVec Ideal S16x1 .f32 :=
  broadcastInDim S16x1 ![0] bcast_S16_S16x1_0
    (shapeCast S16 (extractStridedSlice S16x1x1 ![0, 0, 2] a3 slices_S16x3x3_S16x1x1_0_0_2) shapeCasts_S16x1x1_S16)

/-- %15: the principal point's `cy` of each batch, as a column. -/
def cyR : FVec Ideal S16x1 .f32 :=
  broadcastInDim S16x1 ![0] bcast_S16_S16x1_0
    (shapeCast S16 (extractStridedSlice S16x1x1 ![0, 1, 2] a3 slices_S16x3x3_S16x1x1_0_1_2) shapeCasts_S16x1x1_S16)

/-- %19: the guarded depth, the third camera coordinate plus the guard. -/
def zR : FVec Ideal S16x500000 .f32 :=
  addf
    (shapeCast S16x500000 (extractStridedSlice S16x500000x1 ![0, 0, 2] (vcR a0 a1 a2) slices_S16x500000x3_S16x500000x1_0_0_2)
      shapeCasts_S16x500000x1_S16x500000)
    (broadcastInDim S16x500000 ![] bcast_S_S16x500000 (constant (F := Ideal) S_ .f32 0x322BCC77#32))

/-- %26: the horizontal image coordinate. -/
def uR : FVec Ideal S16x500000 .f32 :=
  addf
    (mulf (broadcastInDim S16x500000 ![0, 1] bcast_S16x1_S16x500000_0_1 (fxR a3))
      (Host.divf
        (shapeCast S16x500000
          (extractStridedSlice S16x500000x1 ![0, 0, 0] (vcR a0 a1 a2) slices_S16x500000x3_S16x500000x1_0_0_0)
          shapeCasts_S16x500000x1_S16x500000)
        (zR a0 a1 a2)))
    (broadcastInDim S16x500000 ![0, 1] bcast_S16x1_S16x500000_0_1 (cxR a3))

/-- %33: the vertical image coordinate. -/
def vR : FVec Ideal S16x500000 .f32 :=
  addf
    (mulf (broadcastInDim S16x500000 ![0, 1] bcast_S16x1_S16x500000_0_1 (fyR a3))
      (Host.divf
        (shapeCast S16x500000
          (extractStridedSlice S16x500000x1 ![0, 0, 1] (vcR a0 a1 a2) slices_S16x500000x3_S16x500000x1_0_0_1)
          shapeCasts_S16x500000x1_S16x500000)
        (zR a0 a1 a2)))
    (broadcastInDim S16x500000 ![0, 1] bcast_S16x1_S16x500000_0_1 (cyR a3))

/-- The outlined truncation toward zero: the ceiling where the argument is below zero, the floor elsewhere. -/
def truncR (x : FVec Ideal S16x500000 .f32) : FVec Ideal S16x500000 .f32 :=
  select
    (cmpf .olt x (broadcastInDim S16x500000 ![] bcast_S_S16x500000 (constant (F := Ideal) S_ .f32 0x00000000#32)))
    (Host.ceil x) (Host.floor x)

/-- %35: the horizontal image coordinate as a signed integer. -/
def uiR : IVec S16x500000 32 := fptosi 32 (truncR (uR a0 a1 a2 a3))

/-- %37: the vertical image coordinate as a signed integer. -/
def viR : IVec S16x500000 32 := fptosi 32 (truncR (vR a0 a1 a2 a3))

/-- %50: both image coordinates inside the image. -/
def validR : IVec S16x500000 1 :=
  andi
    (andi
      (andi
        (cmpi .sge (uiR a0 a1 a2 a3) (broadcastInDim S16x500000 ![] bcast_S_S16x500000 (constantI S_ 32 0#32)))
        (cmpi .slt (uiR a0 a1 a2 a3) (broadcastInDim S16x500000 ![] bcast_S_S16x500000 (constantI S_ 32 224#32))))
      (cmpi .sge (viR a0 a1 a2 a3) (broadcastInDim S16x500000 ![] bcast_S_S16x500000 (constantI S_ 32 0#32))))
    (cmpi .slt (viR a0 a1 a2 a3) (broadcastInDim S16x500000 ![] bcast_S_S16x500000 (constantI S_ 32 224#32)))

/-- %59: the pixel a point would land in, `b · 224² + v · 224 + u`. -/
def pixR : IVec S16x500000 32 :=
  addi
    (addi
      (broadcastInDim S16x500000 ![0, 1] bcast_S16x1_S16x500000_0_1
        (muli (broadcastInDim S16x1 ![0] bcast_S16_S16x1_0 (iotaInDim S16 32 0))
          (broadcastInDim S16x1 ![] bcast_S_S16x1 (constantI S_ 32 50176#32))))
      (muli (viR a0 a1 a2 a3) (broadcastInDim S16x500000 ![] bcast_S_S16x500000 (constantI S_ 32 224#32))))
    (uiR a0 a1 a2 a3)

/-- %61: the flat segment ids, the pixel where the point is in the image and the dump segment elsewhere. -/
def segR : IVec S8000000 32 :=
  shapeCast S8000000
    (select (validR a0 a1 a2 a3) (pixR a0 a1 a2 a3)
      (broadcastInDim S16x500000 ![] bcast_S_S16x500000 (id (constantI S_ 32 802816#32))))
    shapeCasts_S16x500000_S8000000

/-- %69: the flat depths, the third camera coordinate of every point. -/
def depR : FVec Ideal S8000000 .f32 :=
  shapeCast S8000000
    (shapeCast S16x500000
      (extractStridedSlice S16x500000x1 ![0, 0, 2] (vcR a0 a1 a2) slices_S16x500000x3_S16x500000x1_0_0_2)
      shapeCasts_S16x500000x1_S16x500000)
    shapeCasts_S16x500000_S8000000

/-- %66: per segment, the largest point index scattered to it, from the least integer. -/
def winR (pix : IVec S8000000 32) : IVec S802816 32 :=
  extractStridedSlice S802816 ![0]
    (Host.scatter scatter_S802817_S8000000x1_S8000000_n_0_0_1 IntOp.maxsi
      (broadcastInDim S802817 ![] bcast_S_S802817 (constantI S_ 32 2147483648#32))
      (broadcastInDim S8000000x1 ![0] bcast_S8000000_S8000000x1_0 pix)
      (iotaInDim S8000000 32 0))
    slices_S802817_S802816_0

/-- %70: the winning index clipped below at zero. -/
def clipR (win : IVec S802816 32) : IVec S802816 32 :=
  maxsi (broadcastInDim S802816 ![] bcast_S_S802816 (id (constantI S_ 32 0#32))) win

/-- %78 from %61 and %69: the depth of the last point scattered to each pixel, zero where there is none. -/
def tailR (pix : IVec S8000000 32) (dep : FVec Ideal S8000000 .f32) : FVec Ideal S802816 .f32 :=
  select
    (cmpi .sge (winR pix) (broadcastInDim S802816 ![] bcast_S_S802816 (constantI S_ 32 0#32)))
    (Host.gather gather_S8000000_S802816x1_S802816_n_0_n_n_0_1_1 dep
      (broadcastInDim S802816x1 ![0] bcast_S802816_S802816x1_0
        (select
          (cmpi .slt (clipR (winR pix)) (broadcastInDim S802816 ![] bcast_S_S802816 (constantI S_ 32 0#32)))
          (addi (clipR (winR pix)) (broadcastInDim S802816 ![] bcast_S_S802816 (constantI S_ 32 8000000#32)))
          (clipR (winR pix)))))
    (broadcastInDim S802816 ![] bcast_S_S802816 (constant (F := Ideal) S_ .f32 0x00000000#32))

/-- %79: the result, one depth image per batch. -/
def resR : FVec Ideal S16x1x224x224 .f32 :=
  shapeCast S16x1x224x224 (tailR (segR a0 a1 a2 a3) (depR a0 a1 a2)) shapeCasts_S802816_S16x1x224x224

end Cert.ReferenceIdeal.RefValue

end
-- ==== Proof.RefRun.lean ====
/-
  The reference's run, read back. The host function is a straight line of 109 operations (RefOps.lean); what its
  result buffer holds at the end is the fold of their results over the launch contents. The fold is read in
  stretches, each for an arbitrary starting valuation: the first 82 operations leave the flat segment ids (%61) and
  the depths (%39, before flattening) as `segR` and the third camera coordinate of RefTerm.lean over the four
  arguments; the scatter-max and its slice leave `winR` of the segment buffer; the next eight leave the comparison of
  the winner with zero, the flattened depths and `clipR` of the winner; the next nine leave the gather of the depths
  at the clipped winner; the last four the select against zero, reshaped. Each stretch names only the buffers it
  reads, so its composed term is a few operations deep; the stretches are then chained by rewriting, and the chain is
  `resR` of the arguments with its definitions unfolded one level. No operation writes an argument.
-/
import proofs.«125162_j89988154786228_1_alg».proof.Proof.RefOps
import proofs.«125162_j89988154786228_1_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second's over the first's. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-! ## Operations 1 … 82: through the flat segment ids -/

/-- Operations 1 … 82. -/
abbrev opsA : List (HloOp τ sig (Elt F)) :=
  [ binary main_arg0 main_arg1 main_v0 ((fun l r => Host.dotGeneral dot_S16x500000x3_S16x3x3_S16x500000x3_2_2_1_1_0_0 none l r) : (⟨S16x500000x3, .f32⟩ : BufTy).Contents (Elt F) → (⟨S16x3x3, .f32⟩ : BufTy).Contents (Elt F) → (⟨S16x500000x3, .f32⟩ : BufTy).Contents (Elt F)),
    unary main_arg2 main_v1 (broadcastInDim S16x1x3 ![0, 2] bcast_S16x3_S16x1x3_0_2 : (⟨S16x3, .f32⟩ : BufTy).Contents (Elt F) → (⟨S16x1x3, .f32⟩ : BufTy).Contents (Elt F)),
    unary main_v1 main_v2 (broadcastInDim S16x500000x3 ![0, 1, 2] bcast_S16x1x3_S16x500000x3_0_1_2 : (⟨S16x1x3, .f32⟩ : BufTy).Contents (Elt F) → (⟨S16x500000x3, .f32⟩ : BufTy).Contents (Elt F)),
    binary main_v0 main_v2 main_v3 (addf : (⟨S16x500000x3, .f32⟩ : BufTy).Contents (Elt F) → (⟨S16x500000x3, .f32⟩ : BufTy).Contents (Elt F) → (⟨S16x500000x3, .f32⟩ : BufTy).Contents (Elt F)),
    unary main_arg3 main_v4 ((extractStridedSlice S16x1x1 ![0, 0, 0] · slices_S16x3x3_S16x1x1_0_0_0) : (⟨S16x3x3, .f32⟩ : BufTy).Contents (Elt F) → (⟨S16x1x1, .f32⟩ : BufTy).Contents (Elt F)),
    reshape main_v4 main_v5 rfl shapeCasts_S16x1x1_S16,
    unary main_v5 main_v6 (broadcastInDim S16x1 ![0] bcast_S16_S16x1_0 : (⟨S16, .f32⟩ : BufTy).Contents (Elt F) → (⟨S16x1, .f32⟩ : BufTy).Contents (Elt F)),
    unary main_arg3 main_v7 ((extractStridedSlice S16x1x1 ![0, 1, 1] · slices_S16x3x3_S16x1x1_0_1_1) : (⟨S16x3x3, .f32⟩ : BufTy).Contents (Elt F) → (⟨S16x1x1, .f32⟩ : BufTy).Contents (Elt F)),
    reshape main_v7 main_v8 rfl shapeCasts_S16x1x1_S16,
    unary main_v8 main_v9 (broadcastInDim S16x1 ![0] bcast_S16_S16x1_0 : (⟨S16, .f32⟩ : BufTy).Contents (Elt F) → (⟨S16x1, .f32⟩ : BufTy).Contents (Elt F)),
    unary main_arg3 main_v10 ((extractStridedSlice S16x1x1 ![0, 0, 2] · slices_S16x3x3_S16x1x1_0_0_2) : (⟨S16x3x3, .f32⟩ : BufTy).Contents (Elt F) → (⟨S16x1x1, .f32⟩ : BufTy).Contents (Elt F)),
    reshape main_v10 main_v11 rfl shapeCasts_S16x1x1_S16,
    unary main_v11 main_v12 (broadcastInDim S16x1 ![0] bcast_S16_S16x1_0 : (⟨S16, .f32⟩ : BufTy).Contents (Elt F) → (⟨S16x1, .f32⟩ : BufTy).Contents (Elt F)),
    unary main_arg3 main_v13 ((extractStridedSlice S16x1x1 ![0, 1, 2] · slices_S16x3x3_S16x1x1_0_1_2) : (⟨S16x3x3, .f32⟩ : BufTy).Contents (Elt F) → (⟨S16x1x1, .f32⟩ : BufTy).Contents (Elt F)),
    reshape main_v13 main_v14 rfl shapeCasts_S16x1x1_S16,
    unary main_v14 main_v15 (broadcastInDim S16x1 ![0] bcast_S16_S16x1_0 : (⟨S16, .f32⟩ : BufTy).Contents (Elt F) → (⟨S16x1, .f32⟩ : BufTy).Contents (Elt F)),
    unary main_v3 main_v16 ((extractStridedSlice S16x500000x1 ![0, 0, 2] · slices_S16x500000x3_S16x500000x1_0_0_2) : (⟨S16x500000x3, .f32⟩ : BufTy).Contents (Elt F) → (⟨S16x500000x1, .f32⟩ : BufTy).Contents (Elt F)),
    reshape main_v16 main_v17 rfl shapeCasts_S16x500000x1_S16x500000,
    nullary main_cst (constant S_ .f32 0x322BCC77#32),
    unary main_cst main_v18 (broadcastInDim S16x500000 ![] bcast_S_S16x500000 : (⟨S_, .f32⟩ : BufTy).Contents (Elt F) → (⟨S16x500000, .f32⟩ : BufTy).Contents (Elt F)),
    binary main_v17 main_v18 main_v19 (addf : (⟨S16x500000, .f32⟩ : BufTy).Contents (Elt F) → (⟨S16x500000, .f32⟩ : BufTy).Contents (Elt F) → (⟨S16x500000, .f32⟩ : BufTy).Contents (Elt F)),
    unary main_v3 main_v20 ((extractStridedSlice S16x500000x1 ![0, 0, 0] · slices_S16x500000x3_S16x500000x1_0_0_0) : (⟨S16x500000x3, .f32⟩ : BufTy).Contents (Elt F) → (⟨S16x500000x1, .f32⟩ : BufTy).Contents (Elt F)),
    reshape main_v20 main_v21 rfl shapeCasts_S16x500000x1_S16x500000,
    binary main_v21 main_v19 main_v22 (Host.divf : (⟨S16x500000, .f32⟩ : BufTy).Contents (Elt F) → (⟨S16x500000, .f32⟩ : BufTy).Contents (Elt F) → (⟨S16x500000, .f32⟩ : BufTy).Contents (Elt F)),
    unary main_v6 main_v23 (broadcastInDim S16x500000 ![0, 1] bcast_S16x1_S16x500000_0_1 : (⟨S16x1, .f32⟩ : BufTy).Contents (Elt F) → (⟨S16x500000, .f32⟩ : BufTy).Contents (Elt F)),
    binary main_v23 main_v22 main_v24 (mulf : (⟨S16x500000, .f32⟩ : BufTy).Contents (Elt F) → (⟨S16x500000, .f32⟩ : BufTy).Contents (Elt F) → (⟨S16x500000, .f32⟩ : BufTy).Contents (Elt F)),
    unary main_v12 main_v25 (broadcastInDim S16x500000 ![0, 1] bcast_S16x1_S16x500000_0_1 : (⟨S16x1, .f32⟩ : BufTy).Contents (Elt F) → (⟨S16x500000, .f32⟩ : BufTy).Contents (Elt F)),
    binary main_v24 main_v25 main_v26 (addf : (⟨S16x500000, .f32⟩ : BufTy).Contents (Elt F) → (⟨S16x500000, .f32⟩ : BufTy).Contents (Elt F) → (⟨S16x500000, .f32⟩ : BufTy).Contents (Elt F)),
    unary main_v3 main_v27 ((extractStridedSlice S16x500000x1 ![0, 0, 1] · slices_S16x500000x3_S16x500000x1_0_0_1) : (⟨S16x500000x3, .f32⟩ : BufTy).Contents (Elt F) → (⟨S16x500000x1, .f32⟩ : BufTy).Contents (Elt F)),
    reshape main_v27 main_v28 rfl shapeCasts_S16x500000x1_S16x500000,
    binary main_v28 main_v19 main_v29 (Host.divf : (⟨S16x500000, .f32⟩ : BufTy).Contents (Elt F) → (⟨S16x500000, .f32⟩ : BufTy).Contents (Elt F) → (⟨S16x500000, .f32⟩ : BufTy).Contents (Elt F)),
    unary main_v9 main_v30 (broadcastInDim S16x500000 ![0, 1] bcast_S16x1_S16x500000_0_1 : (⟨S16x1, .f32⟩ : BufTy).Contents (Elt F) → (⟨S16x500000, .f32⟩ : BufTy).Contents (Elt F)),
    binary main_v30 main_v29 main_v31 (mulf : (⟨S16x500000, .f32⟩ : BufTy).Contents (Elt F) → (⟨S16x500000, .f32⟩ : BufTy).Contents (Elt F) → (⟨S16x500000, .f32⟩ : BufTy).Contents (Elt F)),
    unary main_v15 main_v32 (broadcastInDim S16x500000 ![0, 1] bcast_S16x1_S16x500000_0_1 : (⟨S16x1, .f32⟩ : BufTy).Contents (Elt F) → (⟨S16x500000, .f32⟩ : BufTy).Contents (Elt F)),
    binary main_v31 main_v32 main_v33 (addf : (⟨S16x500000, .f32⟩ : BufTy).Contents (Elt F) → (⟨S16x500000, .f32⟩ : BufTy).Contents (Elt F) → (⟨S16x500000, .f32⟩ : BufTy).Contents (Elt F)),
    TRef.nullary main_call0.cst (constant S_ .f32 0x00000000#32),
    TRef.unary main_call0.cst main_call0.v0 (broadcastInDim S16x500000 ![] bcast_S_S16x500000),
    TRef.binary (.of main_v26 : TRef sig ⟨S16x500000, .f32⟩) main_call0.v0 main_call0.v1 (cmpf .olt),
    TRef.unary (.of main_v26 : TRef sig ⟨S16x500000, .f32⟩) main_call0.v2 Host.ceil,
    TRef.unary (.of main_v26 : TRef sig ⟨S16x500000, .f32⟩) main_call0.v3 Host.floor,
    TRef.ternary main_call0.v1 main_call0.v2 main_call0.v3 main_call0.call0.v0 select,
    unary main_v34 main_v35 (fptosi 32 : (⟨S16x500000, .f32⟩ : BufTy).Contents (Elt F) → (⟨S16x500000, .i32⟩ : BufTy).Contents (Elt F)),
    TRef.nullary main_call1.cst (constant S_ .f32 0x00000000#32),
    TRef.unary main_call1.cst main_call1.v0 (broadcastInDim S16x500000 ![] bcast_S_S16x500000),
    TRef.binary (.of main_v33 : TRef sig ⟨S16x500000, .f32⟩) main_call1.v0 main_call1.v1 (cmpf .olt),
    TRef.unary (.of main_v33 : TRef sig ⟨S16x500000, .f32⟩) main_call1.v2 Host.ceil,
    TRef.unary (.of main_v33 : TRef sig ⟨S16x500000, .f32⟩) main_call1.v3 Host.floor,
    TRef.ternary main_call1.v1 main_call1.v2 main_call1.v3 main_call1.call0.v0 select,
    unary main_v36 main_v37 (fptosi 32 : (⟨S16x500000, .f32⟩ : BufTy).Contents (Elt F) → (⟨S16x500000, .i32⟩ : BufTy).Contents (Elt F)),
    unary main_v3 main_v38 ((extractStridedSlice S16x500000x1 ![0, 0, 2] · slices_S16x500000x3_S16x500000x1_0_0_2) : (⟨S16x500000x3, .f32⟩ : BufTy).Contents (Elt F) → (⟨S16x500000x1, .f32⟩ : BufTy).Contents (Elt F)),
    reshape main_v38 main_v39 rfl shapeCasts_S16x500000x1_S16x500000,
    nullary main_c (constantI S_ 32 0#32),
    unary main_c main_v40 (broadcastInDim S16x500000 ![] bcast_S_S16x500000 : (⟨S_, .i32⟩ : BufTy).Contents (Elt F) → (⟨S16x500000, .i32⟩ : BufTy).Contents (Elt F)),
    binary main_v35 main_v40 main_v41 (cmpi .sge : (⟨S16x500000, .i32⟩ : BufTy).Contents (Elt F) → (⟨S16x500000, .i32⟩ : BufTy).Contents (Elt F) → (⟨S16x500000, .i1⟩ : BufTy).Contents (Elt F)),
    nullary main_c_0 (constantI S_ 32 224#32),
    unary main_c_0 main_v42 (broadcastInDim S16x500000 ![] bcast_S_S16x500000 : (⟨S_, .i32⟩ : BufTy).Contents (Elt F) → (⟨S16x500000, .i32⟩ : BufTy).Contents (Elt F)),
    binary main_v35 main_v42 main_v43 (cmpi .slt : (⟨S16x500000, .i32⟩ : BufTy).Contents (Elt F) → (⟨S16x500000, .i32⟩ : BufTy).Contents (Elt F) → (⟨S16x500000, .i1⟩ : BufTy).Contents (Elt F)),
    binary main_v41 main_v43 main_v44 (andi : (⟨S16x500000, .i1⟩ : BufTy).Contents (Elt F) → (⟨S16x500000, .i1⟩ : BufTy).Contents (Elt F) → (⟨S16x500000, .i1⟩ : BufTy).Contents (Elt F)),
    nullary main_c_1 (constantI S_ 32 0#32),
    unary main_c_1 main_v45 (broadcastInDim S16x500000 ![] bcast_S_S16x500000 : (⟨S_, .i32⟩ : BufTy).Contents (Elt F) → (⟨S16x500000, .i32⟩ : BufTy).Contents (Elt F)),
    binary main_v37 main_v45 main_v46 (cmpi .sge : (⟨S16x500000, .i32⟩ : BufTy).Contents (Elt F) → (⟨S16x500000, .i32⟩ : BufTy).Contents (Elt F) → (⟨S16x500000, .i1⟩ : BufTy).Contents (Elt F)),
    binary main_v44 main_v46 main_v47 (andi : (⟨S16x500000, .i1⟩ : BufTy).Contents (Elt F) → (⟨S16x500000, .i1⟩ : BufTy).Contents (Elt F) → (⟨S16x500000, .i1⟩ : BufTy).Contents (Elt F)),
    nullary main_c_2 (constantI S_ 32 224#32),
    unary main_c_2 main_v48 (broadcastInDim S16x500000 ![] bcast_S_S16x500000 : (⟨S_, .i32⟩ : BufTy).Contents (Elt F) → (⟨S16x500000, .i32⟩ : BufTy).Contents (Elt F)),
    binary main_v37 main_v48 main_v49 (cmpi .slt : (⟨S16x500000, .i32⟩ : BufTy).Contents (Elt F) → (⟨S16x500000, .i32⟩ : BufTy).Contents (Elt F) → (⟨S16x500000, .i1⟩ : BufTy).Contents (Elt F)),
    binary main_v47 main_v49 main_v50 (andi : (⟨S16x500000, .i1⟩ : BufTy).Contents (Elt F) → (⟨S16x500000, .i1⟩ : BufTy).Contents (Elt F) → (⟨S16x500000, .i1⟩ : BufTy).Contents (Elt F)),
    nullary main_v51 (iotaInDim S16 32 0),
    unary main_v51 main_v52 (broadcastInDim S16x1 ![0] bcast_S16_S16x1_0 : (⟨S16, .i32⟩ : BufTy).Contents (Elt F) → (⟨S16x1, .i32⟩ : BufTy).Contents (Elt F)),
    nullary main_c_3 (constantI S_ 32 50176#32),
    unary main_c_3 main_v53 (broadcastInDim S16x1 ![] bcast_S_S16x1 : (⟨S_, .i32⟩ : BufTy).Contents (Elt F) → (⟨S16x1, .i32⟩ : BufTy).Contents (Elt F)),
    binary main_v52 main_v53 main_v54 (muli : (⟨S16x1, .i32⟩ : BufTy).Contents (Elt F) → (⟨S16x1, .i32⟩ : BufTy).Contents (Elt F) → (⟨S16x1, .i32⟩ : BufTy).Contents (Elt F)),
    nullary main_c_4 (constantI S_ 32 224#32),
    unary main_c_4 main_v55 (broadcastInDim S16x500000 ![] bcast_S_S16x500000 : (⟨S_, .i32⟩ : BufTy).Contents (Elt F) → (⟨S16x500000, .i32⟩ : BufTy).Contents (Elt F)),
    binary main_v37 main_v55 main_v56 (muli : (⟨S16x500000, .i32⟩ : BufTy).Contents (Elt F) → (⟨S16x500000, .i32⟩ : BufTy).Contents (Elt F) → (⟨S16x500000, .i32⟩ : BufTy).Contents (Elt F)),
    unary main_v54 main_v57 (broadcastInDim S16x500000 ![0, 1] bcast_S16x1_S16x500000_0_1 : (⟨S16x1, .i32⟩ : BufTy).Contents (Elt F) → (⟨S16x500000, .i32⟩ : BufTy).Contents (Elt F)),
    binary main_v57 main_v56 main_v58 (addi : (⟨S16x500000, .i32⟩ : BufTy).Contents (Elt F) → (⟨S16x500000, .i32⟩ : BufTy).Contents (Elt F) → (⟨S16x500000, .i32⟩ : BufTy).Contents (Elt F)),
    binary main_v58 main_v35 main_v59 (addi : (⟨S16x500000, .i32⟩ : BufTy).Contents (Elt F) → (⟨S16x500000, .i32⟩ : BufTy).Contents (Elt F) → (⟨S16x500000, .i32⟩ : BufTy).Contents (Elt F)),
    nullary main_c_5 (constantI S_ 32 802816#32),
    TRef.unary (.of main_c_5 : TRef sig ⟨S_, .i32⟩) main_call2.v0 id,
    TRef.unary main_call2.v0 main_call2.v1 (broadcastInDim S16x500000 ![] bcast_S_S16x500000),
    TRef.ternary (.of main_v50 : TRef sig ⟨S16x500000, .i1⟩) (.of main_v59 : TRef sig ⟨S16x500000, .i32⟩) main_call2.v1 main_call2.v2 select,
    reshape main_v60 main_v61 rfl shapeCasts_S16x500000_S8000000 ]

set_option maxRecDepth 8192 in
set_option maxHeartbeats 4000000 in
/-- After the first stretch the segment buffer holds `segR` of the arguments: each operation's result at its own buffer
    is its function of its operands' contents, at any other buffer what was there; the composed term is `segR`'s
    definition unfolded. -/
theorem seg_A (V : Valuation τ sig (Elt Ideal)) :
    after (opsA (F := Ideal)) V (main_v61 : DevRef τ sig)
      = segR (V (main_arg0 : DevRef τ sig)) (V (main_arg1 : DevRef τ sig)) (V (main_arg2 : DevRef τ sig)) (V (main_arg3 : DevRef τ sig)) := by
  after_results_simp
  rfl

set_option maxRecDepth 8192 in
set_option maxHeartbeats 4000000 in
/-- After the first stretch the depth buffer (before flattening) holds the third camera coordinate of every point. -/
theorem dep_A (V : Valuation τ sig (Elt Ideal)) :
    after (opsA (F := Ideal)) V (main_v39 : DevRef τ sig)
      = shapeCast S16x500000
          (extractStridedSlice S16x500000x1 ![0, 0, 2] (vcR (V (main_arg0 : DevRef τ sig)) (V (main_arg1 : DevRef τ sig)) (V (main_arg2 : DevRef τ sig)))
            slices_S16x500000x3_S16x500000x1_0_0_2)
          shapeCasts_S16x500000x1_S16x500000 := by
  after_results_simp
  rfl

/-! ## Operations 83 … 109: the z-buffer, in four stretches -/

/-- Operations 83 … 88: the scatter-max of the point indices by segment, and its first 802816 entries. -/
abbrev opsB1 : List (HloOp τ sig (Elt F)) :=
  [ nullary main_v62 (iotaInDim S8000000 32 0),
    nullary main_c_6 (constantI S_ 32 2147483648#32),
    unary main_c_6 main_v63 (broadcastInDim S802817 ![] bcast_S_S802817 : (⟨S_, .i32⟩ : BufTy).Contents (Elt F) → (⟨S802817, .i32⟩ : BufTy).Contents (Elt F)),
    unary main_v61 main_v64 (broadcastInDim S8000000x1 ![0] bcast_S8000000_S8000000x1_0 : (⟨S8000000, .i32⟩ : BufTy).Contents (Elt F) → (⟨S8000000x1, .i32⟩ : BufTy).Contents (Elt F)),
    ternary main_v63 main_v64 main_v62 main_v65 ((fun x i u => Host.scatter scatter_S802817_S8000000x1_S8000000_n_0_0_1 IntOp.maxsi x i u) : (⟨S802817, .i32⟩ : BufTy).Contents (Elt F) → (⟨S8000000x1, .i32⟩ : BufTy).Contents (Elt F) → (⟨S8000000, .i32⟩ : BufTy).Contents (Elt F) → (⟨S802817, .i32⟩ : BufTy).Contents (Elt F)),
    unary main_v65 main_v66 ((extractStridedSlice S802816 ![0] · slices_S802817_S802816_0) : (⟨S802817, .i32⟩ : BufTy).Contents (Elt F) → (⟨S802816, .i32⟩ : BufTy).Contents (Elt F)) ]

/-- Operations 89 … 96: whether a segment has a winner, the depths flattened, the winner clipped below at zero. -/
abbrev opsB2 : List (HloOp τ sig (Elt F)) :=
  [ nullary main_c_7 (constantI S_ 32 0#32),
    unary main_c_7 main_v67 (broadcastInDim S802816 ![] bcast_S_S802816 : (⟨S_, .i32⟩ : BufTy).Contents (Elt F) → (⟨S802816, .i32⟩ : BufTy).Contents (Elt F)),
    binary main_v66 main_v67 main_v68 (cmpi .sge : (⟨S802816, .i32⟩ : BufTy).Contents (Elt F) → (⟨S802816, .i32⟩ : BufTy).Contents (Elt F) → (⟨S802816, .i1⟩ : BufTy).Contents (Elt F)),
    reshape main_v39 main_v69 rfl shapeCasts_S16x500000_S8000000,
    nullary main_c_8 (constantI S_ 32 0#32),
    TRef.unary (.of main_c_8 : TRef sig ⟨S_, .i32⟩) main_call3.v0 id,
    TRef.unary main_call3.v0 main_call3.v1 (broadcastInDim S802816 ![] bcast_S_S802816),
    TRef.binary main_call3.v1 (.of main_v66 : TRef sig ⟨S802816, .i32⟩) main_call3.v2 maxsi ]

/-- Operations 97 … 105: the clipped winner as a gather index, and the gather of the depths. -/
abbrev opsB3 : List (HloOp τ sig (Elt F)) :=
  [ nullary main_c_9 (constantI S_ 32 0#32),
    unary main_c_9 main_v71 (broadcastInDim S802816 ![] bcast_S_S802816 : (⟨S_, .i32⟩ : BufTy).Contents (Elt F) → (⟨S802816, .i32⟩ : BufTy).Contents (Elt F)),
    binary main_v70 main_v71 main_v72 (cmpi .slt : (⟨S802816, .i32⟩ : BufTy).Contents (Elt F) → (⟨S802816, .i32⟩ : BufTy).Contents (Elt F) → (⟨S802816, .i1⟩ : BufTy).Contents (Elt F)),
    nullary main_c_10 (constantI S_ 32 8000000#32),
    unary main_c_10 main_v73 (broadcastInDim S802816 ![] bcast_S_S802816 : (⟨S_, .i32⟩ : BufTy).Contents (Elt F) → (⟨S802816, .i32⟩ : BufTy).Contents (Elt F)),
    binary main_v70 main_v73 main_v74 (addi : (⟨S802816, .i32⟩ : BufTy).Contents (Elt F) → (⟨S802816, .i32⟩ : BufTy).Contents (Elt F) → (⟨S802816, .i32⟩ : BufTy).Contents (Elt F)),
    ternary main_v72 main_v74 main_v70 main_v75 (select : (⟨S802816, .i1⟩ : BufTy).Contents (Elt F) → (⟨S802816, .i32⟩ : BufTy).Contents (Elt F) → (⟨S802816, .i32⟩ : BufTy).Contents (Elt F) → (⟨S802816, .i32⟩ : BufTy).Contents (Elt F)),
    unary main_v75 main_v76 (broadcastInDim S802816x1 ![0] bcast_S802816_S802816x1_0 : (⟨S802816, .i32⟩ : BufTy).Contents (Elt F) → (⟨S802816x1, .i32⟩ : BufTy).Contents (Elt F)),
    binary main_v69 main_v76 main_v77 ((fun x i => Host.gather gather_S8000000_S802816x1_S802816_n_0_n_n_0_1_1 x i) : (⟨S8000000, .f32⟩ : BufTy).Contents (Elt F) → (⟨S802816x1, .i32⟩ : BufTy).Contents (Elt F) → (⟨S802816, .f32⟩ : BufTy).Contents (Elt F)) ]

/-- Operations 106 … 109: the select against zero and the reshape to one image per batch. -/
abbrev opsB4 : List (HloOp τ sig (Elt F)) :=
  [ nullary main_cst_11 (constant S_ .f32 0x00000000#32),
    TRef.unary (.of main_cst_11 : TRef sig ⟨S_, .f32⟩) main_call4.v0 (broadcastInDim S802816 ![] bcast_S_S802816),
    TRef.ternary (.of main_v68 : TRef sig ⟨S802816, .i1⟩) (.of main_v77 : TRef sig ⟨S802816, .f32⟩) main_call4.v0 main_call4.v1 select,
    reshape main_v78 main_v79 rfl shapeCasts_S802816_S16x1x224x224 ]

set_option maxRecDepth 8192 in
set_option maxHeartbeats 1000000 in
theorem win_B1 (W : Valuation τ sig (Elt Ideal)) :
    after (opsB1 (F := Ideal)) W (main_v66 : DevRef τ sig)
      = winR (W (main_v61 : DevRef τ sig)) := by
  unfold winR
  after_results_simp <;> rfl

set_option maxRecDepth 8192 in
set_option maxHeartbeats 1000000 in
theorem v39_B1 (W : Valuation τ sig (Elt Ideal)) :
    after (opsB1 (F := Ideal)) W (main_v39 : DevRef τ sig)
      = (W (main_v39 : DevRef τ sig)) := by
  after_results_simp

set_option maxRecDepth 8192 in
set_option maxHeartbeats 1000000 in
theorem has_B2 (W : Valuation τ sig (Elt Ideal)) :
    after (opsB2 (F := Ideal)) W (main_v68 : DevRef τ sig)
      = cmpi .sge (W (main_v66 : DevRef τ sig)) (broadcastInDim S802816 ![] bcast_S_S802816 (constantI S_ 32 0#32)) := by
  after_results_simp <;> rfl

set_option maxRecDepth 8192 in
set_option maxHeartbeats 1000000 in
theorem dep_B2 (W : Valuation τ sig (Elt Ideal)) :
    after (opsB2 (F := Ideal)) W (main_v69 : DevRef τ sig)
      = shapeCast S8000000 (W (main_v39 : DevRef τ sig)) shapeCasts_S16x500000_S8000000 := by
  after_results_simp <;> rfl

set_option maxRecDepth 8192 in
set_option maxHeartbeats 1000000 in
theorem clip_B2 (W : Valuation τ sig (Elt Ideal)) :
    after (opsB2 (F := Ideal)) W (main_v70 : DevRef τ sig)
      = clipR (W (main_v66 : DevRef τ sig)) := by
  after_results_simp <;> rfl

set_option maxRecDepth 8192 in
set_option maxHeartbeats 1000000 in
theorem gat_B3 (W : Valuation τ sig (Elt Ideal)) :
    after (opsB3 (F := Ideal)) W (main_v77 : DevRef τ sig)
      = Host.gather gather_S8000000_S802816x1_S802816_n_0_n_n_0_1_1 (W (main_v69 : DevRef τ sig))
          (broadcastInDim S802816x1 ![0] bcast_S802816_S802816x1_0
            (select
              (cmpi .slt (W (main_v70 : DevRef τ sig)) (broadcastInDim S802816 ![] bcast_S_S802816 (constantI S_ 32 0#32)))
              (addi (W (main_v70 : DevRef τ sig)) (broadcastInDim S802816 ![] bcast_S_S802816 (constantI S_ 32 8000000#32)))
              (W (main_v70 : DevRef τ sig)))) := by
  after_results_simp

set_option maxRecDepth 8192 in
set_option maxHeartbeats 1000000 in
theorem has_B3 (W : Valuation τ sig (Elt Ideal)) :
    after (opsB3 (F := Ideal)) W (main_v68 : DevRef τ sig)
      = (W (main_v68 : DevRef τ sig)) := by
  after_results_simp

set_option maxRecDepth 8192 in
set_option maxHeartbeats 1000000 in
theorem out_B4 (W : Valuation τ sig (Elt Ideal)) :
    after (opsB4 (F := Ideal)) W (main_v79 : DevRef τ sig)
      = shapeCast S16x1x224x224
          (select (W (main_v68 : DevRef τ sig)) (W (main_v77 : DevRef τ sig))
            (broadcastInDim S802816 ![] bcast_S_S802816 (constant (F := Ideal) S_ .f32 0x00000000#32)))
          shapeCasts_S802816_S16x1x224x224 := by
  after_results_simp <;> rfl

/-! ## The whole line -/

/-- The line is its five stretches, one after the other. -/
theorem ops_split : (ops : List (HloOp τ sig (Elt F))) = opsA ++ (opsB1 ++ (opsB2 ++ (opsB3 ++ opsB4))) := rfl

/-- After the whole line the result buffer holds `resR` of the arguments: the stretches chained, each reading what the
    one before left. -/
theorem res_eq (V : Valuation τ sig (Elt Ideal)) :
    after (ops (F := Ideal)) V (main_v79 : DevRef τ sig)
      = resR (V (main_arg0 : DevRef τ sig)) (V (main_arg1 : DevRef τ sig)) (V (main_arg2 : DevRef τ sig)) (V (main_arg3 : DevRef τ sig)) := by
  rw [ops_split, after_app, after_app, after_app, after_app, out_B4, gat_B3, has_B3, has_B2, dep_B2, clip_B2, win_B1,
    v39_B1, seg_A, dep_A]
  unfold resR tailR depR
  rfl

set_option maxRecDepth 8192 in
set_option maxHeartbeats 4000000 in
/-- No operation writes argument 0. -/
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
/-- No operation writes argument 1. -/
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
/-- No operation writes argument 2. -/
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
/-- No operation writes argument 3. -/
theorem arg3_eq (V : Valuation τ sig (Elt Ideal)) :
    after (ops (F := Ideal)) V (main_arg3 : DevRef τ sig) = V (main_arg3 : DevRef τ sig) := by
  after_results_simp

/-- On every device, at the ideal instance, from any memory with zero counters: every weakly fair execution of the
    reference's host function terminates with the result buffer at `resR` of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79)
          = resR (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v79).trans (res_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_ops m ρ)

end Cert.ReferenceIdeal.RefValue

end
-- ==== Proof.KEntry.lean ====
/-
  The arrays the region finds that host operations wrote. Before the kernel is launched the host transposes the vertices
  to `[16, 3, 500000]` (channel before position), pads the position axis with zeros up to `524288 = 16 · 32768`, and
  views the translation `[16, 3]` as `[16, 1, 3]`. Read at an index: inside the unpadded row, entry `(b, r, n)` of the padded array is
  the vertex entry `(b, n, r)`; entry `(b, 0, k)` of the viewed translation is the translation's `(b, k)`. What the
  padding holds is never needed: the kernel sends every padded position to the dump segment.
-/
import proofs.«125162_j89988154786228_1_alg».proof.Proof.KernelIdealFrame
import Idealize.ShloMosaic.Lib.StableHlo.Run
import Idealize.ShloMosaic.Lib.KernelVsHost
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Cert.KernelIdeal.GenP Idealize.ShloMosaic Idealize.ShloMosaic.TcCoe
  Idealize.ShloMosaic.ValueIdx Idealize.ShloMosaic.Pipeline Idealize.ShloMosaic.StableHlo Idealize.SL.Sem

variable (m : (ℓ : Loc nD τ sig) → Buf (Elt Ideal) ℓ)

/-- The padded, transposed vertices, as the host operations before the region compute them. -/
theorem V_main_v1 (c : Dev nD) :
    (V m c main_v1 : S16x3x524288.Idx → Elt Ideal .f32)
      = pad S16x3x524288 ![0, 0, 0] ![0, 0, 24288] ![0, 0, 0]
          (transpose S16x3x500000 [0, 2, 1] (m ((c : Thread nD τ).loc main_arg0)) transposes_S16x500000x3_S16x3x500000_0_2_1)
          (sitofp (F := Ideal) .f32 (constantI S_ 32 0#32)) pads_S16x3x500000_S16x3x524288_000_000_0242880 h_S_ := by
  dsimp only [V, V0]
  simp only [hostOps0, hostOps0_1, hostOps0_2, List.flatten_cons, List.flatten_nil, List.append_nil, List.cons_append,
    List.nil_append]
  after_results
  rfl

/-- The translation viewed `[16, 1, 3]`. -/
theorem V_main_v2 (c : Dev nD) :
    (V m c main_v2 : S16x1x3.Idx → Elt Ideal .f32)
      = shapeCast S16x1x3 (m ((c : Thread nD τ).loc main_arg2)) shapeCasts_S16x3_S16x1x3 := by
  dsimp only [V, V0]
  simp only [hostOps0, hostOps0_1, hostOps0_2, List.flatten_cons, List.flatten_nil, List.append_nil, List.cons_append,
    List.nil_append]
  after_results
  rfl

/-- Inside the unpadded row the padded array holds the vertices, channel and position exchanged. -/
theorem V_main_v1_apply (c : Dev nD) (b : Fin 16) (r : Fin 3) (n : Fin 524288) (n' : Fin 500000) (hn : n.val = n'.val) :
    V m c main_v1 (ix3 b r n) = m ((c : Thread nD τ).loc main_arg0) (ix3 b n' r) := by
  rw [V_main_v1]
  rw [pad_apply_of_inside _ _ _ _ _ _ _ (ix3 b r n) (ix3 b r n') (fun a => match a with
    | ⟨0, _⟩ => by show b.val = 0 + b.val * (0 + 1); omega
    | ⟨1, _⟩ => by show r.val = 0 + r.val * (0 + 1); omega
    | ⟨2, _⟩ => by show n.val = 0 + n'.val * (0 + 1); omega)]
  exact transpose_ix3_021_apply _ _ b r n'

/-- The viewed translation at `(b, 0, k)` is the translation at `(b, k)`. -/
theorem V_main_v2_apply (c : Dev nD) (b : Fin 16) (k : Fin 3) :
    V m c main_v2 (ix3 b (0 : Fin 1) k) = m ((c : Thread nD τ).loc main_arg2) (ix2 b k) := by
  rw [V_main_v2]
  refine shapeCast_apply (s := S16x3) (t := S16x1x3) _ _ (ix3 b (0 : Fin 1) k) (ix2 b k) ?_
  show (S16x3.rowMajor (ix2 b k)).val = (S16x1x3.rowMajor (ix3 b (0 : Fin 1) k)).val
  rw [Shape.rowMajor_val_three, Shape.rowMajor_val_two]
  show b.val * 3 + k.val = (b.val * 1 + 0) * 3 + k.val
  omega

end Cert.KernelIdeal.KValue

end
-- ==== Proof.RefRead.lean ====
/-
  The reference's flat segment ids and flat depths read at one point. Entry `b · 500000 + n` of either is the value at
  point `n` of batch `b` of a batch-by-points array, and every operation on the way there acts entry by entry, or
  re-indexes: the contraction over the vertex's three coordinates is the sum of three products in order, a slice of
  the last axis picks one coordinate, a column of per-batch numbers broadcast along the points reads its batch's
  entry. So the segment id is the specification's `pointSegment` and the depth its `pointDepth`, with no hypothesis on
  the inputs.
-/
import proofs.«125162_j89988154786228_1_alg».proof.Proof.RefTerm
import proofs.«125162_j89988154786228_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen

variable (a0 : FVec Ideal S16x500000x3 .f32) (a1 : FVec Ideal S16x3x3 .f32) (a2 : FVec Ideal S16x3 .f32)
  (a3 : FVec Ideal S16x3x3 .f32)

/-- The reference's one contraction: batch axis 0 on both sides, the vertices' axis 2 against the rotation's axis 2. -/
abbrev D := dot_S16x500000x3_S16x3x3_S16x500000x3_2_2_1_1_0_0

theorem lhsD_0 (j : S16x500000x3.Idx) (q : D.contr.Idx) : (D.lhsIdx j q 0 : ℕ) = j 0 := by
  simp [DotDims.lhsIdx, D, dot_S16x500000x3_S16x3x3_S16x500000x3_2_2_1_1_0_0]; rfl
theorem lhsD_1 (j : S16x500000x3.Idx) (q : D.contr.Idx) : (D.lhsIdx j q 1 : ℕ) = j 1 := by
  simp [DotDims.lhsIdx, D, dot_S16x500000x3_S16x3x3_S16x500000x3_2_2_1_1_0_0]; rfl
theorem lhsD_2 (j : S16x500000x3.Idx) (q : D.contr.Idx) : (D.lhsIdx j q 2 : ℕ) = q ⟨0, by decide⟩ := by
  simp [DotDims.lhsIdx, D, dot_S16x500000x3_S16x3x3_S16x500000x3_2_2_1_1_0_0]; rfl
theorem rhsD_0 (j : S16x500000x3.Idx) (q : D.contr.Idx) : (D.rhsIdx j q 0 : ℕ) = j 0 := by
  simp [DotDims.rhsIdx, D, dot_S16x500000x3_S16x3x3_S16x500000x3_2_2_1_1_0_0]; rfl
theorem rhsD_1 (j : S16x500000x3.Idx) (q : D.contr.Idx) : (D.rhsIdx j q 1 : ℕ) = j 2 := by
  simp [DotDims.rhsIdx, D, dot_S16x500000x3_S16x3x3_S16x500000x3_2_2_1_1_0_0]; rfl
theorem rhsD_2 (j : S16x500000x3.Idx) (q : D.contr.Idx) : (D.rhsIdx j q 2 : ℕ) = q ⟨0, by decide⟩ := by
  simp [DotDims.rhsIdx, D, dot_S16x500000x3_S16x3x3_S16x500000x3_2_2_1_1_0_0]; rfl

/-- The contracted index is the coordinate along the vertex. -/
def eD : D.contr.Idx ≃ Fin 3 := contrEquiv1 D 3 rfl rfl

theorem eD_symm_val (i : Fin 3) : ((eD.symm i) ⟨0, by decide⟩ : ℕ) = i.val :=
  contrEquiv1_symm_val D 3 rfl rfl i

theorem lhsD_eq (b : Fin 16) (n : Fin 500000) (k i : Fin 3) : D.lhsIdx (ix3 b n k) (eD.symm i) = ix3 b n i := by
  funext a
  match a with
  | ⟨0, _⟩ => exact Fin.ext (lhsD_0 _ _)
  | ⟨1, _⟩ => exact Fin.ext (lhsD_1 _ _)
  | ⟨2, _⟩ => exact Fin.ext ((lhsD_2 _ _).trans (eD_symm_val i))

theorem rhsD_eq (b : Fin 16) (n : Fin 500000) (k i : Fin 3) : D.rhsIdx (ix3 b n k) (eD.symm i) = ix3 b k i := by
  funext a
  match a with
  | ⟨0, _⟩ => exact Fin.ext (rhsD_0 _ _)
  | ⟨1, _⟩ => exact Fin.ext (rhsD_1 _ _)
  | ⟨2, _⟩ => exact Fin.ext ((rhsD_2 _ _).trans (eD_symm_val i))

/-- The translation, broadcast over the points, read at a point. -/
theorem bcastT_apply (b : Fin 16) (n : Fin 500000) (k : Fin 3) :
    broadcastInDim S16x500000x3 ![0, 1, 2] bcast_S16x1x3_S16x500000x3_0_1_2
      (broadcastInDim S16x1x3 ![0, 2] bcast_S16x3_S16x1x3_0_2 a2) (ix3 b n k) = a2 (ix2 b k) := by
  refine (broadcastInDim_apply _ _ _ (ix3 b n k) (ix3 b 0 k) fun a => ?_).trans ?_
  · match a with
    | ⟨0, _⟩ => rfl
    | ⟨1, _⟩ => rfl
    | ⟨2, _⟩ => rfl
  · refine (broadcastInDim_apply _ _ _ (ix3 b 0 k) (ix2 b k) fun a => ?_)
    match a with
    | ⟨0, _⟩ => rfl
    | ⟨1, _⟩ => rfl

/-- %3 at a point and a coordinate: the specification's camera-space coordinate. -/
theorem vcR_apply (b : Fin 16) (n : Fin 500000) (k : Fin 3) :
    vcR a0 a1 a2 (ix3 b n k) = Cert.Spec.cam a0 a1 a2 b n k := by
  unfold vcR
  rw [addf_apply, bcastT_apply]
  simp only [Host.dotGeneral]
  rw [Ideal.dotGeneral_apply, ← Equiv.sum_comp eD.symm, Fin.sum_univ_three]
  simp only [lhsD_eq, rhsD_eq]
  rfl

/-- One entry of the intrinsics, sliced out, flattened and made a column, read at a batch. -/
theorem intr_apply (o1 o2 : Fin 3) (hs : S16x3x3.Slices ![0, o1.val, o2.val] S16x1x1) (b : Fin 16) :
    broadcastInDim S16x1 ![0] bcast_S16_S16x1_0
      (shapeCast S16 (extractStridedSlice S16x1x1 ![0, o1.val, o2.val] a3 hs) shapeCasts_S16x1x1_S16) (ix2 b 0)
      = a3 (ix3 b o1 o2) := by
  refine (broadcastInDim_apply _ _ _ (ix2 b 0) (ix1 b) fun a => ?_).trans ?_
  · match a with
    | ⟨0, _⟩ => rfl
  refine (shapeCast_apply _ _ (ix1 b) (ix3 b 0 0) ?_).trans ?_
  · rw [Shape.rowMajor_val_three, Shape.rowMajor_val_one]
    show ((b.val * 1 + 0) * 1 + 0) = b.val
    omega
  refine extractStridedSlice_apply _ _ _ (ix3 b 0 0) (ix3 b o1 o2) fun a => ?_
  match a with
  | ⟨0, _⟩ => show b.val = 0 + b.val; omega
  | ⟨1, _⟩ => show o1.val = o1.val + 0; omega
  | ⟨2, _⟩ => show o2.val = o2.val + 0; omega

theorem fxR_apply (b : Fin 16) : fxR a3 (ix2 b 0) = a3 (ix3 b 0 0) := intr_apply a3 0 0 _ b
theorem fyR_apply (b : Fin 16) : fyR a3 (ix2 b 0) = a3 (ix3 b 1 1) := intr_apply a3 1 1 _ b
theorem cxR_apply (b : Fin 16) : cxR a3 (ix2 b 0) = a3 (ix3 b 0 2) := intr_apply a3 0 2 _ b
theorem cyR_apply (b : Fin 16) : cyR a3 (ix2 b 0) = a3 (ix3 b 1 2) := intr_apply a3 1 2 _ b

/-- A column broadcast along the points, read at a point. -/
theorem bcastCol_apply {α : Type} (x : S16x1.Idx → α) (b : Fin 16) (n : Fin 500000) :
    broadcastInDim S16x500000 ![0, 1] bcast_S16x1_S16x500000_0_1 x (ix2 b n) = x (ix2 b 0) := by
  refine broadcastInDim_apply _ _ _ (ix2 b n) (ix2 b 0) fun a => ?_
  match a with
  | ⟨0, _⟩ => rfl
  | ⟨1, _⟩ => rfl

/-- One camera-space coordinate of every point, sliced out and flattened to the points, read at a point. -/
theorem coord_apply {α : Type} (x : S16x500000x3.Idx → α) (o : Fin 3) (hs : S16x500000x3.Slices ![0, 0, o.val] S16x500000x1)
    (b : Fin 16) (n : Fin 500000) :
    shapeCast S16x500000 (extractStridedSlice S16x500000x1 ![0, 0, o.val] x hs) shapeCasts_S16x500000x1_S16x500000 (ix2 b n)
      = x (ix3 b n o) := by
  refine (shapeCast_apply _ _ (ix2 b n) (ix3 b n 0) ?_).trans ?_
  · rw [Shape.rowMajor_val_three, Shape.rowMajor_val_two]
    show ((b.val * 500000 + n.val) * 1 + 0) = b.val * 500000 + n.val
    omega
  refine extractStridedSlice_apply _ _ _ (ix3 b n 0) (ix3 b n o) fun a => ?_
  match a with
  | ⟨0, _⟩ => show b.val = 0 + b.val; omega
  | ⟨1, _⟩ => show n.val = 0 + n.val; omega
  | ⟨2, _⟩ => show o.val = o.val + 0; omega

theorem coord0_apply {α : Type} (x : S16x500000x3.Idx → α) (b : Fin 16) (n : Fin 500000) :
    shapeCast S16x500000 (extractStridedSlice S16x500000x1 ![0, 0, 0] x slices_S16x500000x3_S16x500000x1_0_0_0)
      shapeCasts_S16x500000x1_S16x500000 (ix2 b n) = x (ix3 b n 0) := coord_apply x 0 _ b n
theorem coord1_apply {α : Type} (x : S16x500000x3.Idx → α) (b : Fin 16) (n : Fin 500000) :
    shapeCast S16x500000 (extractStridedSlice S16x500000x1 ![0, 0, 1] x slices_S16x500000x3_S16x500000x1_0_0_1)
      shapeCasts_S16x500000x1_S16x500000 (ix2 b n) = x (ix3 b n 1) := coord_apply x 1 _ b n
theorem coord2_apply {α : Type} (x : S16x500000x3.Idx → α) (b : Fin 16) (n : Fin 500000) :
    shapeCast S16x500000 (extractStridedSlice S16x500000x1 ![0, 0, 2] x slices_S16x500000x3_S16x500000x1_0_0_2)
      shapeCasts_S16x500000x1_S16x500000 (ix2 b n) = x (ix3 b n 2) := coord_apply x 2 _ b n

/-- %19 at a point: the guarded depth. -/
theorem zR_apply (b : Fin 16) (n : Fin 500000) :
    zR a0 a1 a2 (ix2 b n) = FloatOps.addf (Cert.Spec.cam a0 a1 a2 b n 2) Cert.Spec.eps := by
  unfold zR
  rw [addf_apply, coord2_apply, vcR_apply]
  rfl

/-- %26 at a point: the horizontal image coordinate. -/
theorem uR_apply (b : Fin 16) (n : Fin 500000) : uR a0 a1 a2 a3 (ix2 b n) = Cert.Spec.imgU a0 a1 a2 a3 b n := by
  unfold uR
  rw [addf_apply, mulf_apply, bcastCol_apply, bcastCol_apply, fxR_apply, cxR_apply]
  show a3 (ix3 b 0 0) * Ideal.div (shapeCast S16x500000 _ _ (ix2 b n)) (zR a0 a1 a2 (ix2 b n)) + a3 (ix3 b 0 2) = _
  rw [coord0_apply, vcR_apply, zR_apply]
  rfl

/-- %33 at a point: the vertical image coordinate. -/
theorem vR_apply (b : Fin 16) (n : Fin 500000) : vR a0 a1 a2 a3 (ix2 b n) = Cert.Spec.imgV a0 a1 a2 a3 b n := by
  unfold vR
  rw [addf_apply, mulf_apply, bcastCol_apply, bcastCol_apply, fyR_apply, cyR_apply]
  show a3 (ix3 b 1 1) * Ideal.div (shapeCast S16x500000 _ _ (ix2 b n)) (zR a0 a1 a2 (ix2 b n)) + a3 (ix3 b 1 2) = _
  rw [coord1_apply, vcR_apply, zR_apply]
  rfl

/-- The outlined truncation then the conversion, at an index: the specification's truncation of the entry. -/
theorem trunc_apply (x : FVec Ideal S16x500000 .f32) (j : S16x500000.Idx) :
    (fptosi 32 (truncR x) : IVec S16x500000 32) j = Cert.Spec.truncToInt (x j) := rfl

/-- %35 at a point. -/
theorem uiR_apply (b : Fin 16) (n : Fin 500000) :
    uiR a0 a1 a2 a3 (ix2 b n) = Cert.Spec.truncToInt (Cert.Spec.imgU a0 a1 a2 a3 b n) := by
  unfold uiR
  rw [trunc_apply, uR_apply]

/-- %37 at a point. -/
theorem viR_apply (b : Fin 16) (n : Fin 500000) :
    viR a0 a1 a2 a3 (ix2 b n) = Cert.Spec.truncToInt (Cert.Spec.imgV a0 a1 a2 a3 b n) := by
  unfold viR
  rw [trunc_apply, vR_apply]

/-- %50 at an index: the four comparisons of the two integer coordinates there. -/
theorem validR_apply (j : S16x500000.Idx) :
    validR a0 a1 a2 a3 j = Cert.Spec.inImage (uiR a0 a1 a2 a3 j) (viR a0 a1 a2 a3 j) := rfl

/-- %59 at an index, its outer sums taken there. -/
theorem pixR_eq (j : S16x500000.Idx) :
    pixR a0 a1 a2 a3 j
      = IntOp.addi
          (IntOp.addi
            (broadcastInDim S16x500000 ![0, 1] bcast_S16x1_S16x500000_0_1
              (muli (broadcastInDim S16x1 ![0] bcast_S16_S16x1_0 (iotaInDim S16 32 0))
                (broadcastInDim S16x1 ![] bcast_S_S16x1 (constantI S_ 32 50176#32))) j)
            (IntOp.muli (viR a0 a1 a2 a3 j) 224#32))
          (uiR a0 a1 a2 a3 j) := rfl

/-- %59 at a point: the pixel of the batch's image. -/
theorem pixR_apply (b : Fin 16) (n : Fin 500000) :
    pixR a0 a1 a2 a3 (ix2 b n)
      = Cert.Spec.pixelOf (BitVec.ofNat 32 b.val) (uiR a0 a1 a2 a3 (ix2 b n)) (viR a0 a1 a2 a3 (ix2 b n)) := by
  rw [pixR_eq, bcastCol_apply]
  rfl

/-- The flat position of point `n` of batch `b`. -/
abbrev flat (b : Fin 16) (n : Fin 500000) : Fin 8000000 := ⟨b.val * 500000 + n.val, by have := b.isLt; have := n.isLt; omega⟩

/-- A batch-by-points array flattened, read at a point's flat position. -/
theorem flat_apply {α : Type} (x : S16x500000.Idx → α) (b : Fin 16) (n : Fin 500000) :
    shapeCast S8000000 x shapeCasts_S16x500000_S8000000 (ix1 (flat b n)) = x (ix2 b n) := by
  refine shapeCast_apply _ _ (ix1 (flat b n)) (ix2 b n) ?_
  rw [Shape.rowMajor_val_two, Shape.rowMajor_val_one]
  rfl

/-- %61 at a point: the specification's segment. -/
theorem segR_apply (b : Fin 16) (n : Fin 500000) :
    segR a0 a1 a2 a3 (ix1 (flat b n)) = Cert.Spec.pointSegment a0 a1 a2 a3 b n := by
  unfold segR
  rw [flat_apply, select_apply, validR_apply, pixR_apply, uiR_apply, viR_apply]
  rfl

/-- %69 at a point: the specification's depth. -/
theorem depR_apply (b : Fin 16) (n : Fin 500000) :
    depR a0 a1 a2 (ix1 (flat b n)) = Cert.Spec.pointDepth a0 a1 a2 b n := by
  unfold depR
  rw [flat_apply, coord2_apply, vcR_apply]
  rfl

end Cert.ReferenceIdeal.RefValue

end
-- ==== Proof.KFlat.lean ====
/-
  The kernel's two flat arrays read at a flat position, against the reference's. The kernel works on rows padded from
  500000 to 524288 points: flat position `b · 524288 + n` of its segment and depth arrays is point `n` of the padded row
  of batch `b`. Inside the unpadded row (`n < 500000`) the padded vertex array holds the vertex, the position test passes
  (chunk times chunk length plus lane is the position, as 32-bit words, and both sides of the signed comparison are small
  naturals), so the segment and the depth are the specification's; on the padding the position test fails and the
  segment is the dump segment. The reference's flat position `r` is point `r % 500000` of batch `r / 500000`, which sits
  at `emb r = (r / 500000) · 524288 + r % 500000` in the kernel's arrays: `emb` is strictly increasing, the two sides
  agree along it, and every position it misses is padding.
-/
import proofs.«125162_j89988154786228_1_alg».proof.Proof.KBlocks
import proofs.«125162_j89988154786228_1_alg».proof.Proof.KEntry
import proofs.«125162_j89988154786228_1_alg».proof.Proof.Spec
import proofs.«125162_j89988154786228_1_alg».proof.Proof.RefRead
import Idealize.ShloMosaic.Lib.WordArith
import Idealize.ShloMosaic.Lib.Affine

set_option maxRecDepth 16384

noncomputable section

namespace Cert.KernelIdeal.KValue

open Cert.KernelIdeal Cert.KernelIdeal.Gen Cert.KernelIdeal.GenP Idealize.ShloMosaic Idealize.ShloMosaic.TcCoe
  Idealize.ShloMosaic.ValueIdx

/-! ## Words -/

/-- Chunk times chunk length plus lane, as 32-bit words, is the position's word. -/
theorem pos_word (n : Nat) :
    IntOp.addi (IntOp.muli (BitVec.ofNat 32 (n / 32768)) 32768#32) (BitVec.ofNat 32 (n % 32768)) = BitVec.ofNat 32 n := by
  show BitVec.ofNat 32 (n / 32768) * BitVec.ofNat 32 32768 + BitVec.ofNat 32 (n % 32768) = BitVec.ofNat 32 n
  rw [← BitVec.ofNat_mul, ← BitVec.ofNat_add, Nat.div_add_mod']

/-- Inside the unpadded row the position test passes. -/
theorem inRange_eq_one (n : Fin 524288) (h : n.val < 500000) :
    inRange (BitVec.ofNat 32 (n.val / 32768)) ⟨n.val % 32768, Nat.mod_lt _ (by decide)⟩ = 1#1 := by
  unfold inRange
  rw [pos_word, IntOp.cmpi_slt, WordArith.toInt_ofNat_small n.val (by omega), WordArith.toInt_ofNat_small 500000 (by decide)]
  exact_mod_cast h

/-- On the padding it fails. -/
theorem inRange_eq_zero (n : Fin 524288) (h : 500000 ≤ n.val) :
    inRange (BitVec.ofNat 32 (n.val / 32768)) ⟨n.val % 32768, Nat.mod_lt _ (by decide)⟩ = 0#1 := by
  apply eq_zero_of_ne_one
  unfold inRange
  rw [pos_word, IntOp.cmpi_slt, WordArith.toInt_ofNat_small n.val (by have := n.isLt; omega),
    WordArith.toInt_ofNat_small 500000 (by decide)]
  intro h'
  have : n.val < 500000 := by exact_mod_cast h'
  omega

theorem andi_one (x : BitVec 1) : IntOp.andi x 1#1 = x := by
  show x &&& 1#1 = x
  exact BitVec.and_allOnes (x := x)

theorem andi_zero (x : BitVec 1) : IntOp.andi x 0#1 = 0#1 := BitVec.and_zero (x := x)

/-! ## The flat arrays -/

variable (m : (ℓ : Loc nD τ sig) → Buf (Elt Ideal) ℓ)

/-- The flat position of point `n` of the padded row of batch `b`. -/
abbrev flatK (b : Fin 16) (n : Fin 524288) : Fin 8388608 :=
  ⟨b.val * 524288 + n.val, by have := b.isLt; have := n.isLt; omega⟩

/-- The kernel's flat segment ids, from the arrays the region finds. -/
def segK (c : Dev nD) : IVec S8388608 32 :=
  shapeCast S8388608 (Gseg (V m c main_v1) (V m c main_arg1) (V m c main_v2) (V m c main_arg3))
    shapeCasts_S16x1x524288_S8388608

/-- The kernel's flat depths, from the arrays the region finds. -/
def depK (c : Dev nD) : FVec Ideal S8388608 .f32 :=
  shapeCast S8388608 (Gdep (V m c main_v1) (V m c main_arg1) (V m c main_v2)) shapeCasts_S16x1x524288_S8388608

/-- A batch-by-one-by-padded-points array flattened, read at a point's flat position. -/
theorem flatK_apply {α : Type} (x : S16x1x524288.Idx → α) (b : Fin 16) (n : Fin 524288) :
    shapeCast S8388608 x shapeCasts_S16x1x524288_S8388608 (ix1 (flatK b n)) = x (ix3 b (0 : Fin 1) n) := by
  refine shapeCast_apply _ _ (ix1 (flatK b n)) (ix3 b (0 : Fin 1) n) ?_
  rw [Shape.rowMajor_val_three, Shape.rowMajor_val_one]
  show (b.val * 1 + 0) * 524288 + n.val = b.val * 524288 + n.val
  omega

theorem segK_flat (c : Dev nD) (b : Fin 16) (n : Fin 524288) :
    segK m c (ix1 (flatK b n)) = segP (V m c main_v1) (V m c main_arg1) (V m c main_v2) (V m c main_arg3) b n := by
  unfold segK
  rw [flatK_apply]
  rfl

theorem depK_flat (c : Dev nD) (b : Fin 16) (n : Fin 524288) :
    depK m c (ix1 (flatK b n)) = camP (V m c main_v1) (V m c main_arg1) (V m c main_v2) b n 2 := by
  unfold depK
  rw [flatK_apply]
  rfl

/-- Inside the unpadded row the padded row's camera coordinates are the specification's. -/
theorem camP_eq (c : Dev nD) (b : Fin 16) (n : Fin 524288) (n' : Fin 500000) (hn : n.val = n'.val) (k : Fin 3) :
    camP (V m c main_v1) (V m c main_arg1) (V m c main_v2) b n k
      = Cert.Spec.cam (m ((c : Thread nD τ).loc main_arg0)) (m ((c : Thread nD τ).loc main_arg1))
          (m ((c : Thread nD τ).loc main_arg2)) b n' k := by
  unfold camP Cert.Spec.cam
  rw [V_main_v1_apply m c b 0 n n' hn, V_main_v1_apply m c b 1 n n' hn, V_main_v1_apply m c b 2 n n' hn,
    V_main_arg1, V_main_v2_apply]

theorem uP_eq (c : Dev nD) (b : Fin 16) (n : Fin 524288) (n' : Fin 500000) (hn : n.val = n'.val) :
    uP (V m c main_v1) (V m c main_arg1) (V m c main_v2) (V m c main_arg3) b n
      = Cert.Spec.truncToInt (Cert.Spec.imgU (m ((c : Thread nD τ).loc main_arg0)) (m ((c : Thread nD τ).loc main_arg1))
          (m ((c : Thread nD τ).loc main_arg2)) (m ((c : Thread nD τ).loc main_arg3)) b n') := by
  unfold uP Cert.Spec.imgU
  rw [camP_eq m c b n n' hn, camP_eq m c b n n' hn, V_main_arg3]

theorem vP_eq (c : Dev nD) (b : Fin 16) (n : Fin 524288) (n' : Fin 500000) (hn : n.val = n'.val) :
    vP (V m c main_v1) (V m c main_arg1) (V m c main_v2) (V m c main_arg3) b n
      = Cert.Spec.truncToInt (Cert.Spec.imgV (m ((c : Thread nD τ).loc main_arg0)) (m ((c : Thread nD τ).loc main_arg1))
          (m ((c : Thread nD τ).loc main_arg2)) (m ((c : Thread nD τ).loc main_arg3)) b n') := by
  unfold vP Cert.Spec.imgV
  rw [camP_eq m c b n n' hn, camP_eq m c b n n' hn, V_main_arg3]

/-- The unpadded position `n'` in the padded row. -/
abbrev inPad (n' : Fin 500000) : Fin 524288 := ⟨n'.val, by have := n'.isLt; omega⟩

/-- Inside the unpadded row the kernel's segment is the specification's. -/
theorem segK_apply (c : Dev nD) (b : Fin 16) (n' : Fin 500000) :
    segK m c (ix1 (flatK b (inPad n')))
      = Cert.Spec.pointSegment (m ((c : Thread nD τ).loc main_arg0)) (m ((c : Thread nD τ).loc main_arg1))
          (m ((c : Thread nD τ).loc main_arg2)) (m ((c : Thread nD τ).loc main_arg3)) b n' := by
  rw [segK_flat]
  unfold segP
  rw [inRange_eq_one (inPad n') n'.isLt, andi_one, uP_eq m c b (inPad n') n' rfl, vP_eq m c b (inPad n') n' rfl]
  rfl

/-- Inside the unpadded row the kernel's depth is the specification's. -/
theorem depK_apply (c : Dev nD) (b : Fin 16) (n' : Fin 500000) :
    depK m c (ix1 (flatK b (inPad n')))
      = Cert.Spec.pointDepth (m ((c : Thread nD τ).loc main_arg0)) (m ((c : Thread nD τ).loc main_arg1))
          (m ((c : Thread nD τ).loc main_arg2)) b n' := by
  rw [depK_flat, camP_eq m c b (inPad n') n' rfl]
  rfl

/-- On the padding the kernel's segment is the dump segment. -/
theorem segK_pad (c : Dev nD) (b : Fin 16) (n : Fin 524288) (hn : 500000 ≤ n.val) :
    segK m c (ix1 (flatK b n)) = BitVec.ofNat 32 802816 := by
  rw [segK_flat]
  unfold segP
  rw [inRange_eq_zero n hn, andi_zero, select_zero]

/-! ## The reference's positions among the kernel's -/

/-- Where the reference's flat position sits in the kernel's flat arrays: quotient and remainder by the unpadded row
    length, re-based on the padded row length. -/
def emb : Fin 8000000 → Fin 8388608 := fun r =>
  ⟨(r.val / 500000) * 524288 + r.val % 500000, by
    have := r.isLt; have := Nat.mod_lt r.val (by decide : 0 < 500000); omega⟩

theorem emb_strictMono : StrictMono emb := by
  intro r s h
  show (r.val / 500000) * 524288 + r.val % 500000 < (s.val / 500000) * 524288 + s.val % 500000
  have h' : r.val < s.val := h
  have := Nat.mod_lt r.val (by decide : 0 < 500000)
  have := Nat.mod_lt s.val (by decide : 0 < 500000)
  have := Nat.div_add_mod r.val 500000
  have := Nat.div_add_mod s.val 500000
  omega

/-- The batch and the point of a reference position. -/
abbrev batchOf (r : Fin 8000000) : Fin 16 := ⟨r.val / 500000, by have := r.isLt; omega⟩
abbrev pointOf (r : Fin 8000000) : Fin 500000 := ⟨r.val % 500000, Nat.mod_lt _ (by decide)⟩

theorem emb_eq (r : Fin 8000000) : emb r = flatK (batchOf r) (inPad (pointOf r)) := rfl

theorem flat_eq (r : Fin 8000000) : Cert.ReferenceIdeal.RefValue.flat (batchOf r) (pointOf r) = r :=
  Fin.ext (Nat.div_add_mod' r.val 500000)

/-- Along `emb` the kernel's flat arrays are the reference's. -/
theorem hit_agree (c : Dev nD) (r : Fin 8000000) :
    segK m c (ix1 (emb r))
        = Cert.ReferenceIdeal.RefValue.segR (m ((c : Thread nD τ).loc main_arg0)) (m ((c : Thread nD τ).loc main_arg1))
            (m ((c : Thread nD τ).loc main_arg2)) (m ((c : Thread nD τ).loc main_arg3)) (ix1 r)
      ∧ depK m c (ix1 (emb r))
        = Cert.ReferenceIdeal.RefValue.depR (m ((c : Thread nD τ).loc main_arg0)) (m ((c : Thread nD τ).loc main_arg1))
            (m ((c : Thread nD τ).loc main_arg2)) (ix1 r) := by
  constructor
  · rw [emb_eq, segK_apply]
    conv_rhs => rw [← flat_eq r]
    exact (Cert.ReferenceIdeal.RefValue.segR_apply _ _ _ _ (batchOf r) (pointOf r)).symm
  · rw [emb_eq, depK_apply]
    conv_rhs => rw [← flat_eq r]
    exact (Cert.ReferenceIdeal.RefValue.depR_apply _ _ _ (batchOf r) (pointOf r)).symm

/-- Every kernel position `emb` misses is padding, and holds the dump segment. -/
theorem pad_dump (c : Dev nD) (k : Fin 8388608) (hk : ∀ r, emb r ≠ k) : segK m c (ix1 k) = BitVec.ofNat 32 802816 := by
  have hb : k.val / 524288 < 16 := by have := k.isLt; omega
  have hn : k.val % 524288 < 524288 := Nat.mod_lt _ (by decide)
  have hkk : k = flatK ⟨k.val / 524288, hb⟩ ⟨k.val % 524288, hn⟩ := Fin.ext (Nat.div_add_mod' k.val 524288).symm
  rw [hkk]
  refine segK_pad m c _ _ ?_
  show 500000 ≤ k.val % 524288
  by_contra hlt
  have hlt' : k.val % 524288 < 500000 := by omega
  have hr : k.val / 524288 * 500000 + k.val % 524288 < 8000000 := by omega
  refine hk ⟨k.val / 524288 * 500000 + k.val % 524288, hr⟩ (Fin.ext ?_)
  show (k.val / 524288 * 500000 + k.val % 524288) / 500000 * 524288 + (k.val / 524288 * 500000 + k.val % 524288) % 500000 = k.val
  have e1 : (k.val / 524288 * 500000 + k.val % 524288) / 500000 = k.val / 524288 := by
    rw [Nat.add_comm, Nat.add_mul_div_right _ _ (by decide : 0 < 500000), Nat.div_eq_of_lt hlt', Nat.zero_add]
  have e2 : (k.val / 524288 * 500000 + k.val % 524288) % 500000 = k.val % 524288 := by
    rw [Nat.add_comm, Nat.add_mul_mod_self_right, Nat.mod_eq_of_lt hlt']
  rw [e1, e2]
  exact Nat.div_add_mod' k.val 524288

end Cert.KernelIdeal.KValue

end
-- ==== Proof.LibScatterGather1.lean ====
/-
  A one-dimensional scatter and a one-dimensional gather, read at an index.

  The scatter takes an operand `x : [P1]`, one signed index per update (`idx : [M, 1]`) and scalar updates
  `upd : [M]`; the updates are taken in the order `k = 0, 1, …, M − 1`, and update `k` replaces the operand's element at
  `idx k` by `f` of that element and the update when `0 ≤ idx k < P1`, and is dropped otherwise. Each element of the
  operand is therefore changed only by the updates whose index names it, in increasing order of `k`: the result at `p`
  is the left fold, over `k = 0, …, M − 1`, of "if `idx k = p` then `f acc (upd k)` else `acc`", started at `x p`.

  The gather takes an operand `x : [M]` and one signed index per result element (`idx : [P, 1]`); result element `q` is
  the operand at `idx q`, read signed and clamped into `[0, M − 1]`.
-/
import Idealize.ShloMosaic.Lib.ValueIdx

namespace Cert.Lib.LastWins

open Idealize.ShloMosaic Idealize.ShloMosaic.ValueIdx

/-! ### The scatter's dimension numbers, and where update `k` lands -/

/-- The dimension numbers of a scatter of scalars into a flat array: operand `[P1]`, indices `[M, 1]` (one scalar index
    per update, on the index-vector axis 1), updates `[M]`; no window axes, the operand's one axis inserted and addressed
    by the index. The well-formedness conditions `wf` are whatever proof the caller has. -/
abbrev scat1Dims (P1 M : Nat) (wf : ScatterDims.WF ⟨1, ![P1]⟩ ⟨2, ![M, 1]⟩ ⟨1, ![M]⟩ [] [0] [0] 1) :
    ScatterDims ⟨1, ![P1]⟩ ⟨2, ![M, 1]⟩ ⟨1, ![M]⟩ where
  updateWindowDims := []
  insertedWindowDims := [0]
  scatterDimsToOperandDims := [0]
  indexVectorDim := 1
  wf := wf

section Scat1
variable {P1 M w : Nat} (wf : ScatterDims.WF ⟨1, ![P1]⟩ ⟨2, ![M, 1]⟩ ⟨1, ![M]⟩ [] [0] [0] 1)

/-- The operand's axis is inserted: the window coordinate on it is zero. -/
theorem scat1_window (k : Fin M) : (scat1Dims P1 M wf).window (ix1 k) 0 = 0 := rfl

/-- The index of update `k` is read at `(k, 0)` of the index array. -/
theorem scat1_siIdx (k : Fin M) (c : Fin 1) :
    (scat1Dims P1 M wf).siIdx (ix1 k) ⟨c.val, by have := c.isLt; simpa using this⟩ = ix2 k (0 : Fin 1) := by
  funext b
  match b with
  | ⟨0, _⟩ => rfl
  | ⟨1, _⟩ => exact Fin.ext (by have := c.isLt; simp [ScatterDims.siIdx])

/-- The start on the operand's axis is that index, read as a signed integer. -/
theorem scat1_start (k : Fin M) (idx : IVec ⟨2, ![M, 1]⟩ w) :
    (scat1Dims P1 M wf).start (ix1 k) idx 0 = (idx (ix2 k (0 : Fin 1))).toInt := by
  unfold ScatterDims.start
  rw [dif_pos (by simp)]
  exact congrArg (fun q => (idx q).toInt) (scat1_siIdx wf k ⟨0, by decide⟩)

/-- Update `k` lands on operand element `p` exactly when its index, read signed, is `p`. -/
theorem scat1_resultIdx?_eq_some_iff (k : Fin M) (idx : IVec ⟨2, ![M, 1]⟩ w) (p : Fin P1) :
    (scat1Dims P1 M wf).resultIdx? (ix1 k) idx = some (ix1 p) ↔ (idx (ix2 k (0 : Fin 1))).toInt = (p.val : Int) := by
  have hs := scat1_start wf k idx
  have hw := scat1_window wf k
  unfold ScatterDims.resultIdx?
  split
  · next h =>
    rw [Option.some.injEq]
    constructor
    · intro hf
      have h0 : ((scat1Dims P1 M wf).start (ix1 k) idx 0 + ((scat1Dims P1 M wf).window (ix1 k) 0 : Nat)).toNat = p.val :=
        congrArg (fun g => (g 0).val) hf
      have hh0 : 0 ≤ (scat1Dims P1 M wf).start (ix1 k) idx 0 + ((scat1Dims P1 M wf).window (ix1 k) 0 : Nat) := (h 0).1
      rw [hs, hw] at h0 hh0
      omega
    · intro ht
      funext a
      match a with
      | ⟨0, _⟩ =>
        refine Fin.ext ?_
        show ((scat1Dims P1 M wf).start (ix1 k) idx 0 + ((scat1Dims P1 M wf).window (ix1 k) 0 : Nat)).toNat = p.val
        rw [hs, hw, ht]; omega
  · next h =>
    constructor
    · intro hf; exact absurd hf (by simp)
    · intro ht
      refine absurd (fun a => ?_) h
      match a with
      | ⟨0, _⟩ =>
        show 0 ≤ (scat1Dims P1 M wf).start (ix1 k) idx 0 + ((scat1Dims P1 M wf).window (ix1 k) 0 : Nat)
          ∧ (scat1Dims P1 M wf).start (ix1 k) idx 0 + ((scat1Dims P1 M wf).window (ix1 k) 0 : Nat) < (P1 : Int)
        rw [hs, hw, ht]; have := p.isLt; omega

end Scat1

/-! ### A fold of pointwise updates, read at one point -/

/-- A left fold of functions whose every step `n` changes the function only at the points `p` with `hit n p`, there to
    `g n` of the old value at `p`: read at `p`, it is the fold over the value at `p` of the steps that hit `p`. -/
theorem foldl_pointwise_apply {ι β γ : Type} (step : (ι → β) → γ → ι → β) (hit : γ → ι → Prop)
    [∀ n p, Decidable (hit n p)] (g : γ → β → β)
    (hstep : ∀ r n p, step r n p = if hit n p then g n (r p) else r p) (l : List γ) (x : ι → β) (p : ι) :
    (l.foldl step x) p = l.foldl (fun acc n => if hit n p then g n acc else acc) (x p) := by
  induction l generalizing x with
  | nil => rfl
  | cons n l ih => rw [List.foldl_cons, List.foldl_cons, ih, hstep]

/-- The list of a flat shape's indices in row-major order is the list of its coordinates. -/
theorem map_rowMajor_symm_finRange (M : Nat) :
    (List.finRange (⟨1, ![M]⟩ : Shape).numel).map (⟨1, ![M]⟩ : Shape).rowMajor.symm
      = (List.finRange M).map (ix1 (n := M)) := by
  have hM : (⟨1, ![M]⟩ : Shape).numel = M := by simp [Shape.numel]
  apply List.ext_getElem
  · simp [hM]
  · intro i h1 h2
    simp only [List.getElem_map, List.getElem_finRange]
    rw [Equiv.symm_apply_eq]
    refine Fin.ext ?_
    rw [Shape.rowMajor_val_one]
    rfl

/-! ### The scatter read at an index -/

/-- THE SCATTER READ AT `p`: the left fold, over the updates `k = 0, …, M − 1` in order, of "if update `k`'s index (read
    signed) is `p` then `f acc (upd k)` else `acc`", started at the operand's element `p`. -/
theorem scatter_scat1_apply {α : Type} {P1 M w : Nat} (wf : ScatterDims.WF ⟨1, ![P1]⟩ ⟨2, ![M, 1]⟩ ⟨1, ![M]⟩ [] [0] [0] 1)
    (f : α → α → α) (x : (⟨1, ![P1]⟩ : Shape).Idx → α) (idx : IVec ⟨2, ![M, 1]⟩ w) (upd : (⟨1, ![M]⟩ : Shape).Idx → α)
    (p : Fin P1) :
    Host.scatter (scat1Dims P1 M wf) f x idx upd (ix1 p)
      = (List.finRange M).foldl
          (fun acc k => if (idx (ix2 k (0 : Fin 1))).toInt = (p.val : Int) then f acc (upd (ix1 k)) else acc) (x (ix1 p)) := by
  unfold Host.scatter
  refine Eq.trans (foldl_pointwise_apply _
    (fun n j => (scat1Dims P1 M wf).resultIdx? ((⟨1, ![M]⟩ : Shape).rowMajor.symm n) idx = some j)
    (fun n a => f a (upd ((⟨1, ![M]⟩ : Shape).rowMajor.symm n))) ?_
    (List.finRange (⟨1, ![M]⟩ : Shape).numel) x (ix1 p)) ?_
  · intro r n j
    cases h : (scat1Dims P1 M wf).resultIdx? ((⟨1, ![M]⟩ : Shape).rowMajor.symm n) idx with
    | none => simp
    | some i =>
      by_cases hj : j = i
      · subst hj; simp
      · have hne : ¬ (some i = some j) := fun e => hj (Option.some.inj e).symm
        simp [hj, hne]
  have h2 := List.foldl_map (f := (⟨1, ![M]⟩ : Shape).rowMajor.symm)
    (g := fun acc (j : (⟨1, ![M]⟩ : Shape).Idx) =>
      if (scat1Dims P1 M wf).resultIdx? j idx = some (ix1 p) then f acc (upd j) else acc)
    (l := List.finRange (⟨1, ![M]⟩ : Shape).numel) (init := x (ix1 p))
  refine Eq.trans h2.symm ?_
  rw [map_rowMajor_symm_finRange, List.foldl_map]
  refine congrArg (fun g => List.foldl g (x (ix1 p)) (List.finRange M)) ?_
  funext acc k
  by_cases hk : (idx (ix2 k (0 : Fin 1))).toInt = (p.val : Int)
  · rw [if_pos hk, if_pos ((scat1_resultIdx?_eq_some_iff wf k idx p).2 hk)]
  · rw [if_neg hk, if_neg fun h => hk ((scat1_resultIdx?_eq_some_iff wf k idx p).1 h)]

/-! ### The gather's dimension numbers, and the gather read at an index -/

/-- The dimension numbers of `x[idx]` for a flat operand `[M]`, start indices `[P, 1]` (one scalar index per result
    element, on the index-vector axis 1) and result `[P]`: no offset axes, the operand's one axis collapsed and addressed by
    the index, slices of one element. -/
abbrev take1Dims (M P : Nat) (wf : GatherDims.WF ⟨1, ![M]⟩ ⟨2, ![P, 1]⟩ ⟨1, ![P]⟩ [] [0] [] [0] [] 1 ![1]) :
    GatherDims ⟨1, ![M]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- THE GATHER READ AT `q`: the operand at the start index `idx[q, 0]`, read signed and clamped into `[0, M − 1]`. -/
theorem gather_take1_apply {α : Type} {M P w : Nat} (hM : 0 < M)
    (wf : GatherDims.WF ⟨1, ![M]⟩ ⟨2, ![P, 1]⟩ ⟨1, ![P]⟩ [] [0] [] [0] [] 1 ![1])
    (x : (⟨1, ![M]⟩ : Shape).Idx → α) (idx : IVec ⟨2, ![P, 1]⟩ w) (q : Fin P) :
    Host.gather (take1Dims M P wf) x idx (ix1 q)
      = x (ix1 ⟨min (idx (ix2 q (0 : Fin 1))).toInt.toNat (M - 1), by omega⟩) := by
  unfold Host.gather
  congr 1
  funext a
  obtain rfl : a = 0 := Subsingleton.elim _ _
  refine Fin.ext ?_
  show (take1Dims M P wf).start (ix1 q) idx 0 + (take1Dims M P wf).batchCoord (ix1 q) 0
    + (take1Dims M P wf).offCoord (ix1 q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims M P wf).startIndexMap from List.mem_singleton.mpr rfl)]
  have hsi : (take1Dims M P wf).siIdx (ix1 q) ⟨List.idxOf (0 : Fin 1) (take1Dims M P wf).startIndexMap,
      List.idxOf_lt_length_iff.2 (List.mem_singleton.mpr rfl)⟩ = ix2 q (0 : Fin 1) := by
    funext b; refine Fin.ext ?_
    match b with
    | ⟨0, _⟩ => rfl
    | ⟨1, _⟩ => rfl
  rw [hsi]
  rfl

end Cert.Lib.LastWins
-- ==== Proof.LibScatterMax.lean ====
/-
  A scatter-max of positions: the winner of a segment is its last member.

  Scatter the positions `0, 1, …, M − 1` (as 32-bit words, `M < 2³¹`) by signed maximum into an array that holds the
  most negative word `−2³¹` everywhere, update `k` going to the element its index `idx k` names. The signed maximum
  of two words is one of the two and reads, as an integer, as the larger of the two readings; so after the fold the
  element at `p` is either still `−2³¹` or the word of some position `k` with `idx k = p`, and it is at least every such
  position. Hence it is `−2³¹` when no position is sent to `p`, and the word of the LARGEST position sent to `p`
  otherwise — in particular it is non-negative exactly when `p` is hit.
-/
import proofs.«125162_j89988154786228_1_alg».proof.Proof.LibScatterGather1
import Idealize.ShloMosaic.Lib.WordArith

namespace Cert.Lib.LastWins

open Idealize.ShloMosaic Idealize.ShloMosaic.ValueIdx Idealize.ShloMosaic.WordArith

/-! ### The signed maximum of two words -/

/-- The signed maximum is one of its two arguments. -/
theorem maxsi_eq_or (a b : BitVec 32) : IntOp.maxsi a b = a ∨ IntOp.maxsi a b = b := by
  unfold IntOp.maxsi
  by_cases h : b.slt a = true
  · rw [if_pos h]; exact Or.inl rfl
  · rw [if_neg h]; exact Or.inr rfl

/-- The signed maximum, read as an integer, is the larger of the two readings. -/
theorem toInt_maxsi (a b : BitVec 32) : (IntOp.maxsi a b).toInt = max a.toInt b.toInt := by
  unfold IntOp.maxsi
  by_cases h : b.slt a = true
  · rw [if_pos h]; rw [BitVec.slt_iff_toInt_lt] at h; omega
  · rw [if_neg h]; rw [BitVec.slt_iff_toInt_lt] at h; omega

/-- The most negative word reads as `−2³¹`. -/
theorem toInt_intMin : (2147483648#32 : BitVec 32).toInt = -2147483648 := by decide

/-! ### The fold of the hits -/

section Fold
variable {M : Nat} (hit : Fin M → Prop) [DecidablePred hit]

/-- One step of the fold: position `k` is taken into the running maximum when it is a hit. -/
abbrev maxStep (acc : BitVec 32) (k : Fin M) : BitVec 32 :=
  if hit k then IntOp.maxsi acc (BitVec.ofNat 32 k.val) else acc

/-- A step at a hit takes the position in. -/
theorem maxStep_pos (acc : BitVec 32) (k : Fin M) (hk : hit k) :
    maxStep hit acc k = IntOp.maxsi acc (BitVec.ofNat 32 k.val) := if_pos hk
/-- A step off the hits changes nothing. -/
theorem maxStep_neg (acc : BitVec 32) (k : Fin M) (hk : ¬ hit k) : maxStep hit acc k = acc := if_neg hk

/-- A position's word reads as the position. -/
theorem toInt_pos (hM : M < 2 ^ 31) (k : Fin M) : (BitVec.ofNat 32 k.val).toInt = (k.val : Int) :=
  toInt_ofNat_small k.val (by have := k.isLt; omega)

/-- After folding the positions of a list into `acc`, the result is `acc` or the word of a hit of the list; it reads at
    least `acc`, and at least every hit of the list. -/
theorem foldl_maxStep_spec (hM : M < 2 ^ 31) (l : List (Fin M)) (acc : BitVec 32) :
    (l.foldl (maxStep hit) acc = acc ∨ ∃ k ∈ l, hit k ∧ l.foldl (maxStep hit) acc = BitVec.ofNat 32 k.val)
      ∧ acc.toInt ≤ (l.foldl (maxStep hit) acc).toInt
      ∧ ∀ k ∈ l, hit k → (k.val : Int) ≤ (l.foldl (maxStep hit) acc).toInt := by
  induction l generalizing acc with
  | nil => exact ⟨Or.inl rfl, le_refl _, fun k hk => absurd hk List.not_mem_nil⟩
  | cons k l ih =>
    rw [List.foldl_cons]
    obtain ⟨h1, h2, h3⟩ := ih (maxStep hit acc k)
    -- the first step
    have s1 : maxStep hit acc k = acc ∨ (hit k ∧ maxStep hit acc k = BitVec.ofNat 32 k.val) := by
      by_cases hk : hit k
      · rcases maxsi_eq_or acc (BitVec.ofNat 32 k.val) with e | e
        · exact Or.inl (by rw [maxStep_pos hit acc k hk, e])
        · exact Or.inr ⟨hk, by rw [maxStep_pos hit acc k hk, e]⟩
      · exact Or.inl (maxStep_neg hit acc k hk)
    have s2 : acc.toInt ≤ (maxStep hit acc k).toInt := by
      by_cases hk : hit k
      · rw [maxStep_pos hit acc k hk, toInt_maxsi]; exact le_max_left _ _
      · rw [maxStep_neg hit acc k hk]
    have s3 : hit k → (k.val : Int) ≤ (maxStep hit acc k).toInt := by
      intro hk
      rw [maxStep_pos hit acc k hk, toInt_maxsi, toInt_pos hM]; exact le_max_right _ _
    refine ⟨?_, le_trans s2 h2, ?_⟩
    · rcases h1 with e | ⟨k', hk', hh, e⟩
      · rcases s1 with e1 | ⟨hk, e1⟩
        · exact Or.inl (e.trans e1)
        · exact Or.inr ⟨k, List.mem_cons_self, hk, e.trans e1⟩
      · exact Or.inr ⟨k', List.mem_cons_of_mem _ hk', hh, e⟩
    · intro k' hk' hh
      rcases List.mem_cons.1 hk' with rfl | hk'
      · exact le_trans (s3 hh) h2
      · exact h3 k' hk' hh

/-- No hit at all: the fold from `−2³¹` over all positions is still `−2³¹`. -/
theorem foldl_maxStep_none (hM : M < 2 ^ 31) (hno : ∀ k, ¬ hit k) :
    (List.finRange M).foldl (maxStep hit) 2147483648#32 = 2147483648#32 := by
  rcases (foldl_maxStep_spec hit hM (List.finRange M) 2147483648#32).1 with e | ⟨k, _, hk, _⟩
  · exact e
  · exact absurd hk (hno k)

/-- A largest hit `kmax`: the fold from `−2³¹` over all positions is its word. -/
theorem foldl_maxStep_last (hM : M < 2 ^ 31) (kmax : Fin M) (hk : hit kmax) (hmax : ∀ k, hit k → k ≤ kmax) :
    (List.finRange M).foldl (maxStep hit) 2147483648#32 = BitVec.ofNat 32 kmax.val := by
  obtain ⟨h1, _, h3⟩ := foldl_maxStep_spec hit hM (List.finRange M) 2147483648#32
  have hge := h3 kmax (List.mem_finRange _) hk
  rcases h1 with e | ⟨k, _, hkk, e⟩
  · rw [e, toInt_intMin] at hge; omega
  · rw [e]
    rw [e, toInt_pos hM] at hge
    have := hmax k hkk
    have hle : k.val ≤ kmax.val := this
    have : k.val = kmax.val := by omega
    rw [this]

end Fold

/-! ### The scatter-max of the positions -/

section ScatterMax
variable {P1 M : Nat} (wf : ScatterDims.WF ⟨1, ![P1]⟩ ⟨2, ![M, 1]⟩ ⟨1, ![M]⟩ [] [0] [0] 1)
  (x : IVec ⟨1, ![P1]⟩ 32) (idx : IVec ⟨2, ![M, 1]⟩ 32) (p : Fin P1)

/-- The scatter-max of the positions read at `p` is the fold of the hits of `p`. -/
theorem scatterMax_iota_apply :
    Host.scatter (scat1Dims P1 M wf) IntOp.maxsi x idx (iotaInDim ⟨1, ![M]⟩ 32 0) (ix1 p)
      = (List.finRange M).foldl (maxStep fun k => (idx (ix2 k (0 : Fin 1))).toInt = (p.val : Int)) (x (ix1 p)) :=
  scatter_scat1_apply wf IntOp.maxsi x idx (iotaInDim ⟨1, ![M]⟩ 32 0) p

/-- Nothing is sent to `p`: the winner is the initial `−2³¹`. -/
theorem scatterMax_iota_none (hM : M < 2 ^ 31) (hx : x (ix1 p) = 2147483648#32)
    (hno : ∀ k : Fin M, (idx (ix2 k (0 : Fin 1))).toInt ≠ (p.val : Int)) :
    Host.scatter (scat1Dims P1 M wf) IntOp.maxsi x idx (iotaInDim ⟨1, ![M]⟩ 32 0) (ix1 p) = 2147483648#32 := by
  rw [scatterMax_iota_apply, hx]
  exact foldl_maxStep_none _ hM hno

/-- `kmax` is the largest position sent to `p`: the winner is its word. -/
theorem scatterMax_iota_last (hM : M < 2 ^ 31) (hx : x (ix1 p) = 2147483648#32) (kmax : Fin M)
    (hk : (idx (ix2 kmax (0 : Fin 1))).toInt = (p.val : Int))
    (hmax : ∀ k : Fin M, (idx (ix2 k (0 : Fin 1))).toInt = (p.val : Int) → k ≤ kmax) :
    Host.scatter (scat1Dims P1 M wf) IntOp.maxsi x idx (iotaInDim ⟨1, ![M]⟩ 32 0) (ix1 p) = BitVec.ofNat 32 kmax.val := by
  rw [scatterMax_iota_apply, hx]
  exact foldl_maxStep_last _ hM kmax hk hmax

end ScatterMax

end Cert.Lib.LastWins
-- ==== Proof.LibLastWins.lean ====
/-
  The "last index wins" z-buffer tail, and its invariance under a strictly increasing re-indexing of the points.

  The tail takes a flat array `pix : [M]` of pixel ids and a flat array `dep : [M]` of depths. Every point `k` proposes
  its own position `k` to the pixel `pix k` by scatter-max into `P1` segments initially `−2³¹`; the first `P` segments
  are kept; pixel `q` then shows `dep` at its winner when the winner is non-negative, and `0` otherwise. Read at a pixel
  `q < P`: it is `dep k` for the LARGEST `k` with `pix k = q`, and `0` when no point has pixel `q`.

  Consequently the tail only depends on the points through "which is the last point on each pixel". If a second family of
  points `(pixK, depK)` contains the first `(pixR, depR)` along a strictly increasing map `φ` of positions, and every
  position outside `φ`'s range carries a pixel id `P` that no kept segment has, then the last `K`-point on a pixel `q < P`
  is `φ` of the last `R`-point on it, and the two tails are equal.
-/
import proofs.«125162_j89988154786228_1_alg».proof.Proof.LibScatterMax
import Idealize.ShloMosaic.PureOps.Ideal.Laws

noncomputable section

namespace Cert.Lib.LastWins

open Idealize.ShloMosaic Idealize.ShloMosaic.ValueIdx Idealize.ShloMosaic.WordArith

/-! ### Two re-indexings read at an index -/

/-- A flat array broadcast to one column, read at `(k, 0)`: the array at `k`. -/
theorem broadcastInDim_col_apply {α : Type} {M : Nat}
    (hb : (⟨1, ![M]⟩ : Shape).BroadcastsInDim ⟨2, ![M, 1]⟩ ![0]) (x : (⟨1, ![M]⟩ : Shape).Idx → α) (k : Fin M) :
    broadcastInDim ⟨2, ![M, 1]⟩ ![0] hb x (ix2 k (0 : Fin 1)) = x (ix1 k) := by
  unfold broadcastInDim
  refine congrArg x (funext fun a => ?_)
  match a with
  | ⟨0, _⟩ =>
    refine Fin.ext ?_
    by_cases h1 : (⟨1, ![M]⟩ : Shape).size ⟨0, Nat.one_pos⟩ = 1
    · rw [dif_pos h1]
      have hM : M = 1 := h1
      show 0 = k.val
      have := k.isLt; omega
    · rw [dif_neg h1]; rfl

/-- The leading `P` elements of a flat array, read at `q`: the array at `q`. -/
theorem slice_front_apply {α : Type} {P1 P : Nat} (hs : (⟨1, ![P1]⟩ : Shape).Slices ![0] ⟨1, ![P]⟩)
    (x : (⟨1, ![P1]⟩ : Shape).Idx → α) (q : Fin P) (hq : q.val < P1) :
    extractStridedSlice ⟨1, ![P]⟩ ![0] x hs (ix1 q) = x (ix1 ⟨q.val, hq⟩) := by
  unfold extractStridedSlice
  refine congrArg x (funext fun a => ?_)
  match a with
  | ⟨0, _⟩ => exact Fin.ext (Nat.zero_add _)

/-- A slice of the leading elements is no longer than the array. -/
theorem le_of_slices_front {P1 P : Nat} (hs : (⟨1, ![P1]⟩ : Shape).Slices ![0] ⟨1, ![P]⟩) : P ≤ P1 := by
  have h := hs.2 ⟨0, Nat.one_pos⟩
  have e : (![0] : Fin 1 → Nat) ⟨0, Nat.one_pos⟩
      + (⟨1, ![P]⟩ : Shape).size ((⟨0, Nat.one_pos⟩ : Fin (⟨1, ![P1]⟩ : Shape).rank).cast hs.1.symm) = 0 + P := rfl
  have e' : (⟨1, ![P1]⟩ : Shape).size ⟨0, Nat.one_pos⟩ = P1 := rfl
  rw [e, e'] at h
  omega

/-! ### The tail -/

/-- THE TAIL, operation for operation: the positions `0 … M − 1`; `P1` segments of `−2³¹`; the pixel ids as one column of
    scatter indices; the scatter-max of the positions; its leading `P` segments (the winners); "winner ≥ 0"; the winner
    clamped at zero; a wrap of negative indices by `+ M` (never taken: the clamped winner is not negative); the gather of
    the depths at the clamped winners; the depth where the winner is non-negative and `0.0` elsewhere. -/
def lastWinsTail (M P1 P : Nat)
    (hb7 : (⟨0, ![]⟩ : Shape).BroadcastsInDim ⟨1, ![P1]⟩ ![])
    (hb8 : (⟨1, ![M]⟩ : Shape).BroadcastsInDim ⟨2, ![M, 1]⟩ ![0])
    (wfS : ScatterDims.WF ⟨1, ![P1]⟩ ⟨2, ![M, 1]⟩ ⟨1, ![M]⟩ [] [0] [0] 1)
    (hsl : (⟨1, ![P1]⟩ : Shape).Slices ![0] ⟨1, ![P]⟩)
    (hbP : (⟨0, ![]⟩ : Shape).BroadcastsInDim ⟨1, ![P]⟩ ![])
    (hb19 : (⟨1, ![P]⟩ : Shape).BroadcastsInDim ⟨2, ![P, 1]⟩ ![0])
    (wfG : GatherDims.WF ⟨1, ![M]⟩ ⟨2, ![P, 1]⟩ ⟨1, ![P]⟩ [] [0] [] [0] [] 1 ![1])
    (pix : IVec ⟨1, ![M]⟩ 32) (dep : FVec Ideal ⟨1, ![M]⟩ .f32) : FVec Ideal ⟨1, ![P]⟩ .f32 :=
  let v6 : IVec ⟨1, ![M]⟩ 32 := iotaInDim ⟨1, ![M]⟩ 32 0
  let v7 : IVec ⟨1, ![P1]⟩ 32 := broadcastInDim ⟨1, ![P1]⟩ ![] hb7 (constantI ⟨0, ![]⟩ 32 2147483648#32)
  let v8 : IVec ⟨2, ![M, 1]⟩ 32 := broadcastInDim ⟨2, ![M, 1]⟩ ![0] hb8 pix
  let v9 : IVec ⟨1, ![P1]⟩ 32 := Host.scatter (scat1Dims P1 M wfS) IntOp.maxsi v7 v8 v6
  let v10 : IVec ⟨1, ![P]⟩ 32 := extractStridedSlice ⟨1, ![P]⟩ ![0] v9 hsl
  let v11 : IVec ⟨1, ![P]⟩ 32 := broadcastInDim ⟨1, ![P]⟩ ![] hbP (constantI ⟨0, ![]⟩ 32 0#32)
  let v12 : IVec ⟨1, ![P]⟩ 1 := cmpi .sge v10 v11
  let c1 : IVec ⟨1, ![P]⟩ 32 := broadcastInDim ⟨1, ![P]⟩ ![] hbP (constantI ⟨0, ![]⟩ 32 0#32)
  let v13 : IVec ⟨1, ![P]⟩ 32 := maxsi c1 v10
  let v14 : IVec ⟨1, ![P]⟩ 32 := broadcastInDim ⟨1, ![P]⟩ ![] hbP (constantI ⟨0, ![]⟩ 32 0#32)
  let v15 : IVec ⟨1, ![P]⟩ 1 := cmpi .slt v13 v14
  let v16 : IVec ⟨1, ![P]⟩ 32 := broadcastInDim ⟨1, ![P]⟩ ![] hbP (constantI ⟨0, ![]⟩ 32 (BitVec.ofNat 32 M))
  let v17 : IVec ⟨1, ![P]⟩ 32 := addi v13 v16
  let v18 : IVec ⟨1, ![P]⟩ 32 := select v15 v17 v13
  let v19 : IVec ⟨2, ![P, 1]⟩ 32 := broadcastInDim ⟨2, ![P, 1]⟩ ![0] hb19 v18
  let v20 : FVec Ideal ⟨1, ![P]⟩ .f32 := Host.gather (take1Dims M P wfG) dep v19
  let w0 : FVec Ideal ⟨1, ![P]⟩ .f32 :=
    broadcastInDim ⟨1, ![P]⟩ ![] hbP (constant (F := Ideal) ⟨0, ![]⟩ .f32 0x00000000#32)
  select v12 v20 w0

section Apply
variable {M P1 P : Nat}
  (hb7 : (⟨0, ![]⟩ : Shape).BroadcastsInDim ⟨1, ![P1]⟩ ![])
  (hb8 : (⟨1, ![M]⟩ : Shape).BroadcastsInDim ⟨2, ![M, 1]⟩ ![0])
  (wfS : ScatterDims.WF ⟨1, ![P1]⟩ ⟨2, ![M, 1]⟩ ⟨1, ![M]⟩ [] [0] [0] 1)
  (hsl : (⟨1, ![P1]⟩ : Shape).Slices ![0] ⟨1, ![P]⟩)
  (hbP : (⟨0, ![]⟩ : Shape).BroadcastsInDim ⟨1, ![P]⟩ ![])
  (hb19 : (⟨1, ![P]⟩ : Shape).BroadcastsInDim ⟨2, ![P, 1]⟩ ![0])
  (wfG : GatherDims.WF ⟨1, ![M]⟩ ⟨2, ![P, 1]⟩ ⟨1, ![P]⟩ [] [0] [] [0] [] 1 ![1])
  (pix : IVec ⟨1, ![M]⟩ 32) (dep : FVec Ideal ⟨1, ![M]⟩ .f32)

/-- The winners: the scatter-max of the positions, its leading `P` segments. -/
def winners : IVec ⟨1, ![P]⟩ 32 :=
  extractStridedSlice ⟨1, ![P]⟩ ![0]
    (Host.scatter (scat1Dims P1 M wfS) IntOp.maxsi
      (broadcastInDim ⟨1, ![P1]⟩ ![] hb7 (constantI ⟨0, ![]⟩ 32 2147483648#32))
      (broadcastInDim ⟨2, ![M, 1]⟩ ![0] hb8 pix) (iotaInDim ⟨1, ![M]⟩ 32 0)) hsl

/-- The index the gather reads for a winner word `wn`: `max 0 wn`, wrapped by `+ M` if that were negative. -/
def readIdx (M : Nat) (wn : BitVec 32) : BitVec 32 :=
  Scalar.select (IntOp.cmpi .slt (IntOp.maxsi 0#32 wn) 0#32) (IntOp.addi (IntOp.maxsi 0#32 wn) (BitVec.ofNat 32 M))
    (IntOp.maxsi 0#32 wn)

/-- The gather's indices, from the winners. -/
def readIdxs (M : Nat) (v10 : IVec ⟨1, ![P]⟩ 32) : IVec ⟨1, ![P]⟩ 32 :=
  select
    (cmpi .slt (maxsi (broadcastInDim ⟨1, ![P]⟩ ![] hbP (constantI ⟨0, ![]⟩ 32 0#32)) v10)
      (broadcastInDim ⟨1, ![P]⟩ ![] hbP (constantI ⟨0, ![]⟩ 32 0#32)))
    (addi (maxsi (broadcastInDim ⟨1, ![P]⟩ ![] hbP (constantI ⟨0, ![]⟩ 32 0#32)) v10)
      (broadcastInDim ⟨1, ![P]⟩ ![] hbP (constantI ⟨0, ![]⟩ 32 (BitVec.ofNat 32 M))))
    (maxsi (broadcastInDim ⟨1, ![P]⟩ ![] hbP (constantI ⟨0, ![]⟩ 32 0#32)) v10)

theorem readIdxs_apply (v10 : IVec ⟨1, ![P]⟩ 32) (q : Fin P) :
    readIdxs hbP M v10 (ix1 q) = readIdx M (v10 (ix1 q)) := rfl

/-- The tail through its two intermediate arrays. -/
theorem lastWinsTail_eq :
    lastWinsTail M P1 P hb7 hb8 wfS hsl hbP hb19 wfG pix dep
      = select (cmpi .sge (winners hb7 hb8 wfS hsl pix) (broadcastInDim ⟨1, ![P]⟩ ![] hbP (constantI ⟨0, ![]⟩ 32 0#32)))
          (Host.gather (take1Dims M P wfG) dep
            (broadcastInDim ⟨2, ![P, 1]⟩ ![0] hb19 (readIdxs hbP M (winners hb7 hb8 wfS hsl pix))))
          (broadcastInDim ⟨1, ![P]⟩ ![] hbP (constant (F := Ideal) ⟨0, ![]⟩ .f32 0x00000000#32)) := rfl

/-- The winner of pixel `q`: the scatter-max of the positions, read at `q`. -/
def winner (q : Fin P) : BitVec 32 :=
  Host.scatter (scat1Dims P1 M wfS) IntOp.maxsi
    (broadcastInDim ⟨1, ![P1]⟩ ![] hb7 (constantI ⟨0, ![]⟩ 32 2147483648#32))
    (broadcastInDim ⟨2, ![M, 1]⟩ ![0] hb8 pix) (iotaInDim ⟨1, ![M]⟩ 32 0)
    (ix1 ⟨q.val, Nat.lt_of_lt_of_le q.isLt (le_of_slices_front hsl)⟩)

theorem winners_apply (q : Fin P) : winners hb7 hb8 wfS hsl pix (ix1 q) = winner hb7 hb8 wfS hsl pix q :=
  slice_front_apply hsl _ q _

/-- The gather's operand is not empty. -/
theorem pos_of_wfG (wfG : GatherDims.WF ⟨1, ![M]⟩ ⟨2, ![P, 1]⟩ ⟨1, ![P]⟩ [] [0] [] [0] [] 1 ![1]) : 0 < M := by
  have h := (take1Dims M P wfG).slice_le ⟨0, Nat.one_pos⟩
  have e : (take1Dims M P wfG).sliceSizes ⟨0, Nat.one_pos⟩ = 1 := rfl
  have e' : (⟨1, ![M]⟩ : Shape).size ⟨0, Nat.one_pos⟩ = M := rfl
  rw [e, e'] at h
  omega

/-- The tail at pixel `q` in terms of the winner `wn` of `q`: `dep` at `readIdx M wn` (read signed and clamped into
    `[0, M − 1]`) when `wn ≥ 0`, and the zero word's value otherwise. -/
theorem lastWinsTail_apply_winner (q : Fin P) :
    lastWinsTail M P1 P hb7 hb8 wfS hsl hbP hb19 wfG pix dep (ix1 q)
      = Scalar.select (IntOp.cmpi .sge (winner hb7 hb8 wfS hsl pix q) 0#32)
          (dep (ix1 ⟨min (readIdx M (winner hb7 hb8 wfS hsl pix q)).toInt.toNat (M - 1),
            by have := pos_of_wfG wfG; omega⟩))
          (Ideal.ofBits .f32 0x00000000#32) := by
  rw [lastWinsTail_eq]
  show Scalar.select (IntOp.cmpi .sge (winners hb7 hb8 wfS hsl pix (ix1 q)) 0#32)
      (Host.gather (take1Dims M P wfG) dep
        (broadcastInDim ⟨2, ![P, 1]⟩ ![0] hb19 (readIdxs hbP M (winners hb7 hb8 wfS hsl pix))) (ix1 q))
      (Ideal.ofBits .f32 0x00000000#32) = _
  have e1 := gather_take1_apply (pos_of_wfG wfG) wfG dep
    (broadcastInDim ⟨2, ![P, 1]⟩ ![0] hb19 (readIdxs hbP M (winners hb7 hb8 wfS hsl pix))) q
  have e2 : broadcastInDim ⟨2, ![P, 1]⟩ ![0] hb19 (readIdxs hbP M (winners hb7 hb8 wfS hsl pix)) (ix2 q (0 : Fin 1))
      = readIdx M (winner hb7 hb8 wfS hsl pix q) :=
    (broadcastInDim_col_apply hb19 (readIdxs hbP M (winners hb7 hb8 wfS hsl pix)) q).trans
      ((readIdxs_apply hbP (winners hb7 hb8 wfS hsl pix) q).trans
        (congrArg (readIdx M) (winners_apply hb7 hb8 wfS hsl pix q)))
  refine Eq.trans (congrArg (fun t => Scalar.select (IntOp.cmpi .sge (winners hb7 hb8 wfS hsl pix (ix1 q)) 0#32) t
    (Ideal.ofBits .f32 0x00000000#32)) e1) ?_
  refine Eq.trans (congrArg (fun t => Scalar.select (IntOp.cmpi .sge t 0#32) _ (Ideal.ofBits .f32 0x00000000#32))
    (winners_apply hb7 hb8 wfS hsl pix q)) ?_
  refine congrArg (fun t => Scalar.select (IntOp.cmpi .sge (winner hb7 hb8 wfS hsl pix q) 0#32) t
    (Ideal.ofBits .f32 0x00000000#32)) (congrArg dep (congrArg ix1 (Fin.ext ?_)))
  exact congrArg (fun b : BitVec 32 => min b.toInt.toNat (M - 1)) e2

/-! ### The winner, and the tail, in terms of the points on the pixel -/

/-- No point has pixel `q`: its winner is the initial `−2³¹`. -/
theorem winner_none (hM31 : M < 2 ^ 31) (q : Fin P) (hno : ∀ k : Fin M, (pix (ix1 k)).toInt ≠ (q.val : Int)) :
    winner hb7 hb8 wfS hsl pix q = 2147483648#32 := by
  unfold winner
  refine scatterMax_iota_none wfS _ _ _ hM31 rfl ?_
  intro k
  rw [broadcastInDim_col_apply hb8 pix k]
  exact hno k

/-- `kmax` is the last point with pixel `q`: the winner of `q` is its position's word. -/
theorem winner_last (hM31 : M < 2 ^ 31) (q : Fin P) (kmax : Fin M) (hk : (pix (ix1 kmax)).toInt = (q.val : Int))
    (hmax : ∀ k : Fin M, (pix (ix1 k)).toInt = (q.val : Int) → k ≤ kmax) :
    winner hb7 hb8 wfS hsl pix q = BitVec.ofNat 32 kmax.val := by
  unfold winner
  refine scatterMax_iota_last wfS _ _ _ hM31 rfl kmax ?_ ?_
  · rw [broadcastInDim_col_apply hb8 pix kmax]; exact hk
  · intro k; rw [broadcastInDim_col_apply hb8 pix k]; exact hmax k

/-- THE TAIL AT A PIXEL NO POINT HAS: zero. -/
theorem lastWinsTail_apply_none (hM31 : M < 2 ^ 31) (q : Fin P)
    (hno : ∀ k : Fin M, (pix (ix1 k)).toInt ≠ (q.val : Int)) :
    lastWinsTail M P1 P hb7 hb8 wfS hsl hbP hb19 wfG pix dep (ix1 q) = 0 := by
  refine (lastWinsTail_apply_winner hb7 hb8 wfS hsl hbP hb19 wfG pix dep q).trans ?_
  have hwn := winner_none hb7 hb8 wfS hsl pix hM31 q hno
  have c : IntOp.cmpi .sge (winner hb7 hb8 wfS hsl pix q) 0#32 = 0#1 := by rw [hwn]; decide
  rw [c, select_zero]
  exact Ideal.ofBits_zero_f32

/-- THE TAIL AT A PIXEL SOME POINT HAS: the depth of the last point on it. -/
theorem lastWinsTail_apply_last (hM31 : M < 2 ^ 31) (q : Fin P) (kmax : Fin M)
    (hk : (pix (ix1 kmax)).toInt = (q.val : Int))
    (hmax : ∀ k : Fin M, (pix (ix1 k)).toInt = (q.val : Int) → k ≤ kmax) :
    lastWinsTail M P1 P hb7 hb8 wfS hsl hbP hb19 wfG pix dep (ix1 q) = dep (ix1 kmax) := by
  refine (lastWinsTail_apply_winner hb7 hb8 wfS hsl hbP hb19 wfG pix dep q).trans ?_
  have hwn := winner_last hb7 hb8 wfS hsl pix hM31 q kmax hk hmax
  have hw : (BitVec.ofNat 32 kmax.val).toInt = (kmax.val : Int) := toInt_pos hM31 kmax
  have h0 : (0#32 : BitVec 32).toInt = 0 := by decide
  have c1 : IntOp.cmpi .sge (BitVec.ofNat 32 kmax.val) 0#32 = 1#1 := by
    show BitVec.ofBool ((0#32 : BitVec 32).sle (BitVec.ofNat 32 kmax.val)) = 1#1
    rw [ofBool_eq_one_iff, BitVec.sle_iff_toInt_le, h0, hw]; omega
  have c2 : IntOp.maxsi 0#32 (BitVec.ofNat 32 kmax.val) = BitVec.ofNat 32 kmax.val := by
    unfold IntOp.maxsi
    rw [if_neg]
    intro h
    rw [BitVec.slt_iff_toInt_lt, h0, hw] at h; omega
  have c3 : IntOp.cmpi .slt (BitVec.ofNat 32 kmax.val) 0#32 = 0#1 := by
    show BitVec.ofBool ((BitVec.ofNat 32 kmax.val).slt 0#32) = 0#1
    have : (BitVec.ofNat 32 kmax.val).slt 0#32 = false := by
      rw [Bool.eq_false_iff]; intro h
      rw [BitVec.slt_iff_toInt_lt, h0, hw] at h; omega
    rw [this]; rfl
  have c4 : readIdx M (BitVec.ofNat 32 kmax.val) = BitVec.ofNat 32 kmax.val := by
    unfold readIdx; rw [c2, c3, select_zero]
  have c1' : IntOp.cmpi .sge (winner hb7 hb8 wfS hsl pix q) 0#32 = 1#1 := by rw [hwn]; exact c1
  rw [c1', select_one]
  refine congrArg dep (congrArg ix1 (Fin.ext ?_))
  show min (readIdx M (winner hb7 hb8 wfS hsl pix q)).toInt.toNat (M - 1) = kmax.val
  rw [hwn, c4, hw]
  have := kmax.isLt; omega

end Apply

end Cert.Lib.LastWins

end
-- ==== Proof.LibLastWinsMono.lean ====
/-
  The "last index wins" tail is invariant under a strictly increasing re-indexing of the points.

  Two families of points, `(pixK, depK)` on `MK` positions and `(pixR, depR)` on `MR` positions, and a strictly increasing
  map `φ` from the `R`-positions into the `K`-positions such that the `K`-point at `φ r` is the `R`-point at `r`, while
  every `K`-position outside `φ`'s range carries the pixel id `P`, which no pixel `q < P` equals. Then for a pixel
  `q < P` the `K`-points on `q` are exactly the `φ r` for the `R`-points `r` on `q`; as `φ` preserves the order, the last
  `K`-point on `q` is `φ` of the last `R`-point on `q`, and it has the same depth; and `q` has no `K`-point exactly when it
  has no `R`-point. So the two tails agree at every pixel.
-/
import proofs.«125162_j89988154786228_1_alg».proof.Proof.LibLastWins

noncomputable section

namespace Cert.Lib.LastWins

open Idealize.ShloMosaic Idealize.ShloMosaic.ValueIdx Idealize.ShloMosaic.WordArith

/-- THE TWO TAILS ARE EQUAL. -/
theorem lastWinsTail_eq_of_strictMono {MK MR P1K P1R P : Nat}
    (hb7K : (⟨0, ![]⟩ : Shape).BroadcastsInDim ⟨1, ![P1K]⟩ ![])
    (hb8K : (⟨1, ![MK]⟩ : Shape).BroadcastsInDim ⟨2, ![MK, 1]⟩ ![0])
    (wfSK : ScatterDims.WF ⟨1, ![P1K]⟩ ⟨2, ![MK, 1]⟩ ⟨1, ![MK]⟩ [] [0] [0] 1)
    (hslK : (⟨1, ![P1K]⟩ : Shape).Slices ![0] ⟨1, ![P]⟩)
    (hbPK : (⟨0, ![]⟩ : Shape).BroadcastsInDim ⟨1, ![P]⟩ ![])
    (hb19K : (⟨1, ![P]⟩ : Shape).BroadcastsInDim ⟨2, ![P, 1]⟩ ![0])
    (wfGK : GatherDims.WF ⟨1, ![MK]⟩ ⟨2, ![P, 1]⟩ ⟨1, ![P]⟩ [] [0] [] [0] [] 1 ![1])
    (hb7R : (⟨0, ![]⟩ : Shape).BroadcastsInDim ⟨1, ![P1R]⟩ ![])
    (hb8R : (⟨1, ![MR]⟩ : Shape).BroadcastsInDim ⟨2, ![MR, 1]⟩ ![0])
    (wfSR : ScatterDims.WF ⟨1, ![P1R]⟩ ⟨2, ![MR, 1]⟩ ⟨1, ![MR]⟩ [] [0] [0] 1)
    (hslR : (⟨1, ![P1R]⟩ : Shape).Slices ![0] ⟨1, ![P]⟩)
    (hbPR : (⟨0, ![]⟩ : Shape).BroadcastsInDim ⟨1, ![P]⟩ ![])
    (hb19R : (⟨1, ![P]⟩ : Shape).BroadcastsInDim ⟨2, ![P, 1]⟩ ![0])
    (wfGR : GatherDims.WF ⟨1, ![MR]⟩ ⟨2, ![P, 1]⟩ ⟨1, ![P]⟩ [] [0] [] [0] [] 1 ![1])
    (hMK : MK < 2 ^ 31) (hMR : MR < 2 ^ 31) (hP : P < 2 ^ 31)
    (φ : Fin MR → Fin MK) (hφ : StrictMono φ)
    (pixK : IVec ⟨1, ![MK]⟩ 32) (depK : FVec Ideal ⟨1, ![MK]⟩ .f32)
    (pixR : IVec ⟨1, ![MR]⟩ 32) (depR : FVec Ideal ⟨1, ![MR]⟩ .f32)
    (h1 : ∀ r : Fin MR, pixK (ix1 (φ r)) = pixR (ix1 r) ∧ depK (ix1 (φ r)) = depR (ix1 r))
    (h2 : ∀ k : Fin MK, (∀ r : Fin MR, φ r ≠ k) → pixK (ix1 k) = BitVec.ofNat 32 P) :
    lastWinsTail MK P1K P hb7K hb8K wfSK hslK hbPK hb19K wfGK pixK depK
      = lastWinsTail MR P1R P hb7R hb8R wfSR hslR hbPR hb19R wfGR pixR depR := by
  funext j
  obtain ⟨q, rfl⟩ : ∃ q : Fin P, j = ix1 q := ⟨j 0, eq_ix1 j⟩
  -- the dump segment's id is not a pixel
  have hqP : (BitVec.ofNat 32 P).toInt ≠ (q.val : Int) := by
    rw [toInt_ofNat_small P hP]; have := q.isLt; omega
  -- every K-point on q is φ of an R-point on q
  have hrange : ∀ k : Fin MK, (pixK (ix1 k)).toInt = (q.val : Int) →
      ∃ r : Fin MR, φ r = k ∧ (pixR (ix1 r)).toInt = (q.val : Int) := by
    intro k hk
    by_cases hex : ∃ r : Fin MR, φ r = k
    · obtain ⟨r, rfl⟩ := hex
      exact ⟨r, rfl, by rw [← (h1 r).1]; exact hk⟩
    · have hpad := h2 k (fun r hr => hex ⟨r, hr⟩)
      rw [hpad] at hk
      exact absurd hk hqP
  by_cases hex : ∃ r : Fin MR, (pixR (ix1 r)).toInt = (q.val : Int)
  · -- the last R-point on q
    have hne : (Finset.univ.filter fun r : Fin MR => (pixR (ix1 r)).toInt = (q.val : Int)).Nonempty := by
      obtain ⟨r, hr⟩ := hex
      exact ⟨r, Finset.mem_filter.2 ⟨Finset.mem_univ _, hr⟩⟩
    obtain ⟨rmax, hrm, hrmax⟩ : ∃ rmax : Fin MR, (pixR (ix1 rmax)).toInt = (q.val : Int) ∧
        ∀ r : Fin MR, (pixR (ix1 r)).toInt = (q.val : Int) → r ≤ rmax :=
      ⟨_, (Finset.mem_filter.1 (Finset.max'_mem _ hne)).2,
        fun r hr => Finset.le_max' _ r (Finset.mem_filter.2 ⟨Finset.mem_univ _, hr⟩)⟩
    rw [lastWinsTail_apply_last hb7R hb8R wfSR hslR hbPR hb19R wfGR pixR depR hMR q rmax hrm hrmax,
      lastWinsTail_apply_last hb7K hb8K wfSK hslK hbPK hb19K wfGK pixK depK hMK q (φ rmax)
        (by rw [(h1 rmax).1]; exact hrm)
        (by
          intro k hk
          obtain ⟨r, rfl, hr⟩ := hrange k hk
          exact hφ.monotone (hrmax r hr))]
    exact (h1 rmax).2
  · rw [lastWinsTail_apply_none hb7R hb8R wfSR hslR hbPR hb19R wfGR pixR depR hMR q (fun r hr => hex ⟨r, hr⟩),
      lastWinsTail_apply_none hb7K hb8K wfSK hslK hbPK hb19K wfGK pixK depK hMK q (by
        intro k hk
        obtain ⟨r, -, hr⟩ := hrange k hk
        exact hex ⟨r, hr⟩)]

end Cert.Lib.LastWins

end
-- ==== Proof.TailLinks.lean ====
/-
  The two programs' z-buffer tails are instances of one general tail.

  Each program ends with the same "last index wins" z-buffer on its own flat arrays: the kernel program on
  `8388608 = 16·524288` padded positions, the reference program on `8000000 = 16·500000` positions, both into `802817`
  segments of which the first `802816` are the pixels. Spelled stage by stage, each is the general tail `lastWinsTail`
  at those sizes, with the program's own dimension numbers and shape facts: the two are the same term.
-/
import proofs.«125162_j89988154786228_1_alg».proof.Proof.KTailDef
import proofs.«125162_j89988154786228_1_alg».proof.Proof.RefTerm
import proofs.«125162_j89988154786228_1_alg».proof.Proof.LibLastWinsMono

noncomputable section

namespace Cert.Proof.Bridge

open Idealize.ShloMosaic Cert.Lib.LastWins

section KSide
open Cert.KernelIdeal Cert.KernelIdeal.Gen Cert.KernelIdeal.KValue

/-- The kernel program's scatter dimension numbers are those of a scatter of scalars into a flat array. -/
theorem sdimsK : scatter_S802817_S8388608x1_S8388608_n_0_0_1
    = scat1Dims 802817 8388608 scatter_S802817_S8388608x1_S8388608_n_0_0_1_wf := rfl

/-- The kernel program's gather dimension numbers are those of `x[idx]` on a flat array. -/
theorem gdimsK : gather_S8388608_S802816x1_S802816_n_0_n_n_0_1_1
    = take1Dims 8388608 802816 gather_S8388608_S802816x1_S802816_n_0_n_n_0_1_1_wf := rfl

/-- The kernel program's winners are the general tail's winners at `M = 8388608`, `P1 = 802817`, `P = 802816`. -/
theorem winK_eq (pix : IVec S8388608 32) :
    winK pix = winners bcast_S_S802817 bcast_S8388608_S8388608x1_0 scatter_S802817_S8388608x1_S8388608_n_0_0_1_wf
      slices_S802817_S802816_0 pix := by
  unfold winK winners
  rw [sdimsK]

/-- THE KERNEL PROGRAM'S TAIL IS THE GENERAL "LAST INDEX WINS" TAIL at `M = 8388608`, `P1 = 802817`, `P = 802816`:
    the same operations on the same arrays, stage by stage (the winners, "winner ≥ 0", the clamp at zero, the wrap by
    `+ 8388608`, the gather, the final select). -/
theorem tailK_eq (pix : IVec S8388608 32) (dep : FVec Ideal S8388608 .f32) :
    tailK pix dep = lastWinsTail 8388608 802817 802816 bcast_S_S802817 bcast_S8388608_S8388608x1_0
      scatter_S802817_S8388608x1_S8388608_n_0_0_1_wf slices_S802817_S802816_0 bcast_S_S802816 bcast_S802816_S802816x1_0
      gather_S8388608_S802816x1_S802816_n_0_n_n_0_1_1_wf pix dep := by
  rw [lastWinsTail_eq]
  unfold tailK hasK idxK clipK
  rw [winK_eq, gdimsK]
  rfl

end KSide

section RSide
open Cert.ReferenceIdeal Cert.ReferenceIdeal.Gen Cert.ReferenceIdeal.RefValue

/-- The reference program's scatter dimension numbers are those of a scatter of scalars into a flat array. -/
theorem sdimsR : scatter_S802817_S8000000x1_S8000000_n_0_0_1
    = scat1Dims 802817 8000000 scatter_S802817_S8000000x1_S8000000_n_0_0_1_wf := rfl

/-- The reference program's gather dimension numbers are those of `x[idx]` on a flat array. -/
theorem gdimsR : gather_S8000000_S802816x1_S802816_n_0_n_n_0_1_1
    = take1Dims 8000000 802816 gather_S8000000_S802816x1_S802816_n_0_n_n_0_1_1_wf := rfl

/-- The reference program's winners are the general tail's winners at `M = 8000000`, `P1 = 802817`, `P = 802816`. -/
theorem winR_eq (pix : IVec S8000000 32) :
    winR pix = winners bcast_S_S802817 bcast_S8000000_S8000000x1_0 scatter_S802817_S8000000x1_S8000000_n_0_0_1_wf
      slices_S802817_S802816_0 pix := by
  unfold winR winners
  rw [sdimsR]

/-- THE REFERENCE PROGRAM'S TAIL IS THE GENERAL "LAST INDEX WINS" TAIL at `M = 8000000`, `P1 = 802817`, `P = 802816`:
    the same operations on the same arrays, stage by stage (the winners, "winner ≥ 0", the clamp at zero, the wrap by
    `+ 8000000`, the gather, the final select). -/
theorem tailR_eq (pix : IVec S8000000 32) (dep : FVec Ideal S8000000 .f32) :
    tailR pix dep = lastWinsTail 8000000 802817 802816 bcast_S_S802817 bcast_S8000000_S8000000x1_0
      scatter_S802817_S8000000x1_S8000000_n_0_0_1_wf slices_S802817_S802816_0 bcast_S_S802816 bcast_S802816_S802816x1_0
      gather_S8000000_S802816x1_S802816_n_0_n_n_0_1_1_wf pix dep := by
  rw [lastWinsTail_eq]
  unfold tailR clipR
  rw [winR_eq, gdimsR]
  rfl

end RSide

end Cert.Proof.Bridge

end
-- ==== Proof.Bridge.lean ====
/-
  The two programs' results are one array. Both end with the same z-buffer — for each pixel, the depth of the point with
  the largest flat position among those scattered to it — applied to flat arrays of different lengths: the kernel's rows are
  padded from 500000 to 524288 positions. Position `b · 500000 + n` of the reference is position `b · 524288 + n` of the
  kernel; the map is strictly increasing, the two programs agree on the segment and the depth of corresponding positions,
  and every other position of the kernel's arrays sits in the dump segment. So for every pixel the last position
  scattered to it on one side corresponds to the last on the other, and the gathered depths are equal.
-/
import proofs.«125162_j89988154786228_1_alg».proof.Proof.KRun
import proofs.«125162_j89988154786228_1_alg».proof.Proof.KFlat
import proofs.«125162_j89988154786228_1_alg».proof.Proof.RefTerm
import proofs.«125162_j89988154786228_1_alg».proof.Proof.LibLastWinsMono
import proofs.«125162_j89988154786228_1_alg».proof.Proof.TailLinks

set_option maxRecDepth 16384

noncomputable section

namespace Cert.Proof.Bridge

open Idealize.ShloMosaic Idealize.ShloMosaic.TcCoe Idealize.ShloMosaic.ValueIdx Idealize.SL.Sem

open Cert.KernelIdeal in
/-- THE RESULTS AGREE: what the kernel program's result buffer holds is the reference's term of the same arguments. -/
theorem result_agree (m : (ℓ : Loc nD τ sig) → Buf (Elt Ideal) ℓ) (c : Dev nD) :
    Cert.KernelIdeal.KValue.resK m c
      = Cert.ReferenceIdeal.RefValue.resR (m ((c : Thread nD τ).loc main_arg0)) (m ((c : Thread nD τ).loc main_arg1))
          (m ((c : Thread nD τ).loc main_arg2)) (m ((c : Thread nD τ).loc main_arg3)) := by
  have h := Cert.Lib.LastWins.lastWinsTail_eq_of_strictMono
    Cert.KernelIdeal.Gen.bcast_S_S802817 Cert.KernelIdeal.Gen.bcast_S8388608_S8388608x1_0
    Cert.KernelIdeal.Gen.scatter_S802817_S8388608x1_S8388608_n_0_0_1_wf Cert.KernelIdeal.Gen.slices_S802817_S802816_0
    Cert.KernelIdeal.Gen.bcast_S_S802816 Cert.KernelIdeal.Gen.bcast_S802816_S802816x1_0
    Cert.KernelIdeal.Gen.gather_S8388608_S802816x1_S802816_n_0_n_n_0_1_1_wf
    Cert.ReferenceIdeal.Gen.bcast_S_S802817 Cert.ReferenceIdeal.Gen.bcast_S8000000_S8000000x1_0
    Cert.ReferenceIdeal.Gen.scatter_S802817_S8000000x1_S8000000_n_0_0_1_wf Cert.ReferenceIdeal.Gen.slices_S802817_S802816_0
    Cert.ReferenceIdeal.Gen.bcast_S_S802816 Cert.ReferenceIdeal.Gen.bcast_S802816_S802816x1_0
    Cert.ReferenceIdeal.Gen.gather_S8000000_S802816x1_S802816_n_0_n_n_0_1_1_wf
    (by norm_num) (by norm_num) (by norm_num)
    Cert.KernelIdeal.KValue.emb Cert.KernelIdeal.KValue.emb_strictMono
    (Cert.KernelIdeal.KValue.segK m c) (Cert.KernelIdeal.KValue.depK m c)
    (Cert.ReferenceIdeal.RefValue.segR (m ((c : Thread nD τ).loc main_arg0)) (m ((c : Thread nD τ).loc main_arg1))
      (m ((c : Thread nD τ).loc main_arg2)) (m ((c : Thread nD τ).loc main_arg3)))
    (Cert.ReferenceIdeal.RefValue.depR (m ((c : Thread nD τ).loc main_arg0)) (m ((c : Thread nD τ).loc main_arg1))
      (m ((c : Thread nD τ).loc main_arg2)))
    (Cert.KernelIdeal.KValue.hit_agree m c) (Cert.KernelIdeal.KValue.pad_dump m c)
  unfold Cert.KernelIdeal.KValue.resK Cert.ReferenceIdeal.RefValue.resR
  rw [tailK_eq, tailR_eq]
  exact congrArg (fun x => shapeCast S16x1x224x224 x Cert.KernelIdeal.Gen.shapeCasts_S802816_S16x1x224x224) h

end Cert.Proof.Bridge

end
-- ==== Proof.lean ====
/-
  The certificate of a point-cloud renderer: a Pallas kernel that projects 16 × 500000 vertices to pixels and depths,
  followed by a "last index wins" z-buffer on the host, against a jnp reference that does the same without tiling.

  The mathematics. For point `n` of batch `b` both programs compute the camera-space coordinates
  `vc_k = ((x_0 · R[k,0] + x_1 · R[k,1]) + x_2 · R[k,2]) + t_k` — the kernel term by term on rows of the transposed
  vertices, the reference as a contraction over the three channels followed by the translation: the same sum in the same
  order on the extended reals —, the image coordinates `f · (vc_k / (vc_2 + ε)) + c` with the same f32 word `ε`, their
  truncation toward zero to signed 32-bit integers, and the segment `b · 224² + v · 224 + u` of an in-image point or the
  dump segment `16 · 224²`. The kernel works on rows padded from 500000 to 524288 = 16 · 32768 positions, one block of 32768
  positions per grid point, and sends every padded position to the dump segment. Both then take, for each pixel, the
  largest flat position scattered to it and gather that position's depth `vc_2`; the kernel's position `b · 524288 + n`
  and the reference's `b · 500000 + n` name the same point, and the correspondence is strictly increasing, so the
  winners correspond and the gathered depths are equal. No step uses a law of the extended reals beyond reading the
  same expression on both sides, so the precondition (finite inputs) is never opened.

  The three frames: the two kernel programs' by their frame certificates (the body run symbolically at a generic grid
  point, the launch and the host lines around it by the library's theorems); the reference's by its run, written out
  operation by operation, with the result dropped. The ledger of the ideal pass is empty, so `preserves` is trivial.
-/
import proofs.«125162_j89988154786228_1_alg».proof.Defs
import proofs.«125162_j89988154786228_1_alg».proof.Proof.Gen.Kernel
import proofs.«125162_j89988154786228_1_alg».proof.Proof.Gen.KernelIdeal
import proofs.«125162_j89988154786228_1_alg».proof.Proof.Gen.ReferenceIdeal
import proofs.«125162_j89988154786228_1_alg».proof.Proof.Gen.Pre_finite_inputs
import proofs.«125162_j89988154786228_1_alg».proof.Proof.KernelFrame
import proofs.«125162_j89988154786228_1_alg».proof.Proof.KernelIdealFrame
import proofs.«125162_j89988154786228_1_alg».proof.Proof.KRun
import proofs.«125162_j89988154786228_1_alg».proof.Proof.RefRun
import proofs.«125162_j89988154786228_1_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.GenP.frame m ρ

/-- The idealized kernel program runs and leaves its arguments as they were. -/
theorem frame_ki : Cert.frame_KernelIdeal := fun m ρ _ => Cert.KernelIdeal.GenP.frame m ρ

/-- The idealized reference runs and leaves its arguments as they were: its run with the result dropped. -/
theorem frame_ri : Cert.frame_ReferenceIdeal := fun m ρ _ =>
  (θ_run Cert.ReferenceIdeal.defs _ _).mono (fun _ h c => (h c).2) (Cert.ReferenceIdeal.RefValue.run m ρ)

/-- From memories that agree on the arguments both idealized programs run, and the reference's result is the kernel
    program's: each ends at its own composed term of the arguments, and the two terms are one array. -/
theorem algebraic : Cert.algebraic_KernelIdeal_ReferenceIdeal := by
  intro m ρ m' ρ' _ hagree
  refine ⟨fun c => Cert.KernelIdeal.KValue.resK m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact (Cert.Proof.Bridge.result_agree m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
